-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096x256 : Shape := ⟨2, ![4096, 256]⟩
abbrev S256x512 : Shape := ⟨2, ![256, 512]⟩
abbrev S256 : Shape := ⟨1, ![256]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x3 .f32) (main_arg1 : FVec F S4096x256 .f32) (main_arg2 : FVec F S256x512 .f32) (main_arg3 : FVec F S256 .f32) (main_arg4 : FVec F S256x512 .f32) (main_arg5 : FVec F S256 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x3 : Shape := ⟨2, ![4096, 3]⟩
abbrev S4096x256 : Shape := ⟨2, ![4096, 256]⟩
abbrev S256x512 : Shape := ⟨2, ![256, 512]⟩
abbrev S256 : Shape := ⟨1, ![256]⟩
abbrev S256x256 : Shape := ⟨2, ![256, 256]⟩
abbrev S1024x256 : Shape := ⟨2, ![1024, 256]⟩
abbrev S1x256 : Shape := ⟨2, ![1, 256]⟩
abbrev S4096x512 : Shape := ⟨2, ![4096, 512]⟩
abbrev S512x3 : Shape := ⟨2, ![512, 3]⟩
abbrev S512x256 : Shape := ⟨2, ![512, 256]⟩
abbrev S512x512 : Shape := ⟨2, ![512, 512]⟩
abbrev S512x1 : Shape := ⟨2, ![512, 1]⟩
abbrev S3x512 : Shape := ⟨2, ![3, 512]⟩
abbrev S1x512 : Shape := ⟨2, ![1, 512]⟩
abbrev S512 : Shape := ⟨1, ![512]⟩

abbrev nBuf : Space → Nat
  | .hbm => 21
  | .vmem => 25
  | .smem => 0
  | _ => 0

abbrev bufTy : (tb : Table) → Fin (tcTables nBuf tb) → BufTy
  | .hbm, ⟨0, _⟩ => ⟨S4096x3, .f32⟩
  | .hbm, ⟨1, _⟩ => ⟨S4096x256, .f32⟩
  | .hbm, ⟨2, _⟩ => ⟨S256x512, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S4096x256, .f32⟩
  | .hbm, ⟨17, _⟩ => ⟨S4096x256, .f32⟩
  | .hbm, ⟨18, _⟩ => ⟨S1x256, .f32⟩
  | .hbm, ⟨19, _⟩ => ⟨S1x256, .f32⟩
  | .hbm, ⟨20, _⟩ => ⟨S4096x512, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S512x3, .f32⟩
  | .local _ .vmem, ⟨9, _⟩ => ⟨S512x3, .f32⟩
  | .local _ .vmem, ⟨10, _⟩ => ⟨S512x3, .f32⟩
  | .local _ .vmem, ⟨11, _⟩ => ⟨S512x3, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S512x512, .f32⟩
  | .local _ .vmem, ⟨22, _⟩ => ⟨S512x512, .f32⟩
  | .local _ .vmem, ⟨23, _⟩ => ⟨S512x256, .f32⟩
  | .local _ .vmem, ⟨24, _⟩ => ⟨S512x1, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_17 : BitVec 32 := 0#32
  let v59 : BitVec 1 := Scalar.cmpi .ne v58 c0_i32_17
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  slices_S256x512_S256x256_0_0 : S256x512.Slices ![0, 0] S256x256
  slices_S256x512_S256x256_0_256 : S256x512.Slices ![0, 256] S256x256
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x256_0_0 : ∀ a, (![0, 0] : Fin 2 → Nat) a + S512x256.size a ≤ S512x512.size a
  inb_S512x3_S512x3_0_0 : ∀ a, (![0, 0] : Fin 2 → Nat) a + S512x3.size a ≤ S512x3.size a
  h_S512x3 : 0 < S512x3.numel
  transposes_S512x3_p1_0_S3x512 : S512x3.Transposes [1, 0] S3x512
  slices_S512x3_o0_0_S512x1 : S512x3.Slices ![0, 0] S512x1
  slices_S3x512_o0_0_S1x512 : S3x512.Slices ![0, 0] S1x512
  broadcasts_S512x1_S512x512 : S512x1.Broadcasts S512x512
  broadcasts_S1x512_S512x512 : S1x512.Broadcasts S512x512
  slices_S512x3_o0_1_S512x1 : S512x3.Slices ![0, 1] S512x1
  slices_S3x512_o1_0_S1x512 : S3x512.Slices ![1, 0] S1x512
  slices_S512x3_o0_2_S512x1 : S512x3.Slices ![0, 2] S512x1
  slices_S3x512_o2_0_S1x512 : S3x512.Slices ![2, 0] S1x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  broadcasts_S512x1_S512x256 : S512x1.Broadcasts S512x256
  inb_S512x512_S512x256_0_256 : ∀ a, (![0, 256] : Fin 2 → Nat) a + S512x256.size a ≤ S512x512.size a
  dot_S1024x256_S256x256_S1024x256_1_0_0_1_n_n_wf : DotDims.WF S1024x256 S256x256 S1024x256 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .f32 = 32 ∨ (Rect.block (s := S4096x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x256.size a
  hwx0_4 : ∀ i : grid0.Coords, EltTy.bits .f32 = 32 ∨ (Rect.block (s := S4096x256) S1024x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S4096x3.size a
  hwx1_0 : ∀ i : grid1.Coords, EltTy.bits .f32 = 32 ∨ (Rect.block (s := S4096x3) S512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x3.size a ≤ S4096x3.size a
  hwx1_1 : ∀ i : grid1.Coords, EltTy.bits .f32 = 32 ∨ (Rect.block (s := S4096x3) S512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x256.size a
  hwx1_2 : ∀ i : grid1.Coords, EltTy.bits .f32 = 32 ∨ (Rect.block (s := S4096x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S4096x512.size a
  hwx1_8 : ∀ i : grid1.Coords, EltTy.bits .f32 = 32 ∨ (Rect.block (s := S4096x512) S512x512.size (cc1_transform_8 i) (hinb1_8 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S512x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S512x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond1 i == 1#1) && !(k1_cond2 i == 1#1) | ⟨_ + 9, h⟩ => absurd h (Nat.not_lt.2 (Nat.le_add_left _ _))

class Facts : Prop extends Facts₀ where

variable [Facts]
-- ==== ReferenceIdeal.lean ====
abbrev S4096x3 : Shape := ⟨2, ![4096, 3]⟩
abbrev S4096x256 : Shape := ⟨2, ![4096, 256]⟩
abbrev S256x512 : Shape := ⟨2, ![256, 512]⟩
abbrev S256 : Shape := ⟨1, ![256]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S256x256 : Shape := ⟨2, ![256, 256]⟩
abbrev S1x256 : Shape := ⟨2, ![1, 256]⟩
abbrev S4096x512 : Shape := ⟨2, ![4096, 512]⟩

abbrev nBuf : Space → Nat
  | .hbm => 57
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x256, .f32⟩
  | .hbm, ⟨2, _⟩ => ⟨S256x512, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S4096x1x3, .f32⟩
  | .hbm, ⟨7, _⟩ => ⟨S1x4096x3, .f32⟩
  | .hbm, ⟨8, _⟩ => ⟨S4096x4096x3, .f32⟩
  | .hbm, ⟨9, _⟩ => ⟨S4096x4096x3, .f32⟩
  | .hbm, ⟨10, _⟩ => ⟨S4096x4096x3, .f32⟩
  | .hbm, ⟨11, _⟩ => ⟨S4096x4096x3, .f32⟩
  | .hbm, ⟨12, _⟩ => ⟨S_, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x4096, .i1⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S4096x256, .f32⟩
  | .hbm, ⟨34, _⟩ => ⟨S256x256, .f32⟩
  | .hbm, ⟨35, _⟩ => ⟨S4096x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S4096x256, .f32⟩
  | .hbm, ⟨41, _⟩ => ⟨S1x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S1x256, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x256, .f32⟩
  | .hbm, ⟨55, _⟩ => ⟨S4096x256, .f32⟩
  | .hbm, ⟨56, _⟩ => ⟨S4096x512, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]

class Facts₀ : Prop where
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  reducesTo_S4096x4096_S4096_d1 : S4096x4096.ReducesTo [1] S4096
  bcast_S4096_S4096x1_0 : S4096.BroadcastsInDim S4096x1 (![0] : Fin 1 → Fin S4096x1.rank)
  slices_S256x512_S256x256_0_0 : S256x512.Slices ![0, 0] S256x256
  slices_S256x512_S256x256_0_256 : S256x512.Slices ![0, 256] S256x256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Spec.lean ====
/-
  The function both programs compute, written once in plain mathematics on the extended reals.

  Inputs: centres `cen` (4096 points in 3-space), descriptors `desc` (4096 rows of 256), two weight matrices
  `W1`, `W2` (256 × 512, each read as two 256 × 256 halves side by side) and two bias vectors `b1`, `b2`.

  * `Amat`, `Bmat`, `Cmat`: the transposed half-differences (W1a − W1b)ᵀ, W1bᵀ, (W2a − W2b)ᵀ.
  * `u = desc · Amat`, `v = desc · Bmat`.
  * `d2 p k`: the squared distance between centres p and k, the three squared coordinate differences added.
  * `M p k`: 1 when d2 p k ≤ 1/64 and p ≠ k, else 0 (k is a neighbour of the anchor p).
  * `deg p = Σ_k M p k`, `Mu p = Σ_k M p k · u k`.
  * `h p = Mu p + deg p · (v p + b1)`, `pooled p = (h p · Cmat + deg p · b2) · 1/4096`.
  * `G`: row p is the descriptor row followed by `pooled p`.
-/
import Idealize.ShloMosaic.Lib.ValueIdx

noncomputable section

open scoped BigOperators

namespace Cert.Spec

open Idealize.ShloMosaic Idealize.ShloMosaic.ValueIdx

abbrev Cen := (⟨2, ![4096, 3]⟩ : Shape).Idx → EReal
abbrev Desc := (⟨2, ![4096, 256]⟩ : Shape).Idx → EReal
abbrev Wt := (⟨2, ![256, 512]⟩ : Shape).Idx → EReal
abbrev Bias := (⟨1, ![256]⟩ : Shape).Idx → EReal
abbrev Out := (⟨2, ![4096, 512]⟩ : Shape).Idx → EReal

/-- Column s of the left half of a 256 × 512 matrix. -/
def lo (s : Fin 256) : Fin 512 := ⟨s.val, by omega⟩
/-- Column s of the right half. -/
def hi (s : Fin 256) : Fin 512 := ⟨s.val + 256, by omega⟩

/-- (Wa − Wb)ᵀ at (s, r): row r of W, column s of the left half minus column s of the right half. -/
def diffT (W : Wt) (s r : Fin 256) : EReal := W (ix2 r (lo s)) - W (ix2 r (hi s))
/-- Wbᵀ at (s, r). -/
def rightT (W : Wt) (s r : Fin 256) : EReal := W (ix2 r (hi s))

def u (desc : Desc) (W1 : Wt) (k : Fin 4096) (r : Fin 256) : EReal := ∑ s : Fin 256, desc (ix2 k s) * diffT W1 s r
def v (desc : Desc) (W1 : Wt) (k : Fin 4096) (r : Fin 256) : EReal := ∑ s : Fin 256, desc (ix2 k s) * rightT W1 s r

/-- One squared coordinate difference of the centres p and k. -/
def sq (cen : Cen) (p k : Fin 4096) (a : Fin 3) : EReal := (cen (ix2 p a) - cen (ix2 k a)) * (cen (ix2 p a) - cen (ix2 k a))
/-- The squared distance between centres p and k. -/
def d2 (cen : Cen) (p k : Fin 4096) : EReal := sq cen p k 0 + sq cen p k 1 + sq cen p k 2

/-- The squared radius, 1/64. -/
def r2 : EReal := ((1 / 64 : ℝ) : EReal)

open Classical in
/-- 1 when k is a neighbour of the anchor p (within the radius, and not p itself), else 0. -/
def M (cen : Cen) (p k : Fin 4096) : EReal := if d2 cen p k ≤ r2 ∧ p ≠ k then 1 else 0

def deg (cen : Cen) (p : Fin 4096) : EReal := ∑ k : Fin 4096, M cen p k
def Mu (cen : Cen) (desc : Desc) (W1 : Wt) (p : Fin 4096) (r : Fin 256) : EReal := ∑ k : Fin 4096, M cen p k * u desc W1 k r
def h (cen : Cen) (desc : Desc) (W1 : Wt) (b1 : Bias) (p : Fin 4096) (r : Fin 256) : EReal :=
  Mu cen desc W1 p r + deg cen p * (v desc W1 p r + b1 (ix1 r))
def pooled (cen : Cen) (desc : Desc) (W1 : Wt) (b1 : Bias) (W2 : Wt) (b2 : Bias) (p : Fin 4096) (j : Fin 256) : EReal :=
  ((∑ r : Fin 256, h cen desc W1 b1 p r * diffT W2 r j) + deg cen p * b2 (ix1 j)) * ((1 / 4096 : ℝ) : EReal)

/-- The result: row p is the descriptor row (columns 0–255) followed by `pooled p` (columns 256–511). -/
def G (cen : Cen) (desc : Desc) (W1 : Wt) (b1 : Bias) (W2 : Wt) (b2 : Bias) : Out := fun i =>
  if hlt : (i 1).val < 256 then desc (ix2 (i 0) ⟨(i 1).val, hlt⟩)
  else pooled cen desc W1 b1 W2 b2 (i 0) ⟨(i 1).val - 256, by have := idx2_lt1 i; omega⟩

end Cert.Spec

end
-- ==== Proof.RefMask.lean ====
/-
  The reference's neighbour mask and degree, read index by index.

  For two centres p and k the reference adds the three squared coordinate differences to a zero start and compares
  the sum with 1/64. It removes the diagonal by comparing the two position counters as 32-bit words: positions
  below 4096 are equal as words exactly when they are equal. The one-bit answer is then read as the number 0 or 1,
  which is `Spec.M`; a row of it summed from a zero start is `Spec.deg`.
-/
import proofs.«105388_j24962349924890_1_alg».proof.Proof.Gen.ReferenceIdeal.Read
import proofs.«105388_j24962349924890_1_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-! ## The squared distance -/

/-- One squared coordinate difference of the centres p and k. -/
theorem sq_eq (cen : FVec Ideal S4096x3 .f32) (p k : Fin 4096) (a : Fin 3) :
    val_main_v5 (F := Ideal) cen (idx_main_v6 (ix2 p k) a) = Cert.Spec.sq cen p k a := by
  have e0 : idx_main_v0 (idx_main_v2 (idx_main_v6 (ix2 p k) a)) = ix2 p a :=
    funext fun d => Fin.ext (by match d with | ⟨0, _⟩ => rfl | ⟨1, _⟩ => rfl)
  have e1 : idx_main_v1 (idx_main_v3 (idx_main_v6 (ix2 p k) a)) = ix2 k a :=
    funext fun d => Fin.ext (by match d with | ⟨0, _⟩ => rfl | ⟨1, _⟩ => rfl)
  rw [val_main_v5_apply, val_main_v4_apply, val_main_v2_apply, val_main_v3_apply, val_main_v0_apply,
    val_main_v1_apply, e0, e1]
  rfl

/-- The sum from zero of the three squares is the squared distance. -/
theorem d2_eq (cen : FVec Ideal S4096x3 .f32) (p k : Fin 4096) :
    val_main_v6 (F := Ideal) cen (ix2 p k) = Cert.Spec.d2 cen p k := by
  rw [val_main_v6_apply, val_main_cst_apply, Ideal.ofBits_def, Ideal.ofBits_zero_f32, zero_add, Fin.sum_univ_three,
    sq_eq, sq_eq, sq_eq]
  rfl

/-! ## The mask -/

/-- The radius word denotes 2⁻⁶ = 1/64. -/
theorem r2_word : Ideal.ofBits .f32 0x3C800000#32 = Cert.Spec.r2 := by
  unfold Cert.Spec.r2
  simp [Ideal.ofBits, Ideal.ieee, -EReal.coe_mul]
  norm_num

/-- Two positions below 4096 are equal as 32-bit words exactly when they are equal. -/
theorem word_eq_iff (p k : Fin 4096) : BitVec.ofNat 32 p.val = BitVec.ofNat 32 k.val ↔ p = k := by
  constructor
  · intro h
    have h2 := congrArg BitVec.toNat h
    rw [BitVec.toNat_ofNat, BitVec.toNat_ofNat, Nat.mod_eq_of_lt (lt_trans p.isLt (by norm_num)),
      Nat.mod_eq_of_lt (lt_trans k.isLt (by norm_num))] at h2
    exact Fin.ext h2
  · intro h; rw [h]

/-- The diagonal test on words is the test p = k. -/
theorem diag_word (p k : Fin 4096) :
    IntOp.cmpi .eq (IntOp.addi (BitVec.ofNat 32 p.val) 0#32) (BitVec.ofNat 32 k.val) = BitVec.ofBool (decide (p = k)) := by
  unfold IntOp.cmpi IntOp.addi
  rw [BitVec.add_zero]
  congr 1
  rw [Bool.eq_iff_iff, beq_iff_eq, decide_eq_true_iff]
  exact word_eq_iff p k

/-- "a and not b" on one-bit words, read as a natural number. -/
theorem bit_nat (a b : Bool) :
    (IntOp.andi (BitVec.ofBool a) (~~~ BitVec.ofBool b)).toNat = if a = true ∧ b = false then 1 else 0 := by
  cases a <;> cases b <;> rfl

/-- The mask entry: 1 when k is within the radius of p and is not p, else 0. -/
theorem mask_eq (cen : FVec Ideal S4096x3 .f32) (p k : Fin 4096) :
    val_main_v16 (F := Ideal) cen (ix2 p k) = Cert.Spec.M cen p k := by
  rw [val_main_v16_apply, val_main_v15_apply, val_main_v8_apply, val_main_v14_apply, val_main_v13_apply,
    val_main_v12_apply, val_main_v9_apply, val_main_v10_apply, val_main_v11_apply, val_main_c_apply,
    val_main_v7_apply, val_main_cst_0_apply, d2_eq]
  show (((IntOp.andi (Ideal.cmp .ole (Cert.Spec.d2 cen p k) (Ideal.ofBits .f32 0x3C800000#32))
      (~~~ IntOp.cmpi .eq (IntOp.addi (BitVec.ofNat 32 p.val) 0#32) (BitVec.ofNat 32 k.val))).toNat : ℝ) : EReal) = _
  rw [r2_word, diag_word]
  show (((IntOp.andi (BitVec.ofBool (decide (Cert.Spec.d2 cen p k ≤ Cert.Spec.r2)))
      (~~~ BitVec.ofBool (decide (p = k)))).toNat : ℝ) : EReal) = _
  rw [bit_nat]
  unfold Cert.Spec.M
  by_cases h : Cert.Spec.d2 cen p k ≤ Cert.Spec.r2 ∧ p ≠ k
  · rw [if_pos h, if_pos ⟨decide_eq_true h.1, decide_eq_false h.2⟩]
    simp
  · rw [if_neg h, if_neg (fun h' => h ⟨of_decide_eq_true h'.1, of_decide_eq_false h'.2⟩)]
    simp

/-! ## The degree -/

/-- A row of the mask summed from zero is the degree. -/
theorem deg_eq (cen : FVec Ideal S4096x3 .f32) (p : Fin 4096) :
    val_main_v17 (F := Ideal) cen (ix1 p) = Cert.Spec.deg cen p := by
  rw [val_main_v17_apply, val_main_cst_1_apply, Ideal.ofBits_def, Ideal.ofBits_zero_f32, zero_add]
  unfold Cert.Spec.deg
  refine Finset.sum_congr rfl fun k _ => ?_
  have e : idx_main_v17 (ix1 p) k = ix2 p k :=
    funext fun d => Fin.ext (by match d with | ⟨0, _⟩ => rfl | ⟨1, _⟩ => rfl)
  rw [e, mask_eq]

end Cert.RefValue

end
-- ==== Proof.RefDense.lean ====
/-
  The reference's three weight matrices and its two descriptor products, read index by index.

  Each 256 × 512 weight matrix is cut into a left and a right 256 × 256 half; the reference forms the transposed
  difference of the halves (for both weight matrices) and the transposed right half (for the first). Column s of
  the right half is column 256 + s of the whole matrix. The products of the descriptors with the first matrix's two
  transposes are sums over the 256 descriptor entries: `Spec.u` and `Spec.v`.
-/
import proofs.«105388_j24962349924890_1_alg».proof.Proof.Gen.ReferenceIdeal.Read
import proofs.«105388_j24962349924890_1_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-! ## The transposed halves -/

/-- The first matrix's transposed half-difference at (s, r). -/
theorem diffT1_eq (W1 : FVec Ideal S256x512 .f32) (s r : Fin 256) :
    val_main_v22 (F := Ideal) W1 (ix2 s r) = Cert.Spec.diffT W1 s r := by
  have e19 : idx_main_v19 (idx_main_v22 (ix2 s r)) = ix2 r (Cert.Spec.lo s) :=
    funext fun d => Fin.ext (by match d with | ⟨0, _⟩ => rfl | ⟨1, _⟩ => rfl)
  have e20 : idx_main_v20 (idx_main_v22 (ix2 s r)) = ix2 r (Cert.Spec.hi s) :=
    funext fun d => Fin.ext (by match d with | ⟨0, _⟩ => rfl | ⟨1, _⟩ => exact Nat.add_comm _ _)
  rw [val_main_v22_apply, val_main_v21_apply, val_main_v19_apply, val_main_v20_apply, e19, e20]
  rfl

/-- The first matrix's transposed right half at (s, r). -/
theorem rightT1_eq (W1 : FVec Ideal S256x512 .f32) (s r : Fin 256) :
    val_main_v24 (F := Ideal) W1 (ix2 s r) = Cert.Spec.rightT W1 s r := by
  have e20 : idx_main_v20 (idx_main_v24 (ix2 s r)) = ix2 r (Cert.Spec.hi s) :=
    funext fun d => Fin.ext (by match d with | ⟨0, _⟩ => rfl | ⟨1, _⟩ => exact Nat.add_comm _ _)
  rw [val_main_v24_apply, val_main_v20_apply, e20]
  rfl

/-- The second matrix's transposed half-difference at (r, j). -/
theorem diffT2_eq (W2 : FVec Ideal S256x512 .f32) (r j : Fin 256) :
    val_main_v29 (F := Ideal) W2 (ix2 r j) = Cert.Spec.diffT W2 r j := by
  have e26 : idx_main_v26 (idx_main_v29 (ix2 r j)) = ix2 j (Cert.Spec.lo r) :=
    funext fun d => Fin.ext (by match d with | ⟨0, _⟩ => rfl | ⟨1, _⟩ => rfl)
  have e27 : idx_main_v27 (idx_main_v29 (ix2 r j)) = ix2 j (Cert.Spec.hi r) :=
    funext fun d => Fin.ext (by match d with | ⟨0, _⟩ => rfl | ⟨1, _⟩ => exact Nat.add_comm _ _)
  rw [val_main_v29_apply, val_main_v28_apply, val_main_v26_apply, val_main_v27_apply, e26, e27]
  rfl

/-! ## The two descriptor products -/

/-- Row k of the descriptors against column r of the transposed half-difference. -/
theorem u_eq (desc : FVec Ideal S4096x256 .f32) (W1 : FVec Ideal S256x512 .f32) (k : Fin 4096) (r : Fin 256) :
    val_main_v23 (F := Ideal) desc W1 (ix2 k r) = Cert.Spec.u desc W1 k r := by
  rw [val_main_v23_apply]
  unfold Cert.Spec.u
  refine Finset.sum_congr rfl fun s _ => ?_
  have el : lidx_main_v23 (ix2 k r) s = ix2 k s :=
    funext fun d => Fin.ext (by match d with | ⟨0, _⟩ => rfl | ⟨1, _⟩ => rfl)
  have er : ridx_main_v23 (ix2 k r) s = ix2 s r :=
    funext fun d => Fin.ext (by match d with | ⟨0, _⟩ => rfl | ⟨1, _⟩ => rfl)
  rw [el, er, diffT1_eq]

/-- Row p of the descriptors against column r of the transposed right half. -/
theorem v_eq (desc : FVec Ideal S4096x256 .f32) (W1 : FVec Ideal S256x512 .f32) (p : Fin 4096) (r : Fin 256) :
    val_main_v25 (F := Ideal) desc W1 (ix2 p r) = Cert.Spec.v desc W1 p r := by
  rw [val_main_v25_apply]
  unfold Cert.Spec.v
  refine Finset.sum_congr rfl fun s _ => ?_
  have el : lidx_main_v25 (ix2 p r) s = ix2 p s :=
    funext fun d => Fin.ext (by match d with | ⟨0, _⟩ => rfl | ⟨1, _⟩ => rfl)
  have er : ridx_main_v25 (ix2 p r) s = ix2 s r :=
    funext fun d => Fin.ext (by match d with | ⟨0, _⟩ => rfl | ⟨1, _⟩ => rfl)
  rw [el, er, rightT1_eq]

end Cert.RefValue

end
-- ==== Proof.RefValue.lean ====
/-
  The reference's result is `Spec.G`.

  With the mask, the degree and the two descriptor products read (the modules this one imports), what is left is
  arithmetic entry by entry: the masked sum of the rows of u; the degree times the second product plus the first
  bias; the product with the second matrix's transposed half-difference plus the degree times the second bias; and
  the division by 4096, which on the extended reals is the multiplication by 1/4096 at every value, the infinities
  included. Last, the two column ranges of the result: columns below 256 hold the descriptor row, the others the
  pooled row.
-/
import proofs.«105388_j24962349924890_1_alg».proof.Proof.RefMask
import proofs.«105388_j24962349924890_1_alg».proof.Proof.RefDense

noncomputable section

open scoped BigOperators

namespace Cert.RefValue

open Cert.ReferenceIdeal Cert.ReferenceIdeal.Gen Cert.ReferenceIdeal.Read Idealize.ShloMosaic Idealize.ShloMosaic.ValueIdx

/-- The divisor's word denotes 2¹² = 4096. -/
theorem n_word : Ideal.ofBits .f32 0x45800000#32 = ((4096 : ℝ) : EReal) := by
  simp [Ideal.ofBits, Ideal.ieee, -EReal.coe_mul]
  try norm_num

/-- The masked sum of the rows of u. -/
theorem Mu_eq (cen : FVec Ideal S4096x3 .f32) (desc : FVec Ideal S4096x256 .f32) (W1 : FVec Ideal S256x512 .f32)
    (p : Fin 4096) (r : Fin 256) :
    val_main_v30 (F := Ideal) cen desc W1 (ix2 p r) = Cert.Spec.Mu cen desc W1 p r := by
  rw [val_main_v30_apply]
  unfold Cert.Spec.Mu
  refine Finset.sum_congr rfl fun k _ => ?_
  have el : lidx_main_v30 (ix2 p r) k = ix2 p k :=
    funext fun d => Fin.ext (by match d with | ⟨0, _⟩ => rfl | ⟨1, _⟩ => rfl)
  have er : ridx_main_v30 (ix2 p r) k = ix2 k r :=
    funext fun d => Fin.ext (by match d with | ⟨0, _⟩ => rfl | ⟨1, _⟩ => rfl)
  rw [el, er, mask_eq, u_eq]

/-- The degree, repeated along a row (its first use). -/
theorem degRow1_eq (cen : FVec Ideal S4096x3 .f32) (p : Fin 4096) (r : Fin 256) :
    val_main_v34 (F := Ideal) cen (ix2 p r) = Cert.Spec.deg cen p := by
  have e : idx_main_v18 (idx_main_v34 (ix2 p r)) = ix1 p :=
    funext fun d => Fin.ext (by match d with | ⟨0, _⟩ => rfl)
  rw [val_main_v34_apply, val_main_v18_apply, e, deg_eq]

/-- The degree, repeated along a row (its second use). -/
theorem degRow2_eq (cen : FVec Ideal S4096x3 .f32) (p : Fin 4096) (j : Fin 256) :
    val_main_v39 (F := Ideal) cen (ix2 p j) = Cert.Spec.deg cen p := by
  have e : idx_main_v18 (idx_main_v39 (ix2 p j)) = ix1 p :=
    funext fun d => Fin.ext (by match d with | ⟨0, _⟩ => rfl)
  rw [val_main_v39_apply, val_main_v18_apply, e, deg_eq]

/-- The hidden row: the masked sum plus the degree times (v + b1). -/
theorem h_eq (cen : FVec Ideal S4096x3 .f32) (desc : FVec Ideal S4096x256 .f32) (W1 : FVec Ideal S256x512 .f32)
    (b1 : FVec Ideal S256 .f32) (p : Fin 4096) (r : Fin 256) :
    val_main_v36 (F := Ideal) cen desc W1 b1 (ix2 p r) = Cert.Spec.h cen desc W1 b1 p r := by
  have eb : idx_main_v31 (idx_main_v32 (ix2 p r)) = ix1 r :=
    funext fun d => Fin.ext (by match d with | ⟨0, _⟩ => rfl)
  rw [val_main_v36_apply, val_main_v35_apply, val_main_v33_apply, val_main_v32_apply, val_main_v31_apply, eb,
    Mu_eq, degRow1_eq, v_eq]
  rfl

/-- The pooled row: (h · Cmat + deg · b2) · 1/4096. -/
theorem pooled_eq (cen : FVec Ideal S4096x3 .f32) (desc : FVec Ideal S4096x256 .f32) (W1 : FVec Ideal S256x512 .f32)
    (b1 : FVec Ideal S256 .f32) (W2 : FVec Ideal S256x512 .f32) (b2 : FVec Ideal S256 .f32) (p : Fin 4096) (j : Fin 256) :
    val_main_v44 (F := Ideal) cen desc W1 b1 W2 b2 (ix2 p j) = Cert.Spec.pooled cen desc W1 b1 W2 b2 p j := by
  have eb : idx_main_v38 (idx_main_v40 (ix2 p j)) = ix1 j :=
    funext fun d => Fin.ext (by match d with | ⟨0, _⟩ => rfl)
  have hsum : val_main_v37 (F := Ideal) cen desc W1 b1 W2 (ix2 p j)
      = ∑ r : Fin 256, Cert.Spec.h cen desc W1 b1 p r * Cert.Spec.diffT W2 r j := by
    rw [val_main_v37_apply]
    refine Finset.sum_congr rfl fun r _ => ?_
    have el : lidx_main_v37 (ix2 p j) r = ix2 p r :=
      funext fun d => Fin.ext (by match d with | ⟨0, _⟩ => rfl | ⟨1, _⟩ => rfl)
    have er : ridx_main_v37 (ix2 p j) r = ix2 r j :=
      funext fun d => Fin.ext (by match d with | ⟨0, _⟩ => rfl | ⟨1, _⟩ => rfl)
    rw [el, er, h_eq, diffT2_eq]
  rw [val_main_v44_apply, val_main_v42_apply, val_main_v41_apply, val_main_v40_apply, val_main_v38_apply, eb,
    val_main_v43_apply, val_main_cst_2_apply, hsum, degRow2_eq]
  show Ideal.div (_ + Cert.Spec.deg cen p * b2 (ix1 j)) (Ideal.ofBits .f32 0x45800000#32) = _
  rw [n_word, Ideal.div_coe (by norm_num : (4096 : ℝ) ≠ 0)]
  rfl

/-- The reference's result, as a function of its six arguments, is `Spec.G`: columns below 256 are the first piece
    of the concatenation (the descriptors), the others the second piece (the pooled rows), 256 columns further on. -/
theorem ref_eq (cen : FVec Ideal S4096x3 .f32) (desc : FVec Ideal S4096x256 .f32) (W1 : FVec Ideal S256x512 .f32)
    (b1 : FVec Ideal S256 .f32) (W2 : FVec Ideal S256x512 .f32) (b2 : FVec Ideal S256 .f32) :
    val_main_v45 (F := Ideal) cen desc W1 b1 W2 b2 = Cert.Spec.G cen desc W1 b1 W2 b2 := by
  funext i
  unfold val_main_v45 Cert.Spec.G
  by_cases hlt : (i 1).val < 256
  · rw [dif_pos hlt]
    exact concatenate_pair_apply_left (1 : Fin S4096x512.rank) desc (val_main_v44 (F := Ideal) cen desc W1 b1 W2 b2)
      concatenates_S4096x256_S4096x256_S4096x512_d1 i rfl (ix2 (i 0) ⟨(i 1).val, hlt⟩)
      (fun b => by match b with | ⟨0, _⟩ => rfl | ⟨1, _⟩ => rfl)
  · rw [dif_neg hlt]
    have hge : 256 ≤ (i 1).val := Nat.le_of_not_lt hlt
    have hlt2 : (i 1).val - 256 < 256 := by have := idx2_lt1 i; omega
    refine (concatenate_pair_apply_right (1 : Fin S4096x512.rank) desc
      (val_main_v44 (F := Ideal) cen desc W1 b1 W2 b2) concatenates_S4096x256_S4096x256_S4096x512_d1 i rfl rfl
      (ix2 (i 0) ⟨(i 1).val - 256, hlt2⟩)
      (fun b hb => by
        match b with
        | ⟨0, _⟩ => rfl
        | ⟨1, _⟩ => exact absurd rfl hb)
      (by show (i 1).val - 256 + 256 = (i 1).val; omega)).trans ?_
    exact pooled_eq cen desc W1 b1 W2 b2 (i 0) ⟨(i 1).val - 256, hlt2⟩

end Cert.RefValue

end
-- ==== Proof.K.Region0.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The first call: the two projections of the descriptors, one block of rows at a time

The call runs over four points. Point `t` is handed rows `1024·t … 1024·t + 1023` of the descriptor array
(4096 × 256) together with the two 256 × 256 weight matrices, whole, and leaves in its two output blocks the
products of that block of rows with each weight matrix. Everything here is stated at a parameter `V`: what the
core's arrays hold when the call is entered. -/

-- what the core's arrays hold when the call is entered
variable (V : (c : Dev nD) → (b : Ref sig .tc) → Buf (Elt F) ((c : Thread nD τ).loc b))

/-! ## The blocks the points are handed -/

/-- The block of window `w` at point `t`, read off the window's array as the call finds it. -/
def uvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The descriptor window's buffer holds the point's block of rows, for any proof data over `V`'s arrays whose
    body leaves that block in place. -/
theorem uvBefore_rows_of {c : Dev nD} (dat : Dat τ (Elt F) Unit ℕ (UR sig nD τ) ℕ cfg0 c) (hA : dat.A 0 = V c (Pipeline.arrRef spec0 0))
    (hafter : ∀ t, dat.after 0 t = uvBlk V c 0 t) (t : Fin cfg0.N) (d) : dat.before 0 t d = uvBlk V c 0 t :=
  (dat.before_in_eq_fetched 0 rfl (fun _ => rfl) (fun _ _ _ => rfl) (fun t => by rw [hafter]; unfold Dat.blockOf uvBlk; rw [hA]; try rfl) t d).trans
    (by unfold Dat.fetched Dat.blockOf uvBlk; rw [hA]; try rfl)

/-- The first weight window's buffer holds the whole matrix at every point: it is brought in at the first point, and
    at the later ones its block index has not moved. -/
theorem uvBefore_wA_of {c : Dev nD} (dat : Dat τ (Elt F) Unit ℕ (UR sig nD τ) ℕ cfg0 c) (hA : dat.A 1 = V c (Pipeline.arrRef spec0 1))
    (hafter : ∀ t, dat.after 1 t = uvBlk V c 1 t) (t : Fin cfg0.N) (d) : dat.before 1 t d = uvBlk V c 1 t :=
  (dat.before_in_eq_fetched 1 rfl (fun _ => rfl) (fun _ _ _ => rfl) (fun t => by rw [hafter]; unfold Dat.blockOf uvBlk; rw [hA]; try rfl) t d).trans
    (by unfold Dat.fetched Dat.blockOf uvBlk; rw [hA]; try rfl)

/-- The second weight window's buffer likewise. -/
theorem uvBefore_wB_of {c : Dev nD} (dat : Dat τ (Elt F) Unit ℕ (UR sig nD τ) ℕ cfg0 c) (hA : dat.A 2 = V c (Pipeline.arrRef spec0 2))
    (hafter : ∀ t, dat.after 2 t = uvBlk V c 2 t) (t : Fin cfg0.N) (d) : dat.before 2 t d = uvBlk V c 2 t :=
  (dat.before_in_eq_fetched 2 rfl (fun _ => rfl) (fun _ _ _ => rfl) (fun t => by rw [hafter]; unfold Dat.blockOf uvBlk; rw [hA]; try rfl) t d).trans
    (by unfold Dat.fetched Dat.blockOf uvBlk; rw [hA]; try rfl)

/-! ## What the body reads and writes: every buffer whole -/

/-- A block of rows (1024 × 256), whole. -/
abbrev uvRows : Rect S1024x256 := Rect.unit (s := S1024x256) ![0, 0] S1024x256.size inb_S1024x256_S1024x256_0_0
/-- A weight matrix (256 × 256), whole. -/
abbrev uvWeights : Rect S256x256 := Rect.unit (s := S256x256) ![0, 0] S256x256.size inb_S256x256_S256x256_0_0

/-! ## What the body leaves in the two output buffers -/

/-- The first output buffer after the body: the block of rows times the first weight matrix, stored over the whole buffer. -/
def uvOutU (x0 : Vec F S1024x256 .f32) (x1 : Vec F S256x256 .f32) : Vec F S1024x256 .f32 :=
  View.canon [⟨uvRows, k0_pay2 (View.ld x0 uvRows) (View.ld x1 uvWeights)⟩]

/-- The second output buffer after the body: the block of rows times the second weight matrix, stored over the whole buffer. -/
def uvOutV (x0 : Vec F S1024x256 .f32) (x2 : Vec F S256x256 .f32) : Vec F S1024x256 .f32 :=
  View.canon [⟨uvRows, k0_pay3 (View.ld x0 uvRows) (View.ld x2 uvWeights)⟩]

/-- The one store into an output buffer covers it: its rectangle is the whole buffer. -/
theorem uvCover (p0 : Vec F S1024x256 .f32) (y : S1024x256.Idx) :
    ∃ pc ∈ ([⟨uvRows, p0⟩] : List (View.Piece (Elt F) S1024x256 .f32)), y ∈ pc.1.set :=
  View.cover_of_tiled [⟨uvRows, p0⟩] S1024x256.size (by rfl) y

/-! ## The body's triple -/

set_option maxHeartbeats 1000000 in
/-- The body on whole buffers — the three inputs' at contents `x0`, `x1`, `x2`, the two outputs' at anything — runs
    to a state with the inputs' as they were and the outputs' at the two products. The body reads each output buffer
    before it writes it; what it reads there is not used. -/
theorem uv_sound_kernel (c : Dev nD) (E : Set ℕ) (i : grid0.Coords) (arg1 : Memref sig .tc .vmem S1024x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S1024x256 .f32) (harg4 : arg4.IsWhole) (arg5 : Memref sig .tc .vmem S1024x256 .f32) (harg5 : arg5.IsWhole)
    (x0 : Vec F S1024x256 .f32) (x1 : Vec F S256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (uvOutU x0 x1) ∗ owns (c : Thread nD τ) arg5 fullShare (uvOutV x0 x2)) -∗ K ⟨⟩))
      ⊢ wp frame (wpE (defs₀ (F := F)) Variants.none c none) E (cc0__uv_kernel i arg1 harg1 arg2 harg2 arg3 harg3 arg4 harg4 arg5 harg5) K := by
  simp only [cc0__uv_kernel_eq_skeleton]; unfold cc0__uv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (uvCover _)
  iexists _; isplitr
  swap; · iexact H4
  ipureintro
  exact View.read_writes_eq_canon _ _ _ (uvCover _)

/-! ## The call's proof data -/

/-- The proof data of the call on core `c`: the arrays as the call finds them; after the body at point `t` each
    input buffer still at its block, the first output buffer at the block of rows times the first weight matrix and the
    second at the block of rows times the second; the invariant carries what the call does not touch; nothing owed;
    full shares. -/
def dat0 (c : Dev nD) : Dat τ (Elt F) Unit ℕ (UR sig nD τ) ℕ cfg0 c where
  A w := V c (Pipeline.arrRef spec0 w)
  after w t := match w with
    | ⟨0, _⟩ => uvBlk V c 0 t
    | ⟨1, _⟩ => uvBlk V c 1 t
    | ⟨2, _⟩ => uvBlk V c 2 t
    | ⟨3, _⟩ => uvOutU (uvBlk V c 0 t) (uvBlk V c 1 t)
    | ⟨4, _⟩ => uvOutV (uvBlk V c 0 t) (uvBlk V c 2 t)
  Φ _ := Pipeline.ΦA spec0 c
  q _ := fullShare
  owed _ := 0

/-- The proof data's arrays are the contents the call is entered with. -/
theorem A_eq0 (c : Dev nD) (w : Fin cfg0.W) : (dat0 V c).A w = V c (Pipeline.arrRef spec0 w) := by
  dsimp only [dat0]

/-- What the body leaves, window by window. -/
theorem uvAfter_rows (c : Dev nD) (t : Fin cfg0.N) : (dat0 V c).after 0 t = uvBlk V c 0 t := by dsimp only [dat0]
theorem uvAfter_wA (c : Dev nD) (t : Fin cfg0.N) : (dat0 V c).after 1 t = uvBlk V c 1 t := by dsimp only [dat0]
theorem uvAfter_wB (c : Dev nD) (t : Fin cfg0.N) : (dat0 V c).after 2 t = uvBlk V c 2 t := by dsimp only [dat0]
theorem uvAfter_u (c : Dev nD) (t : Fin cfg0.N) : (dat0 V c).after 3 t = uvOutU (uvBlk V c 0 t) (uvBlk V c 1 t) := by dsimp only [dat0]
theorem uvAfter_v (c : Dev nD) (t : Fin cfg0.N) : (dat0 V c).after 4 t = uvOutV (uvBlk V c 0 t) (uvBlk V c 2 t) := by dsimp only [dat0]

/-- Each input buffer holds its block at every point, brought in there or not. -/
theorem uvBefore_rows (c : Dev nD) (t : Fin cfg0.N) (d) : (dat0 V c).before 0 t d = uvBlk V c 0 t :=
  uvBefore_rows_of V (dat0 V c) (A_eq0 V c 0) (uvAfter_rows V c) t d
theorem uvBefore_wA (c : Dev nD) (t : Fin cfg0.N) (d) : (dat0 V c).before 1 t d = uvBlk V c 1 t :=
  uvBefore_wA_of V (dat0 V c) (A_eq0 V c 1) (uvAfter_wA V c) t d
theorem uvBefore_wB (c : Dev nD) (t : Fin cfg0.N) (d) : (dat0 V c).before 2 t d = uvBlk V c 2 t :=
  uvBefore_wB_of V (dat0 V c) (A_eq0 V c 2) (uvAfter_wB V c) t d

/-! ## The body obligation, at a generic point -/

/-- What the body is called with at point `t`, the windows one by one, -/
def uvBodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def uvBodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and what
    the core owes pass through unread. -/
theorem uv_sound_body (c : Dev nD) (t : Fin cfg0.N) :
    uvBodyPre V c t ⊢ wp frame (wpE (defs₀ (F := F)) Variants.none c none) Set.univ (bodyAt0 t) (fun _ => uvBodyPost V c t) := by
  unfold uvBodyPre uvBodyPost bodyAt0
  simp only [uvBefore_rows, uvBefore_wA, uvBefore_wB]
  rw [show (dat0 V c).Φ t.succ = (dat0 V c).Φ t.castSucc from rfl,
    show (dat0 V c).owesAt () t.succ = (dat0 V c).owesAt () t.castSucc from rfl,
    uvAfter_rows, uvAfter_wA, uvAfter_wB, uvAfter_u, uvAfter_v]
  iintro ⟨HΦ, Ho, ⟨%d0, H0⟩, ⟨%d1, H1⟩, ⟨%d2, H2⟩, ⟨%d3, H3⟩, ⟨%d4, H4⟩⟩
  iapply (uv_sound_kernel c Set.univ _ _ _ _ _ _ _ _ _ _ _ (uvBlk V c 0 t) (uvBlk V c 1 t) (uvBlk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the call, at every point. -/
theorem body_obligation0 (c : Dev nD) : Pipeline.BodyObligation (dat0 (F := F) V c) (defs₀ (F := F)) Variants.none () Set.univ := fun t => by
  rw [bigSep_W0, bigSep_W0]
  exact uv_sound_body V c t

/-! ## The input arrays -/

/-- An input window's array is never written: after any number of points it holds what the call was entered with. -/
theorem arrAt0_in (c : Dev nD) (w : Fin cfg0.W) (hw : (cfg0.win w).isOut = false) (n : Nat) :
    (dat0 V c).arrAt w n = V c (Pipeline.arrRef spec0 w) :=
  ((dat0 V c).arrAt_in w hw n).trans (A_eq0 V c w)

end Cert.Kernel.Hand

end
-- ==== Proof.K.Body1.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The aggregation kernel's body at one grid point, in each of its three cases

The kernel keeps three buffers across the eight points k = 0 … 7 of a row block: the neighbour-weighted sum of
`u` rows (512 × 256), the neighbour count (512 × 1), and the output block's staging buffer (512 × 512). At each
point both accumulators grow by the point's block of neighbours; at k = 0 they start from zero and the output's left
half takes the descriptor block; at k = 7 the output's right half takes the pooled value computed from the finished
accumulators. What a point leaves in each is stated as a pure function of the point's input blocks and of what the
buffer held; the three theorems say the body, run on whole buffers at given contents, leaves exactly that. -/

theorem hz2 : (![0, 0] : Fin 2 → Nat) = fun _ => 0 := funext fun a => by fin_cases a <;> rfl

/-- The neighbour count after a point, from the two blocks of centres and the count before it. -/
def degNext (i : grid1.Coords) (x0 x1 : Vec F S512x3 .f32) (d : Vec F S512x1 .f32) : Vec F S512x1 .f32 :=
  k1_pay1 (k1_pay7 i x0 x1 d)

/-- The neighbour-weighted sum after a point, from the two blocks of centres, the block of `u` and the sum before it. -/
def muNext (i : grid1.Coords) (x0 x1 : Vec F S512x3 .f32) (x2 : Vec F S512x256 .f32) (mu : Vec F S512x256 .f32) : Vec F S512x256 .f32 :=
  k1_pay2 (k1_pay6 i x0 x1) x2 mu

/-- The left half of the output block (columns 0–255) and its right half (columns 256–511). -/
abbrev rL : Rect S512x512 := Rect.unit (s := S512x512) ![0, 0] S512x256.size inb_S512x512_S512x256_0_0
abbrev rR : Rect S512x512 := Rect.unit (s := S512x512) ![0, 256] S512x256.size inb_S512x512_S512x256_0_256

/-- Reading back ONE store over contents `f`: the payload on the store's rectangle, `f` read elsewhere. -/
theorem read_write_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

/-- A store through the whole-shape rectangle replaces everything. -/
theorem overlay_unit_zero {S : Shape} {α : Type} {off : Fin S.rank → Nat} (h : off = fun _ => 0)
    (inb : ∀ a, off a + S.size a ≤ S.size a) (X : S.Idx → α) (w : S.Idx → α) :
    (Rect.unit off S.size inb).overlay X w = w := by
  subst h; funext y
  have e := Rect.overlay_emb (Rect.whole S) X w y
  rw [Rect.emb_whole_apply] at e
  exact e

/-- The last of several stores, when it is through the whole-shape rectangle, is all that is read back. -/
theorem read_writes_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩), View.canon_cons_unit_zero h]

/-- The kernel's two branch conditions: "this is the row block's first point" and "its last point". -/
abbrev c1 (i : grid1.Coords) : Prop := k1_cond1 i = 1#1
abbrev c2 (i : grid1.Coords) : Prop := k1_cond2 i = 1#1

set_option maxHeartbeats 4000000 in
/-- A MIDDLE point (neither the first nor the last of its row block): the inputs and the output's buffer come back as
    handed over, both accumulators advance. -/
theorem body_mid (c : Dev nD) (i : grid1.Coords)
    (arg2 : Memref sig .tc .vmem S512x3 .f32) (harg2 : arg2.IsWhole) (arg3 : Memref sig .tc .vmem S512x3 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S1x256 .f32) (harg7 : arg7.IsWhole)
    (arg8 : Memref sig .tc .vmem S256x256 .f32) (harg8 : arg8.IsWhole) (arg9 : Memref sig .tc .vmem S1x256 .f32) (harg9 : arg9.IsWhole)
    (arg10 : Memref sig .tc .vmem S512x512 .f32) (harg10 : arg10.IsWhole) (arg11 : Memref sig .tc .vmem S512x256 .f32) (harg11 : arg11.IsWhole)
    (arg12 : Memref sig .tc .vmem S512x1 .f32) (harg12 : arg12.IsWhole) (hc1 : ¬ c1 i) (hc2 : ¬ c2 i)
    (x0 x1 : Vec F S512x3 .f32) (x2 x3 x4 : Vec F S512x256 .f32) (x5 : Vec F S1x256 .f32) (x6 : Vec F S256x256 .f32) (x7 : Vec F S1x256 .f32)
    (xo : Vec F S512x512 .f32) (xs0 : Vec F S512x256 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
            ∗ owns (c : Thread nD τ) arg11 fullShare (muNext i x0 x1 x2 xs0) ∗ owns (c : Thread nD τ) arg12 fullShare (degNext i x0 x1 xs1)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfs0; obtain rfl := harg12.eq_unread hfs1
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [HO]; · iexists _; isplitr; · ipureintro; exact harg10.read_unread _
                  iexact HO
  isplitl [HS0]
  · iexists _; isplitr
    swap; · iexact HS0
    ipureintro
    sl_unfold_words
    rw [read_writes_last_whole _ _ hz2]
    unfold muNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  · iexists _; isplitr
    swap; · iexact HS1
    ipureintro
    sl_unfold_words
    rw [read_writes_last_whole _ _ hz2]
    unfold degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]

set_option maxHeartbeats 4000000 in
/-- The FIRST point of a row block: both accumulators are zeroed and then advanced, and the left half of the output's
    buffer takes the descriptor block (its right half is left as it was). -/
theorem body_first (c : Dev nD) (i : grid1.Coords)
    (arg2 : Memref sig .tc .vmem S512x3 .f32) (harg2 : arg2.IsWhole) (arg3 : Memref sig .tc .vmem S512x3 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S1x256 .f32) (harg7 : arg7.IsWhole)
    (arg8 : Memref sig .tc .vmem S256x256 .f32) (harg8 : arg8.IsWhole) (arg9 : Memref sig .tc .vmem S1x256 .f32) (harg9 : arg9.IsWhole)
    (arg10 : Memref sig .tc .vmem S512x512 .f32) (harg10 : arg10.IsWhole) (arg11 : Memref sig .tc .vmem S512x256 .f32) (harg11 : arg11.IsWhole)
    (arg12 : Memref sig .tc .vmem S512x1 .f32) (harg12 : arg12.IsWhole) (hc1 : c1 i) (hc2 : ¬ c2 i)
    (x0 x1 : Vec F S512x3 .f32) (x2 x3 x4 : Vec F S512x256 .f32) (x5 : Vec F S1x256 .f32) (x6 : Vec F S256x256 .f32) (x7 : Vec F S1x256 .f32)
    (xo : Vec F S512x512 .f32) (xs0 : Vec F S512x256 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare (rL.overlay xo x4)
            ∗ owns (c : Thread nD τ) arg11 fullShare (muNext i x0 x1 x2 (k1_pay4 (F := F))) ∗ owns (c : Thread nD τ) arg12 fullShare (degNext i x0 x1 (k1_pay5 (F := F)))) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfs0; obtain rfl := harg12.eq_unread hfs1
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [HO]
  · iexists _; isplitr
    swap; · iexact HO
    ipureintro
    sl_unfold_words
    rw [read_write_one]
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  isplitl [HS0]
  · iexists _; isplitr
    swap; · iexact HS0
    ipureintro
    sl_unfold_words
    rw [read_writes_last_whole _ _ hz2]
    unfold muNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  · iexists _; isplitr
    swap; · iexact HS1
    ipureintro
    sl_unfold_words
    rw [read_writes_last_whole _ _ hz2]
    unfold degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]

set_option maxHeartbeats 4000000 in
/-- The LAST point of a row block: both accumulators advance, and the right half of the output's buffer takes the pooled
    value computed from the finished accumulators (its left half is left as it was). -/
theorem body_last (c : Dev nD) (i : grid1.Coords)
    (arg2 : Memref sig .tc .vmem S512x3 .f32) (harg2 : arg2.IsWhole) (arg3 : Memref sig .tc .vmem S512x3 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S1x256 .f32) (harg7 : arg7.IsWhole)
    (arg8 : Memref sig .tc .vmem S256x256 .f32) (harg8 : arg8.IsWhole) (arg9 : Memref sig .tc .vmem S1x256 .f32) (harg9 : arg9.IsWhole)
    (arg10 : Memref sig .tc .vmem S512x512 .f32) (harg10 : arg10.IsWhole) (arg11 : Memref sig .tc .vmem S512x256 .f32) (harg11 : arg11.IsWhole)
    (arg12 : Memref sig .tc .vmem S512x1 .f32) (harg12 : arg12.IsWhole) (hc1 : ¬ c1 i) (hc2 : c2 i)
    (x0 x1 : Vec F S512x3 .f32) (x2 x3 x4 : Vec F S512x256 .f32) (x5 : Vec F S1x256 .f32) (x6 : Vec F S256x256 .f32) (x7 : Vec F S1x256 .f32)
    (xo : Vec F S512x512 .f32) (xs0 : Vec F S512x256 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare (rR.overlay xo (k1_pay3 x3 x5 (degNext i x0 x1 xs1) (muNext i x0 x1 x2 xs0) x6 x7))
            ∗ owns (c : Thread nD τ) arg11 fullShare (muNext i x0 x1 x2 xs0) ∗ owns (c : Thread nD τ) arg12 fullShare (degNext i x0 x1 xs1)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfs0; obtain rfl := harg12.eq_unread hfs1
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [HO]
  · iexists _; isplitr
    swap; · iexact HO
    ipureintro
    sl_unfold_words
    rw [read_write_one]
    unfold muNext degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  isplitl [HS0]
  · iexists _; isplitr
    swap; · iexact HS0
    ipureintro
    sl_unfold_words
    rw [read_writes_last_whole _ _ hz2]
    unfold muNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  · iexists _; isplitr
    swap; · iexact HS1
    ipureintro
    sl_unfold_words
    rw [read_writes_last_whole _ _ hz2]
    unfold degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]

end Cert.Kernel.Hand

end
-- ==== Proof.K.Frame1.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.K.Body1
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The aggregation region's proof data: what its buffers hold from point to point

The region runs the aggregation kernel at the 64 points (i, k) of an 8 × 8 grid, k fastest. Its eight input windows are
only read. Its output window's staging buffer is written in halves — the left at k = 0, the right at k = 7 — and
written back to the array after k = 7, so what it holds at a point depends on what it held before: the data below
RELATE the contents the body is handed to the contents it leaves (left as found for an input; for the output, the
half overwritten at the row block's first and last point). The two accumulators live in scratch buffers the region's
invariant holds at the values `accAt` names, which restart at every k = 0. The two windows on the centres' array hold
one half of its share each. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- "First point of its row block" and "last point of its row block", decided over the grid. -/
theorem hc1 : ∀ t : Fin cfg1.N, c1 (grid1.coords t) ↔ t.val % 8 = 0 :=
  (by decide +kernel : ∀ t : Fin grid1.N, c1 (grid1.coords t) ↔ t.val % 8 = 0)
theorem hc2 : ∀ t : Fin cfg1.N, c2 (grid1.coords t) ↔ t.val % 8 = 7 :=
  (by decide +kernel : ∀ t : Fin grid1.N, c2 (grid1.coords t) ↔ t.val % 8 = 7)

/-- The two accumulators (the weighted sum, the neighbour count) after the body at position `n`: started from zero at
    a row block's first point, else advanced from the point before. -/
def accAt (c : Dev nD) : (n : ℕ) → n < cfg1.N → Vec F S512x256 .f32 × Vec F S512x1 .f32
  | 0, hn => (muNext (grid1.coords ⟨0, hn⟩) (iblk1 V c 0 ⟨0, hn⟩) (iblk1 V c 1 ⟨0, hn⟩) (iblk1 V c 2 ⟨0, hn⟩) (k1_pay4 (F := F)),
              degNext (grid1.coords ⟨0, hn⟩) (iblk1 V c 0 ⟨0, hn⟩) (iblk1 V c 1 ⟨0, hn⟩) (k1_pay5 (F := F)))
  | n + 1, hn =>
    if (n + 1) % 8 = 0 then
      (muNext (grid1.coords ⟨n + 1, hn⟩) (iblk1 V c 0 ⟨n + 1, hn⟩) (iblk1 V c 1 ⟨n + 1, hn⟩) (iblk1 V c 2 ⟨n + 1, hn⟩) (k1_pay4 (F := F)),
       degNext (grid1.coords ⟨n + 1, hn⟩) (iblk1 V c 0 ⟨n + 1, hn⟩) (iblk1 V c 1 ⟨n + 1, hn⟩) (k1_pay5 (F := F)))
    else
      (muNext (grid1.coords ⟨n + 1, hn⟩) (iblk1 V c 0 ⟨n + 1, hn⟩) (iblk1 V c 1 ⟨n + 1, hn⟩) (iblk1 V c 2 ⟨n + 1, hn⟩) (accAt c n (Nat.lt_of_succ_lt hn)).1,
       degNext (grid1.coords ⟨n + 1, hn⟩) (iblk1 V c 0 ⟨n + 1, hn⟩) (iblk1 V c 1 ⟨n + 1, hn⟩) (accAt c n (Nat.lt_of_succ_lt hn)).2)

theorem accAt_first (c : Dev nD) (t : Fin cfg1.N) (h : t.val % 8 = 0) :
    accAt V c t.val t.isLt = (muNext (grid1.coords t) (iblk1 V c 0 t) (iblk1 V c 1 t) (iblk1 V c 2 t) (k1_pay4 (F := F)),
      degNext (grid1.coords t) (iblk1 V c 0 t) (iblk1 V c 1 t) (k1_pay5 (F := F))) := by
  obtain ⟨n, hn⟩ := t
  cases n with
  | zero => rfl
  | succ n => exact (if_pos h).trans rfl

theorem accAt_next (c : Dev nD) (t : Fin cfg1.N) (h : ¬ t.val % 8 = 0) :
    accAt V c t.val t.isLt = (muNext (grid1.coords t) (iblk1 V c 0 t) (iblk1 V c 1 t) (iblk1 V c 2 t) (accAt V c (t.val - 1) (Nat.lt_of_le_of_lt (Nat.sub_le _ _) t.isLt)).1,
      degNext (grid1.coords t) (iblk1 V c 0 t) (iblk1 V c 1 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the body leaves in the output window's buffer at point `t` if it was handed `Y`: at a row block's first
    point the left half becomes the descriptor block, at its last the right half becomes the pooled value of the
    finished accumulators, in between nothing changes. -/
def outStep (c : Dev nD) (t : Fin cfg1.N) (Y : Vec F S512x512 .f32) : Vec F S512x512 .f32 :=
  if t.val % 8 = 0 then rL.overlay Y (iblk1 V c 4 t)
  else if t.val % 8 = 7 then
    rR.overlay Y (k1_pay3 (iblk1 V c 3 t) (iblk1 V c 5 t) (accAt V c t.val t.isLt).2 (accAt V c t.val t.isLt).1 (iblk1 V c 6 t) (iblk1 V c 7 t))
  else Y

/-- The two scratch buffers as whole memrefs. -/
abbrev scM0 : Memref sig .tc .vmem S512x256 .f32 := Memref.whole cc1_scratch0
abbrev scM1 : Memref sig .tc .vmem S512x1 .f32 := Memref.whole cc1_scratch1

/-- The core's scoped buffers that are no staging buffer of this region: the other region's eight staging buffers at
    anything, and the two scratch buffers as `P`, `Q` say. -/
def restChain (c : Dev nD) (P Q : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P ∗ Q)

/-- The class's invariant (every scoped buffer the region does not stage at anything, the generator register at some
    state) with the scratch buffers as owned memrefs. -/
theorem PhiA1_eq (c : Dev nD) :
    (Pipeline.ΦA spec1 c : sProp 𝕄)
      = iprop(restChain c (iprop(∃ d, owns (c : Thread nD τ) scM0 fullShare d)) (iprop(∃ d, owns (c : Thread nD τ) scM1 fullShare d)) ∗ (∃ r, prngReg c r)) := by
  unfold Pipeline.ΦA restChain; rw [scopedRest1_eq]; simp only [scM0, scM1, owns_whole]; try rfl

/-- The region's invariant before position `n`: before the first point the class's; afterwards the scratch buffers at
    the accumulators the point before left. -/
def PhiS (c : Dev nD) : (n : ℕ) → n ≤ cfg1.N → sProp 𝕄
  | 0, _ => Pipeline.ΦA spec1 c
  | n + 1, hn => iprop(restChain c (owns (c : Thread nD τ) scM0 fullShare (accAt V c n hn).1) (owns (c : Thread nD τ) scM1 fullShare (accAt V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restChain c (owns (c : Thread nD τ) scM0 fullShare (accAt V c n hn).1) (owns (c : Thread nD τ) scM1 fullShare (accAt V c n hn).2) ∗ (∃ r, prngReg c r)) := rfl
theorem PhiS_pos (c : Dev nD) (n : ℕ) (h : n ≤ cfg1.N) (hz : n ≠ 0) :
    PhiS V c n h = iprop(restChain c (owns (c : Thread nD τ) scM0 fullShare (accAt V c (n - 1) (by omega)).1) (owns (c : Thread nD τ) scM1 fullShare (accAt V c (n - 1) (by omega)).2) ∗ (∃ r, prngReg c r)) := by
  cases n with
  | zero => exact absurd rfl hz
  | succ n => rfl

/-- The proof data of the region on core `c`: the arrays as the region finds them; an input left as found, the output
    stepped by `outStep`; the invariant `PhiS`; the two windows on the centres' array at half its share each; nothing owed. -/
def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = outStep V c t Y
  Φ t := PhiS V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (rdat1 V c).A w = V c (Pipeline.arrRef spec1 w) := by
  dsimp only [rdat1]

theorem after1_0 (c : Dev nD) (t : Fin cfg1.N) (Y X) : (rdat1 V c).after 0 t Y X ↔ X = Y := by dsimp only [rdat1]; exact Iff.rfl
theorem after1_1 (c : Dev nD) (t : Fin cfg1.N) (Y X) : (rdat1 V c).after 1 t Y X ↔ X = Y := by dsimp only [rdat1]; exact Iff.rfl
theorem after1_2 (c : Dev nD) (t : Fin cfg1.N) (Y X) : (rdat1 V c).after 2 t Y X ↔ X = Y := by dsimp only [rdat1]; exact Iff.rfl
theorem after1_3 (c : Dev nD) (t : Fin cfg1.N) (Y X) : (rdat1 V c).after 3 t Y X ↔ X = Y := by dsimp only [rdat1]; exact Iff.rfl
theorem after1_4 (c : Dev nD) (t : Fin cfg1.N) (Y X) : (rdat1 V c).after 4 t Y X ↔ X = Y := by dsimp only [rdat1]; exact Iff.rfl
theorem after1_5 (c : Dev nD) (t : Fin cfg1.N) (Y X) : (rdat1 V c).after 5 t Y X ↔ X = Y := by dsimp only [rdat1]; exact Iff.rfl
theorem after1_6 (c : Dev nD) (t : Fin cfg1.N) (Y X) : (rdat1 V c).after 6 t Y X ↔ X = Y := by dsimp only [rdat1]; exact Iff.rfl
theorem after1_7 (c : Dev nD) (t : Fin cfg1.N) (Y X) : (rdat1 V c).after 7 t Y X ↔ X = Y := by dsimp only [rdat1]; exact Iff.rfl
theorem after1_8 (c : Dev nD) (t : Fin cfg1.N) (Y X : Vec F S512x512 .f32) : (rdat1 V c).after 8 t Y X = (X = outStep V c t Y) := by dsimp only [rdat1]

theorem PhiS_castSucc (c : Dev nD) (t : Fin cfg1.N) :
    (rdat1 V c).Φ t.castSucc = PhiS V c t.val (Nat.le_of_lt t.isLt) := by
  dsimp only [rdat1]; simp only [Fin.coe_castSucc]

/-- An input window's buffer holds its block wherever the body is handed it, fetched there or not. -/
theorem finds1_0 (c : Dev nD) (t : Fin cfg1.N) (Y) (h : (rdat1 V c).Finds 0 t Y) : Y = iblk1 V c 0 t := by
  obtain ⟨d, hd⟩ := (rdat1 V c).finds_in_eq_fetched 0 rfl (fun _ _ _ => rfl) (fun t Y X h => (after1_0 V c t Y X).mp h) t Y h
  rw [hd]; unfold RDat.fetched RDat.blockOf iblk1; rw [A_eq1]; try rfl
theorem finds1_1 (c : Dev nD) (t : Fin cfg1.N) (Y) (h : (rdat1 V c).Finds 1 t Y) : Y = iblk1 V c 1 t := by
  obtain ⟨d, hd⟩ := (rdat1 V c).finds_in_eq_fetched 1 rfl (fun _ _ _ => rfl) (fun t Y X h => (after1_1 V c t Y X).mp h) t Y h
  rw [hd]; unfold RDat.fetched RDat.blockOf iblk1; rw [A_eq1]; try rfl
theorem finds1_2 (c : Dev nD) (t : Fin cfg1.N) (Y) (h : (rdat1 V c).Finds 2 t Y) : Y = iblk1 V c 2 t := by
  obtain ⟨d, hd⟩ := (rdat1 V c).finds_in_eq_fetched 2 rfl (fun _ _ _ => rfl) (fun t Y X h => (after1_2 V c t Y X).mp h) t Y h
  rw [hd]; unfold RDat.fetched RDat.blockOf iblk1; rw [A_eq1]; try rfl
theorem finds1_3 (c : Dev nD) (t : Fin cfg1.N) (Y) (h : (rdat1 V c).Finds 3 t Y) : Y = iblk1 V c 3 t := by
  obtain ⟨d, hd⟩ := (rdat1 V c).finds_in_eq_fetched 3 rfl (fun _ _ _ => rfl) (fun t Y X h => (after1_3 V c t Y X).mp h) t Y h
  rw [hd]; unfold RDat.fetched RDat.blockOf iblk1; rw [A_eq1]; try rfl
theorem finds1_4 (c : Dev nD) (t : Fin cfg1.N) (Y) (h : (rdat1 V c).Finds 4 t Y) : Y = iblk1 V c 4 t := by
  obtain ⟨d, hd⟩ := (rdat1 V c).finds_in_eq_fetched 4 rfl (fun _ _ _ => rfl) (fun t Y X h => (after1_4 V c t Y X).mp h) t Y h
  rw [hd]; unfold RDat.fetched RDat.blockOf iblk1; rw [A_eq1]; try rfl
theorem finds1_5 (c : Dev nD) (t : Fin cfg1.N) (Y) (h : (rdat1 V c).Finds 5 t Y) : Y = iblk1 V c 5 t := by
  obtain ⟨d, hd⟩ := (rdat1 V c).finds_in_eq_fetched 5 rfl (fun _ _ _ => rfl) (fun t Y X h => (after1_5 V c t Y X).mp h) t Y h
  rw [hd]; unfold RDat.fetched RDat.blockOf iblk1; rw [A_eq1]; try rfl
theorem finds1_6 (c : Dev nD) (t : Fin cfg1.N) (Y) (h : (rdat1 V c).Finds 6 t Y) : Y = iblk1 V c 6 t := by
  obtain ⟨d, hd⟩ := (rdat1 V c).finds_in_eq_fetched 6 rfl (fun _ _ _ => rfl) (fun t Y X h => (after1_6 V c t Y X).mp h) t Y h
  rw [hd]; unfold RDat.fetched RDat.blockOf iblk1; rw [A_eq1]; try rfl
theorem finds1_7 (c : Dev nD) (t : Fin cfg1.N) (Y) (h : (rdat1 V c).Finds 7 t Y) : Y = iblk1 V c 7 t := by
  obtain ⟨d, hd⟩ := (rdat1 V c).finds_in_eq_fetched 7 rfl (fun _ _ _ => rfl) (fun t Y X h => (after1_7 V c t Y X).mp h) t Y h
  rw [hd]; unfold RDat.fetched RDat.blockOf iblk1; rw [A_eq1]; try rfl

/-- Each window's current staging memref at a point is a whole buffer. -/
abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)
abbrev hs1_7 (t : Fin cfg1.N) : (st1_7 t).IsWhole := hstage1_7 ((cfg1.slots t 7).cast nbuf1_7)
abbrev hs1_8 (t : Fin cfg1.N) : (st1_8 t).IsWhole := hstage1_8 ((cfg1.slots t 8).cast nbuf1_8)

/-- What the body is called with at point `t`, the windows' buffers at contents `Y w`, -/
def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4)
    ∗ owns (c : Thread nD τ) (st1_5 t) fullShare (Y 5)
    ∗ owns (c : Thread nD τ) (st1_6 t) fullShare (Y 6)
    ∗ owns (c : Thread nD τ) (st1_7 t) fullShare (Y 7)
    ∗ owns (c : Thread nD τ) (st1_8 t) fullShare (Y 8))

/-- and what it returns. -/
def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (st1_0 t) fullShare X)
    ∗ (∃ X, ⌜(rdat1 V c).after 1 t (Y 1) X⌝ ∗ owns (c : Thread nD τ) (st1_1 t) fullShare X)
    ∗ (∃ X, ⌜(rdat1 V c).after 2 t (Y 2) X⌝ ∗ owns (c : Thread nD τ) (st1_2 t) fullShare X)
    ∗ (∃ X, ⌜(rdat1 V c).after 3 t (Y 3) X⌝ ∗ owns (c : Thread nD τ) (st1_3 t) fullShare X)
    ∗ (∃ X, ⌜(rdat1 V c).after 4 t (Y 4) X⌝ ∗ owns (c : Thread nD τ) (st1_4 t) fullShare X)
    ∗ (∃ X, ⌜(rdat1 V c).after 5 t (Y 5) X⌝ ∗ owns (c : Thread nD τ) (st1_5 t) fullShare X)
    ∗ (∃ X, ⌜(rdat1 V c).after 6 t (Y 6) X⌝ ∗ owns (c : Thread nD τ) (st1_6 t) fullShare X)
    ∗ (∃ X, ⌜(rdat1 V c).after 7 t (Y 7) X⌝ ∗ owns (c : Thread nD τ) (st1_7 t) fullShare X)
    ∗ (∃ X, ⌜(rdat1 V c).after 8 t (Y 8) X⌝ ∗ owns (c : Thread nD τ) (st1_8 t) fullShare X))

set_option maxHeartbeats 4000000 in
/-- The body at any point, whatever the windows' buffers may hold there: the inputs' hold their blocks; the invariant
    hands over the scratch buffers at the accumulators the point before left (at anything at the very first point); the
    point's position in its row block says which of the three cases runs. -/
theorem sound_body1 (c : Dev nD) (t : Fin cfg1.N) (Y : (w : Fin cfg1.W) → (cfg1.win w).block.Idx → Elt F (cfg1.win w).elt)
    (hY : ∀ w, (rdat1 V c).Finds w t (Y w)) :
    bodyPre1 V c t Y ⊢ wp frame (wpE (defs₀ (F := F)) Variants.none c none) Set.univ (bodyAt1 t) (fun _ => bodyPost1 V c t Y) := by
  have e0 : Y 0 = iblk1 V c 0 t := finds1_0 V c t _ (hY 0)
  have e1 : Y 1 = iblk1 V c 1 t := finds1_1 V c t _ (hY 1)
  have e2 : Y 2 = iblk1 V c 2 t := finds1_2 V c t _ (hY 2)
  have e3 : Y 3 = iblk1 V c 3 t := finds1_3 V c t _ (hY 3)
  have e4 : Y 4 = iblk1 V c 4 t := finds1_4 V c t _ (hY 4)
  have e5 : Y 5 = iblk1 V c 5 t := finds1_5 V c t _ (hY 5)
  have e6 : Y 6 = iblk1 V c 6 t := finds1_6 V c t _ (hY 6)
  have e7 : Y 7 = iblk1 V c 7 t := finds1_7 V c t _ (hY 7)
  unfold bodyPre1 bodyPost1 bodyAt1
  rw [e0, e1, e2, e3, e4, e5, e6, e7]
  rw [show (rdat1 V c).owesAt () t.succ = (rdat1 V c).owesAt () t.castSucc from rfl]
  rw [show (rdat1 V c).Φ t.succ = PhiS V c (t.val + 1) t.isLt from rfl, PhiS_succ, PhiS_castSucc]
  have hN : t.val < 64 := lt_of_lt_of_eq t.isLt (show cfg1.N = 64 from N_1)
  by_cases h0 : t.val % 8 = 0
  · -- a row block's first point
    have h7 : ¬ t.val % 8 = 7 := by omega
    have hin : PhiS V c t.val (Nat.le_of_lt t.isLt)
        ⊢ iprop(restChain c (iprop(∃ d, owns (c : Thread nD τ) scM0 fullShare d)) (iprop(∃ d, owns (c : Thread nD τ) scM1 fullShare d)) ∗ (∃ r, prngReg c r)) := by
      by_cases hz : t.val = 0
      · rw [PhiS_zero V c _ _ hz, PhiA1_eq]
      · rw [PhiS_pos V c _ _ hz]; unfold restChain
        iintro ⟨⟨A0, A1, A2, A3, A4, A5, A6, A7, HS0, HS1⟩, Hg⟩
        isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexists _; iexact HS0
          iexists _; iexact HS1
        iexact Hg
    refine (sep_mono hin .rfl).trans ?_
    unfold restChain

    -- first
    rw [accAt_first V c t h0]
    iintro ⟨⟨⟨A0, A1, A2, A3, A4, A5, A6, A7, HS0, HS1⟩, Hg⟩, Ho, H0, H1, H2, H3, H4, H5, H6, H7, H8⟩
    icases HS0 with ⟨%d0, HS0⟩
    icases HS1 with ⟨%d1, HS1⟩
    iapply (body_first c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) scM0 (Memref.isWhole_whole _) scM1 (Memref.isWhole_whole _) ((hc1 t).mpr h0) (fun h => h7 ((hc2 t).mp h))
        (iblk1 V c 0 t) (iblk1 V c 1 t) (iblk1 V c 2 t) (iblk1 V c 3 t) (iblk1 V c 4 t) (iblk1 V c 5 t) (iblk1 V c 6 t) (iblk1 V c 7 t) (Y 8) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [A0 A1 A2 A3 A4 A5 A6 A7 HS0 HS1 Hg]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [HS0]; · iexact HS0
        iexact HS1
      iexact Hg
    isplitl [Ho]; · iexact Ho
    isplitl [H0]; · iexists _; isplitr; · ipureintro; exact (after1_0 V c t _ _).mpr rfl
                    iexact H0
    isplitl [H1]; · iexists _; isplitr; · ipureintro; exact (after1_1 V c t _ _).mpr rfl
                    iexact H1
    isplitl [H2]; · iexists _; isplitr; · ipureintro; exact (after1_2 V c t _ _).mpr rfl
                    iexact H2
    isplitl [H3]; · iexists _; isplitr; · ipureintro; exact (after1_3 V c t _ _).mpr rfl
                    iexact H3
    isplitl [H4]; · iexists _; isplitr; · ipureintro; exact (after1_4 V c t _ _).mpr rfl
                    iexact H4
    isplitl [H5]; · iexists _; isplitr; · ipureintro; exact (after1_5 V c t _ _).mpr rfl
                    iexact H5
    isplitl [H6]; · iexists _; isplitr; · ipureintro; exact (after1_6 V c t _ _).mpr rfl
                    iexact H6
    isplitl [H7]; · iexists _; isplitr; · ipureintro; exact (after1_7 V c t _ _).mpr rfl
                    iexact H7
    iexists _; isplitr
    swap; · iexact H8
    ipureintro
    rw [after1_8, outStep, if_pos h0]
  · have hz : t.val ≠ 0 := fun e => h0 (by rw [e])
    rw [PhiS_pos V c _ _ hz]
    unfold restChain
    by_cases h7 : t.val % 8 = 7
    · -- a row block's last point

      -- last
      rw [accAt_next V c t h0]
      iintro ⟨⟨⟨A0, A1, A2, A3, A4, A5, A6, A7, HS0, HS1⟩, Hg⟩, Ho, H0, H1, H2, H3, H4, H5, H6, H7, H8⟩

      iapply (body_last c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) scM0 (Memref.isWhole_whole _) scM1 (Memref.isWhole_whole _) (fun h => h0 ((hc1 t).mp h)) ((hc2 t).mpr h7)
          (iblk1 V c 0 t) (iblk1 V c 1 t) (iblk1 V c 2 t) (iblk1 V c 3 t) (iblk1 V c 4 t) (iblk1 V c 5 t) (iblk1 V c 6 t) (iblk1 V c 7 t) (Y 8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [A0 A1 A2 A3 A4 A5 A6 A7 HS0 HS1 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          iexact HS1
        iexact Hg
      isplitl [Ho]; · iexact Ho
      isplitl [H0]; · iexists _; isplitr; · ipureintro; exact (after1_0 V c t _ _).mpr rfl
                      iexact H0
      isplitl [H1]; · iexists _; isplitr; · ipureintro; exact (after1_1 V c t _ _).mpr rfl
                      iexact H1
      isplitl [H2]; · iexists _; isplitr; · ipureintro; exact (after1_2 V c t _ _).mpr rfl
                      iexact H2
      isplitl [H3]; · iexists _; isplitr; · ipureintro; exact (after1_3 V c t _ _).mpr rfl
                      iexact H3
      isplitl [H4]; · iexists _; isplitr; · ipureintro; exact (after1_4 V c t _ _).mpr rfl
                      iexact H4
      isplitl [H5]; · iexists _; isplitr; · ipureintro; exact (after1_5 V c t _ _).mpr rfl
                      iexact H5
      isplitl [H6]; · iexists _; isplitr; · ipureintro; exact (after1_6 V c t _ _).mpr rfl
                      iexact H6
      isplitl [H7]; · iexists _; isplitr; · ipureintro; exact (after1_7 V c t _ _).mpr rfl
                      iexact H7
      iexists _; isplitr
      swap; · iexact H8
      ipureintro
      rw [after1_8, outStep, if_neg h0, if_pos h7, accAt_next V c t h0]
    · -- a middle point

      -- middle
      rw [accAt_next V c t h0]
      iintro ⟨⟨⟨A0, A1, A2, A3, A4, A5, A6, A7, HS0, HS1⟩, Hg⟩, Ho, H0, H1, H2, H3, H4, H5, H6, H7, H8⟩

      iapply (body_mid c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) scM0 (Memref.isWhole_whole _) scM1 (Memref.isWhole_whole _) (fun h => h0 ((hc1 t).mp h)) (fun h => h7 ((hc2 t).mp h))
          (iblk1 V c 0 t) (iblk1 V c 1 t) (iblk1 V c 2 t) (iblk1 V c 3 t) (iblk1 V c 4 t) (iblk1 V c 5 t) (iblk1 V c 6 t) (iblk1 V c 7 t) (Y 8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [A0 A1 A2 A3 A4 A5 A6 A7 HS0 HS1 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          iexact HS1
        iexact Hg
      isplitl [Ho]; · iexact Ho
      isplitl [H0]; · iexists _; isplitr; · ipureintro; exact (after1_0 V c t _ _).mpr rfl
                      iexact H0
      isplitl [H1]; · iexists _; isplitr; · ipureintro; exact (after1_1 V c t _ _).mpr rfl
                      iexact H1
      isplitl [H2]; · iexists _; isplitr; · ipureintro; exact (after1_2 V c t _ _).mpr rfl
                      iexact H2
      isplitl [H3]; · iexists _; isplitr; · ipureintro; exact (after1_3 V c t _ _).mpr rfl
                      iexact H3
      isplitl [H4]; · iexists _; isplitr; · ipureintro; exact (after1_4 V c t _ _).mpr rfl
                      iexact H4
      isplitl [H5]; · iexists _; isplitr; · ipureintro; exact (after1_5 V c t _ _).mpr rfl
                      iexact H5
      isplitl [H6]; · iexists _; isplitr; · ipureintro; exact (after1_6 V c t _ _).mpr rfl
                      iexact H6
      isplitl [H7]; · iexists _; isplitr; · ipureintro; exact (after1_7 V c t _ _).mpr rfl
                      iexact H7
      iexists _; isplitr
      swap; · iexact H8
      ipureintro
      rw [after1_8, outStep, if_neg h0, if_neg h7]

/-- The library's body obligation for relational data, at every point. -/
theorem body_obligation1 (c : Dev nD) : (rdat1 (F := F) V c).BodyObligation (defs₀ (F := F)) Variants.none () Set.univ := fun t Y hY => by
  rw [bigSep_W1, bigSep_W1]
  exact sound_body1 V c t Y hY

/-- What the launch hands the region is the invariant before the first point. -/
theorem hin1 (c : Dev nD) : Pipeline.ΦA spec1 c ⊢ (rdat1 V c).Φ 0 := by
  rw [show (rdat1 V c).Φ 0 = PhiS V c 0 (Nat.zero_le _) from rfl, PhiS_zero V c 0 _ rfl]
  try exact Idealize.SL.BI.Entails.refl _

/-- After the last point the invariant gives the class's back: the accumulators' values are forgotten. -/
theorem hout1 (c : Dev nD) : (rdat1 V c).Φ (Fin.last cfg1.N) ⊢ Pipeline.ΦA spec1 c := by
  rw [show (rdat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold restChain
  iintro ⟨⟨A0, A1, A2, A3, A4, A5, A6, A7, HS0, HS1⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS0]; · iexists _; iexact HS0
    iexists _; iexact HS1
  iexact Hg

end Cert.Kernel.Hand

end
-- ==== Proof.K.Run0.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.K.Region0
import proofs.«105388_j24962349924890_1_alg».proof.Proof.K.Frame1
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The program's run, first half: the buffers between @main's items, and the first region as a segment

@main is four items: ten host operations (slices, differences and transposes that make the three weight matrices), the
first kernel region (u and v), two host reshapes of the bias vectors, the aggregation region. Between two items each
core holds every unscoped buffer whole at a valuation; the valuations fold through @main from the launch memory. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the aggregation region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- No pallas_call has a prefetched table. -/
abbrev adm : (p : Fin 2) → (pcfgs (F := F) p).Adm := fun p => (cfgs p).toPCfg_adm

/-- Both regions' proof data, each at its region's entry contents: the first names what its body leaves, read as
    relational data; the second relates. -/
def rdats : (p : Fin 2) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => rdat1 (V3 m ρ) c

/-- The same family with the first region's data in the naming form (only its `arrays` are read through it). -/
def pdats0 : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => { A := fun w => V3 m ρ c (Pipeline.arrRef spec1 w), after := fun _ _ _ => Classical.arbitrary _,
                          Φ := fun _ => BI.emp, q := fun _ => fullShare, owed := fun _ => 0 }

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE FIRST REGION over the thread state: entered from every unscoped buffer at `W1`, left at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((dat0 (V1 m ρ) c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop(((dat0 (V1 m ρ) c).arrays ((dat0 (V1 m ρ) c).arrAt · cfg0.N) : sProp 𝕄)
          ∗ Pipeline.unscopedRest (Ix := Unit) (Name := ℕ) (U := UR sig nD τ) (Lvl := ℕ) spec0 c (V1 m ρ c))
        ⊢ (unscopedBufs c (V2 m ρ c) : sProp 𝕄) := Pipeline.unscopedBufs_of_arrays (p := 0) (pcfgs (F := F)) adm (Ix := Unit) (Name := ℕ) (U := UR sig nD τ) (Lvl := ℕ)
      launch0.win launch0.arr_whole c (pdats0 m ρ) ((pdats0 m ρ 0 c).share_full fun _ => rfl)
      (V1 m ρ c) (V2 m ρ c) ((pdats0 m ρ 0 c).arrAt · cfg0.N) (hF0 m ρ c) (hrest0 m ρ c)
    rw [Pipeline.unscopedBufs_held] at hjoin
    rw [show (rdats m ρ 0 c).arraysAt (Pipeline.pin (pcfgs (F := F)) adm 0).N = ((dat0 (V1 m ρ) c).arrays ((dat0 (V1 m ρ) c).arrAt · cfg0.N) : sProp 𝕄)
      from (dat0 (V1 m ρ) c).toR_arraysAt_eq cfg0.N]
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

end Cert.Kernel.Hand

end
-- ==== Proof.K.Shared1.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.Regions
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The second call's arrays, two windows on one array

The second pallas_call reads the array of centres through two windows. Its nine windows therefore sit on eight
distinct buffers, and the proof data holds the shared buffer's full share as two halves: window 0 the left half,
window 1 the right half. Every other window holds its buffer's full share. Below, the eight buffers held whole at the
full share are shown to be the nine windows' arrays at these shares (one points-to split in two along the share, or
two joined at equal contents), and with that the region's entry and exit are stated between "all the core's unscoped
buffers" and "the region's arrays beside the rest". -/

/-- The eight distinct buffers behind the nine windows. -/
theorem arrImage1 : Finset.univ.image (Pipeline.arrRef spec1)
    = [main_arg0, main_v10_0, main_v10_1, main_arg1, main_v11, main_v9, main_v12, main_v13].toFinset := by decide

/-- The buffers behind the windows, each whole at the full share at contents `V`, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v10_0) ↦{fullShare} V main_v10_0)
          ∗ (((c : Thread nD τ).loc main_v10_1) ↦{fullShare} V main_v10_1) ∗ (((c : Thread nD τ).loc main_arg1) ↦{fullShare} V main_arg1)
          ∗ (((c : Thread nD τ).loc main_v11) ↦{fullShare} V main_v11) ∗ (((c : Thread nD τ).loc main_v9) ↦{fullShare} V main_v9)
          ∗ (((c : Thread nD τ).loc main_v12) ↦{fullShare} V main_v12) ∗ (((c : Thread nD τ).loc main_v13) ↦{fullShare} V main_v13)) := by
  unfold Pipeline.arrBufs
  exact bigSep_eq_bigSepL_of_eq _ arrImage1 (by decide) _

/-- A core's unscoped buffers at contents `V` are the eight buffers behind the windows and the rest. -/
theorem unscopedBufs_split1 (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ cfgs 1 winFacts₀1.arr_unscoped c V

variable (c : Dev nD) (rd : RDat τ (Elt F) Unit ℕ (UR sig nD τ) ℕ cfg1 c)

/-- The region's arrays at contents `Fw`, window by window. -/
theorem arrays1_chain (Fw : (w : Fin cfg1.W) → Buf (Elt F) ((cfg1.win w).arr.view.loc (c : Thread nD τ))) :
    rd.arrays Fw
      = iprop((((c : Thread nD τ).loc main_arg0) ↦{rd.share 0} Fw 0) ∗ (((c : Thread nD τ).loc main_arg0) ↦{rd.share 1} Fw 1)
          ∗ (((c : Thread nD τ).loc main_v10_0) ↦{rd.share 2} Fw 2) ∗ (((c : Thread nD τ).loc main_v10_1) ↦{rd.share 3} Fw 3)
          ∗ (((c : Thread nD τ).loc main_arg1) ↦{rd.share 4} Fw 4) ∗ (((c : Thread nD τ).loc main_v11) ↦{rd.share 5} Fw 5)
          ∗ (((c : Thread nD τ).loc main_v9) ↦{rd.share 6} Fw 6) ∗ (((c : Thread nD τ).loc main_v12) ↦{rd.share 7} Fw 7)
          ∗ (((c : Thread nD τ).loc main_v13) ↦{rd.share 8} Fw 8)) := by
  unfold RDat.arrays
  rw [bigSep_W1]
  simp only [View.set_whole]

variable (hq0 : rd.q 0 = fullShare.left) (hq1 : rd.q 1 = fullShare.right) (hq : ∀ w : Fin cfg1.W, 2 ≤ w.val → rd.q w = fullShare)

include hq0 in
theorem share1_0 : rd.share 0 = fullShare.left := hq0 ▸ rfl
include hq1 in
theorem share1_1 : rd.share 1 = fullShare.right := hq1 ▸ rfl
include hq in
theorem share1_in (w : Fin cfg1.W) (hw : 2 ≤ w.val) (hin : (cfg1.win w).isOut = false) : rd.share w = fullShare := by
  unfold RDat.share; rw [hin]; exact hq w hw
theorem share1_8 : rd.share 8 = fullShare := rfl

include hq0 hq1 hq in
/-- The nine windows' arrays at contents `Fw`, at the proof data's shares. -/
theorem arrays1_shares (Fw : (w : Fin cfg1.W) → Buf (Elt F) ((cfg1.win w).arr.view.loc (c : Thread nD τ))) :
    rd.arrays Fw
      = iprop((((c : Thread nD τ).loc main_arg0) ↦{fullShare.left} Fw 0) ∗ (((c : Thread nD τ).loc main_arg0) ↦{fullShare.right} Fw 1)
          ∗ (((c : Thread nD τ).loc main_v10_0) ↦{fullShare} Fw 2) ∗ (((c : Thread nD τ).loc main_v10_1) ↦{fullShare} Fw 3)
          ∗ (((c : Thread nD τ).loc main_arg1) ↦{fullShare} Fw 4) ∗ (((c : Thread nD τ).loc main_v11) ↦{fullShare} Fw 5)
          ∗ (((c : Thread nD τ).loc main_v9) ↦{fullShare} Fw 6) ∗ (((c : Thread nD τ).loc main_v12) ↦{fullShare} Fw 7)
          ∗ (((c : Thread nD τ).loc main_v13) ↦{fullShare} Fw 8)) := by
  have h2 := share1_in c rd hq 2 (by decide) rfl
  have h3 := share1_in c rd hq 3 (by decide) rfl
  have h4 := share1_in c rd hq 4 (by decide) rfl
  have h5 := share1_in c rd hq 5 (by decide) rfl
  have h6 := share1_in c rd hq 6 (by decide) rfl
  have h7 := share1_in c rd hq 7 (by decide) rfl
  rw [arrays1_chain]
  simp only [share1_0 c rd hq0, share1_1 c rd hq1, h2, h3, h4, h5, h6, h7, share1_8]

include hq0 hq1 hq in
/-- The same at the contents a valuation `V` of the core's buffers has at the arrays. -/
theorem arrays1_val (V : (b : Ref sig .tc) → Buf (Elt F) ((c : Thread nD τ).loc b)) :
    rd.arrays (fun w => V (Pipeline.arrRef spec1 w))
      = iprop((((c : Thread nD τ).loc main_arg0) ↦{fullShare.left} V main_arg0) ∗ (((c : Thread nD τ).loc main_arg0) ↦{fullShare.right} V main_arg0)
          ∗ (((c : Thread nD τ).loc main_v10_0) ↦{fullShare} V main_v10_0) ∗ (((c : Thread nD τ).loc main_v10_1) ↦{fullShare} V main_v10_1)
          ∗ (((c : Thread nD τ).loc main_arg1) ↦{fullShare} V main_arg1) ∗ (((c : Thread nD τ).loc main_v11) ↦{fullShare} V main_v11)
          ∗ (((c : Thread nD τ).loc main_v9) ↦{fullShare} V main_v9) ∗ (((c : Thread nD τ).loc main_v12) ↦{fullShare} V main_v12)
          ∗ (((c : Thread nD τ).loc main_v13) ↦{fullShare} V main_v13)) :=
  arrays1_shares c rd hq0 hq1 hq _

include hq0 hq1 hq in
/-- The eight buffers whole at the full share at contents `V` are the nine windows' arrays at the contents read off
    `V`: the shared buffer's points-to splits along its share, each half at the same contents. -/
theorem arrays1_of_arrBufs (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (Pipeline.arrBufs (Ix := Unit) (Name := ℕ) (U := UR sig nD τ) (Lvl := ℕ) spec1 c V : sProp 𝕄) ⊢ rd.arrays Fw := by
  obtain rfl : Fw = fun w => V (Pipeline.arrRef spec1 w) := funext hF
  rw [arrBufs1_eq, arrays1_val c rd hq0 hq1 hq]
  iintro ⟨H0, H2, H3, H4, H5, H6, H7, H8⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

include hq0 hq1 hq in
/-- The nine windows' arrays at contents read off `V` are the eight buffers whole at the full share at `V`: the two
    halves of the shared buffer's share, held at equal contents, join. -/
theorem arrBufs_of_arrays1 (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    rd.arrays Fw ⊢ (Pipeline.arrBufs (Ix := Unit) (Name := ℕ) (U := UR sig nD τ) (Lvl := ℕ) spec1 c V : sProp 𝕄) := by
  obtain rfl : Fw = fun w => V (Pipeline.arrRef spec1 w) := funext hF
  rw [arrBufs1_eq, arrays1_val c rd hq0 hq1 hq]
  iintro ⟨H0, H1, H2, H3, H4, H5, H6, H7, H8⟩
  ihave H01 := (pointsTo_share (PosShare.mem_left_op_right fullShare)).2 $$ [H0 H1]
  · isplitl [H0]; · iexact H0
    iexact H1
  isplitl [H01]; · iexact H01
  isplitl [H2]; · iexact H2
  isplitl [H3]; · iexact H3
  isplitl [H4]; · iexact H4
  isplitl [H5]; · iexact H5
  isplitl [H6]; · iexact H6
  isplitl [H7]; · iexact H7
  iexact H8

include hq0 hq1 hq in
/-- ENTRY: the core's unscoped buffers at contents `Vv` are the region's arrays at the proof data's entry contents
    (read off `Vv`) and the unscoped rest. -/
theorem entry1 (Vv : (b : Ref sig .tc) → Buf (Elt F) ((c : Thread nD τ).loc b)) (hA : ∀ w, rd.A w = Vv (Pipeline.arrRef spec1 w)) :
    (unscopedBufs c Vv : sProp 𝕄) ⊢ iprop(rd.arrays rd.A ∗ Pipeline.unscopedRest (Ix := Unit) (Name := ℕ) (U := UR sig nD τ) (Lvl := ℕ) spec1 c Vv) := by
  rw [unscopedBufs_split1]
  exact sep_mono (arrays1_of_arrBufs c rd hq0 hq1 hq Vv rd.A hA) .rfl

include hq0 hq1 hq in
/-- EXIT: the arrays at contents `Fw`, which are `Vv'` read at the arrays, beside the unscoped rest at `Vv`, are the
    core's unscoped buffers at `Vv'`, when `Vv'` and `Vv` agree off the arrays. -/
theorem exit1 (Vv Vv' : (b : Ref sig .tc) → Buf (Elt F) ((c : Thread nD τ).loc b))
    (Fw : (w : Fin cfg1.W) → Buf (Elt F) ((cfg1.win w).arr.view.loc (c : Thread nD τ))) (hF : ∀ w, Fw w = Vv' (Pipeline.arrRef spec1 w))
    (hrest : ∀ b, b ∉ Finset.univ.image (Pipeline.arrRef spec1) → Vv' b = Vv b) :
    iprop(rd.arrays Fw ∗ Pipeline.unscopedRest (Ix := Unit) (Name := ℕ) (U := UR sig nD τ) (Lvl := ℕ) spec1 c Vv) ⊢ (unscopedBufs c Vv' : sProp 𝕄) := by
  rw [unscopedBufs_split1]
  refine sep_mono (arrBufs_of_arrays1 c rd hq0 hq1 hq Vv' Fw hF) (Entails.of_eq ?_)
  unfold Pipeline.unscopedRest
  exact bigSep_congr fun b hb => by rw [hrest b (Finset.mem_sdiff.mp hb).2]

/-- An input window's array is never written back: after any number of write-backs it holds its entry contents,
    which an update of the entry contents at the output window leaves alone. -/
theorem arrAt1_in (w : Fin cfg1.W) (hin : (cfg1.win w).isOut = false) (hw : w ≠ 8) (n : ℕ)
    (G8 : Buf (Elt F) ((cfg1.win 8).arr.view.loc (c : Thread nD τ))) :
    iprop(∃ G, ⌜rd.ArrAt w n G⌝ ∗ (cfg1.win w).arr.view.loc (c : Thread nD τ) ↦[(cfg1.win w).arr.view.set]{rd.share w} G)
      ⊢ ((cfg1.win w).arr.view.loc (c : Thread nD τ) ↦[(cfg1.win w).arr.view.set]{rd.share w} Function.update rd.A 8 G8 w : sProp 𝕄) := by
  rw [rd.ArrAt_in w hin n, Function.update_of_ne hw]
  iintro ⟨%G, %h, H⟩
  subst h
  iexact H

/-- The output window's array at contents `G8` is the entry contents updated there, read there. -/
theorem arrAt1_out (G8 : Buf (Elt F) ((cfg1.win 8).arr.view.loc (c : Thread nD τ))) :
    ((cfg1.win 8).arr.view.loc (c : Thread nD τ) ↦[(cfg1.win 8).arr.view.set]{rd.share 8} G8 : sProp 𝕄)
      ⊢ ((cfg1.win 8).arr.view.loc (c : Thread nD τ) ↦[(cfg1.win 8).arr.view.set]{rd.share 8} Function.update rd.A 8 G8 8 : sProp 𝕄) := by
  rw [Function.update_self]

/-- After the write-backs below `n` every input array is as at entry, so only the output's contents are unknown:
    name them. -/
theorem arraysAt1_named (n : ℕ) :
    rd.arraysAt n ⊢ iprop(∃ F8, ⌜rd.ArrAt 8 n F8⌝ ∗ rd.arrays (Function.update rd.A 8 F8)) := by
  unfold RDat.arraysAt RDat.arrays
  rw [bigSep_W1]
  iintro ⟨H0, H1, H2, H3, H4, H5, H6, H7, H8⟩
  icases H8 with ⟨%F8, %h8, H8⟩
  iexists F8
  isplitr; · ipureintro; exact h8
  rw [bigSep_W1]
  isplitl [H0]; · iapply (arrAt1_in c rd (0 : Fin 9) rfl (by decide) n F8); iexact H0
  isplitl [H1]; · iapply (arrAt1_in c rd (1 : Fin 9) rfl (by decide) n F8); iexact H1
  isplitl [H2]; · iapply (arrAt1_in c rd (2 : Fin 9) rfl (by decide) n F8); iexact H2
  isplitl [H3]; · iapply (arrAt1_in c rd (3 : Fin 9) rfl (by decide) n F8); iexact H3
  isplitl [H4]; · iapply (arrAt1_in c rd (4 : Fin 9) rfl (by decide) n F8); iexact H4
  isplitl [H5]; · iapply (arrAt1_in c rd (5 : Fin 9) rfl (by decide) n F8); iexact H5
  isplitl [H6]; · iapply (arrAt1_in c rd (6 : Fin 9) rfl (by decide) n F8); iexact H6
  isplitl [H7]; · iapply (arrAt1_in c rd (7 : Fin 9) rfl (by decide) n F8); iexact H7
  iapply (arrAt1_out c rd F8); iexact H8

end Cert.Kernel.Hand

end
-- ==== Proof.K.Run1.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.K.Run0
import proofs.«105388_j24962349924890_1_alg».proof.Proof.K.Shared1
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The program's run, second half: the aggregation region as a segment, and the run

The aggregation region is entered from every unscoped buffer at `W3`. Two of its windows sit on the centres' array, so
its arrays are dealt out of the core's buffers with that array's share split in halves, and put back joined. Its output
array ends at contents the relational data only constrain: the last thread state holds it at SOME `F8` the data allow,
every other buffer as entered. The run reads every unscoped buffer of the final memory at that valuation. -/

variable (m : (ℓ : Loc nD τ sig) → Buf (Elt F) ℓ) (ρ : Dev nD → PrngReg)

/-- Core `c`'s buffers after the aggregation region, its output array at `F8`. -/
abbrev W4 (c : Dev nD) (F8 : Buf (Elt F) ((c : Thread nD τ).loc main_v13)) : Valuation τ sig (Elt F) :=
  Function.update (W3 m ρ c) (Proc.devRef .tc main_v13) F8

/-- The last thread state: every unscoped buffer at `W4` for some output contents the region's data allow, the
    generator register at some state. -/
abbrev Tₙ (c : Dev nD) : sProp 𝕄 :=
  iprop(∃ F8, ⌜(rdat1 (V3 m ρ) c).ArrAt 8 cfg1.N F8⌝ ∗ StableHlo.held (c : Thread nD τ) (Pipeline.ucRefs τ sig) (W4 m ρ c F8) ∗ ∃ r, prngReg c r)

theorem q1_0 (c : Dev nD) : (rdat1 (V3 m ρ) c).q 0 = fullShare.left := rfl
theorem q1_1 (c : Dev nD) : (rdat1 (V3 m ρ) c).q 1 = fullShare.right := rfl
theorem q1_rest (c : Dev nD) : ∀ w : Fin cfg1.W, 2 ≤ w.val → (rdat1 (V3 m ρ) c).q w = fullShare := by
  intro w hw
  match w, hw with
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl

/-- Only window 8 sits on the output array. -/
theorem arr1_ne : ∀ w : Fin cfg1.W, w ≠ 8 → Pipeline.arrRef spec1 w ≠ main_v13 := by decide

/-- The exit valuation has each array at the contents the region leaves: the inputs as entered, the output at `F8`. -/
theorem hF1 (c : Dev nD) (F8 : Buf (Elt F) ((c : Thread nD τ).loc main_v13)) (w : Fin cfg1.W) :
    Function.update (rdat1 (V3 m ρ) c).A 8 F8 w = (fun b : Ref sig .tc => W4 m ρ c F8 b) (Pipeline.arrRef spec1 w) := by
  by_cases hw : w = 8
  · subst hw
    exact (Function.update_self ..).trans
      (show F8 = Function.update (W3 m ρ c) (Proc.devRef .tc main_v13) F8 (Proc.devRef .tc main_v13) from (Function.update_self (β := fun b : DevRef τ sig => Buf (Elt F) (((c : Thread nD τ)).1, b)) (Proc.devRef .tc main_v13) F8 (W3 m ρ c)).symm)
  · exact (Function.update_of_ne hw ..).trans ((A_eq1 (V3 m ρ) c w).trans
      (Function.update_of_ne (StableHlo.devRef_ne_of_ne (arr1_ne w hw)) ..).symm)

/-- and agrees with the entry valuation off the arrays. -/
theorem hrest1 (c : Dev nD) (F8 : Buf (Elt F) ((c : Thread nD τ).loc main_v13)) :
    ∀ b, b ∉ Finset.univ.image (Pipeline.arrRef spec1) → (fun b : Ref sig .tc => W4 m ρ c F8 b) b = V3 m ρ c b := by
  intro b hb
  have hne : b ≠ main_v13 := fun e => hb (Finset.mem_image.mpr ⟨8, Finset.mem_univ _, e.symm⟩)
  exact Function.update_of_ne (StableHlo.devRef_ne_of_ne hne) ..

set_option backward.isDefEq.respectTransparency.types false in
/-- THE AGGREGATION REGION over the thread state: entered from every unscoped buffer at `W3`, left at `W4` of some
    output contents the data allow. -/
def reg1 : Pipeline.RDat.RegionSeg (pcfgs (F := F)) adm (rdats m ρ) () defs₀ 𝒱₀ L lv 1 where
  win := winFacts₀1
  block_pos := block_pos1
  stage_whole := stage_whole1
  K := PEmpty
  osem k := k.elim
  ho := Pipeline.OwnSemFacts.none _
  hbody c := body_obligation1 (V3 m ρ) c
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 c (rdat1 (V3 m ρ) c) (q1_0 m ρ c) (q1_1 m ρ c) (q1_rest m ρ c) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    rw [show (rdats m ρ 1 c).arraysAt (Pipeline.pin (pcfgs (F := F)) adm 1).N = ((rdat1 (V3 m ρ) c).arraysAt cfg1.N : sProp 𝕄) from rfl]
    iintro ⟨Ha, HO, HY, Hrest⟩
    ihave Hn := (arraysAt1_named c (rdat1 (V3 m ρ) c) cfg1.N) $$ Ha
    icases Hn with ⟨%F8, %hF8, Ha⟩
    have hjoin := exit1 c (rdat1 (V3 m ρ) c) (q1_0 m ρ c) (q1_1 m ρ c) (q1_rest m ρ c) (V3 m ρ c) (fun b : Ref sig .tc => W4 m ρ c F8 b)
      (Function.update (rdat1 (V3 m ρ) c).A 8 F8) (hF1 m ρ c F8) (hrest1 m ρ c F8)
    rw [Pipeline.unscopedBufs_held] at hjoin
    imodintro
    isplitr [HO]
    · iexists F8
      isplitr; · ipureintro; exact hF8
      isplitl [Ha Hrest]
      · iapply hjoin
        isplitl [Ha]; · iexact Ha
        iexact Hrest
      iexact HY
    unfold Pipeline.RDat.owesAt Pipeline.owesWithin
    icases HO with ⟨%W, -, HO⟩; iexists W; iexact HO

/-- @main's four segments in order. -/
abbrev segs : List (Pipeline.RDat.Seg (pcfgs (F := F)) adm (rdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]

theorem main_run (c : Dev nD) : main (F := F) c = Pipeline.RDat.Seg.run (segs m ρ) := (main_chain c).trans (by chain_rfl)

set_option backward.isDefEq.respectTransparency.types false in
/-- THE RUN. From any memory with zero counters every weakly fair execution of @main on the TensorCores terminates,
    nothing faulting, and in every final state each core's unscoped buffers hold `W4` of some output contents the
    aggregation region's data allow. -/
theorem run_main : θ_run defs (onTc (τ := τ) (main (F := F))) ⟨m, fun _ => 0, ρ⟩ (fun r => ∀ c : Dev nD,
      ∃ F8, (rdat1 (V3 m ρ) c).ArrAt 8 cfg1.N F8 ∧ ∀ b ∈ Pipeline.ucRefs τ sig, r.2.mem (((c : Thread nD τ)).1, b) = W4 m ρ c F8 b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ F8, (rdat1 (V3 m ρ) c).ArrAt 8 cfg1.N F8 ∧ ∀ b ∈ Pipeline.ucRefs τ sig, s.mem (((c : Thread nD τ)).1, b) = W4 m ρ c F8 b)
    (hfin := fun c s' => by
      iintro ⟨⟨%F8, %hF8, Hh, -⟩, HSI⟩
      unfold StableHlo.held
      ihave Hr := (pointsTo_read_all (Pipeline.ucRefs τ sig) (fun b => (((c : Thread nD τ)).1, b)) (W4 m ρ c F8) s') $$ [Hh HSI]
      · isplitl [Hh] <;> iassumption
      icases Hr with ⟨%h, HSI⟩
      imodintro
      isplitr
      · ipureintro; exact ⟨F8, hF8, h⟩
      · iexact HSI)
    (hQ := fun s h c => h c)

end Cert.Kernel.Hand

end
-- ==== Proof.K.ArgsKept.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.K.Run0
import proofs.«105388_j24962349924890_1_alg».proof.Proof.Gen.Kernel.Regions
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The argument arrays reach the aggregation region as launched

No host operation writes an argument, and the first region only reads the one argument it windows (the descriptors):
so each argument's buffer, when the aggregation region is entered, still holds what the launch memory held. -/

variable (m : (ℓ : Loc nD τ sig) → Buf (Elt F) ℓ) (ρ : Dev nD → PrngReg)

/-- A buffer no host stretch writes and the first region does not window is, at the aggregation region's entry, as launched. -/
theorem W3_kept (c : Dev nD) (r : Ref sig .tc) (h1 : r ∉ hostOps1_W) (hne : ∀ w, Pipeline.arrRef spec0 w ≠ r) (h0 : r ∉ hostOps0_W) :
    W3 m ρ c r = m ((c : Thread nD τ).loc r) :=
  (StableHlo.after_of_writes_sub hostOps1 _ hostOps1_writes h1).trans
    ((W2_of_ne m ρ c r hne).trans ((StableHlo.after_of_writes_sub hostOps0 _ hostOps0_writes h0).trans rfl))

theorem W3_arg0 (c : Dev nD) : W3 m ρ c main_arg0 = m ((c : Thread nD τ).loc main_arg0) := W3_kept m ρ c main_arg0 (by decide) (by decide) (by decide)
theorem W3_arg2 (c : Dev nD) : W3 m ρ c main_arg2 = m ((c : Thread nD τ).loc main_arg2) := W3_kept m ρ c main_arg2 (by decide) (by decide) (by decide)
theorem W3_arg3 (c : Dev nD) : W3 m ρ c main_arg3 = m ((c : Thread nD τ).loc main_arg3) := W3_kept m ρ c main_arg3 (by decide) (by decide) (by decide)
theorem W3_arg4 (c : Dev nD) : W3 m ρ c main_arg4 = m ((c : Thread nD τ).loc main_arg4) := W3_kept m ρ c main_arg4 (by decide) (by decide) (by decide)
theorem W3_arg5 (c : Dev nD) : W3 m ρ c main_arg5 = m ((c : Thread nD τ).loc main_arg5) := W3_kept m ρ c main_arg5 (by decide) (by decide) (by decide)

/-- The descriptors are the first region's window 0, an input: its array is never written. -/
theorem W3_arg1 (c : Dev nD) : W3 m ρ c main_arg1 = m ((c : Thread nD τ).loc main_arg1) :=
  (StableHlo.after_of_writes_sub hostOps1 _ hostOps1_writes (by decide : main_arg1 ∉ hostOps1_W)).trans
    ((W2_arr m ρ c 0).trans ((arrAt0_in (V1 m ρ) c 0 rfl _).trans
      ((StableHlo.after_of_writes_sub hostOps0 _ hostOps0_writes (by decide : main_arg1 ∉ hostOps0_W)).trans rfl)))

end Cert.Kernel.Hand

end
-- ==== Proof.K.FrameOf.lean ====
import proofs.«105388_j24962349924890_1_alg».proof.Proof.Gen.Kernel.Launch
import proofs.«105388_j24962349924890_1_alg».proof.Proof.Gen.Kernel.Skeleton
import proofs.«105388_j24962349924890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.K.Run1
import proofs.«105388_j24962349924890_1_alg».proof.Proof.K.ArgsKept
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The frame: every argument array ends as launched

The run ends with each core's unscoped buffers at the aggregation region's entry contents, its output array apart; and
at that entry each argument still held its launch contents. So in every final memory each argument array is as
launched — at any instance of the float operations. -/

variable (m : (ℓ : Loc nD τ sig) → Buf (Elt F) ℓ) (ρ : Dev nD → PrngReg)

/-- Off the output array the final valuation is the aggregation region's entry valuation. -/
theorem W4_of_ne (c : Dev nD) (F8 : Buf (Elt F) ((c : Thread nD τ).loc main_v13)) (r : Ref sig .tc) (hne : r ≠ main_v13) :
    W4 m ρ c F8 r = W3 m ρ c r :=
  Function.update_of_ne (StableHlo.devRef_ne_of_ne hne) ..

/-- and at the output array it is the contents named. -/
theorem W4_out (c : Dev nD) (F8 : Buf (Elt F) ((c : Thread nD τ).loc main_v13)) : W4 m ρ c F8 main_v13 = F8 :=
  Function.update_self ..

/-- THE FRAME at any `F`: every weakly fair execution terminates, nothing faulting, and every argument array ends as launched. -/
theorem frame_post : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨F8, -, hmem⟩ := h c
    exact ⟨(hmem _ (mem_uc main_arg0 (by decide))).trans ((W4_of_ne m ρ c F8 main_arg0 (by decide)).trans (W3_arg0 m ρ c)),
      (hmem _ (mem_uc main_arg1 (by decide))).trans ((W4_of_ne m ρ c F8 main_arg1 (by decide)).trans (W3_arg1 m ρ c)),
      (hmem _ (mem_uc main_arg2 (by decide))).trans ((W4_of_ne m ρ c F8 main_arg2 (by decide)).trans (W3_arg2 m ρ c)),
      (hmem _ (mem_uc main_arg3 (by decide))).trans ((W4_of_ne m ρ c F8 main_arg3 (by decide)).trans (W3_arg3 m ρ c)),
      (hmem _ (mem_uc main_arg4 (by decide))).trans ((W4_of_ne m ρ c F8 main_arg4 (by decide)).trans (W3_arg4 m ρ c)),
      (hmem _ (mem_uc main_arg5 (by decide))).trans ((W4_of_ne m ρ c F8 main_arg5 (by decide)).trans (W3_arg5 m ρ c))⟩)
    (run_main m ρ)

end Cert.Kernel.Hand

end
-- ==== Proof.KI.Region0.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The first call: the two projections of the descriptors, one block of rows at a time

The call runs over four points. Point `t` is handed rows `1024·t … 1024·t + 1023` of the descriptor array
(4096 × 256) together with the two 256 × 256 weight matrices, whole, and leaves in its two output blocks the
products of that block of rows with each weight matrix. Everything here is stated at a parameter `V`: what the
core's arrays hold when the call is entered. -/

-- what the core's arrays hold when the call is entered
variable (V : (c : Dev nD) → (b : Ref sig .tc) → Buf (Elt F) ((c : Thread nD τ).loc b))

/-! ## The blocks the points are handed -/

/-- The block of window `w` at point `t`, read off the window's array as the call finds it. -/
def uvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The descriptor window's buffer holds the point's block of rows, for any proof data over `V`'s arrays whose
    body leaves that block in place. -/
theorem uvBefore_rows_of {c : Dev nD} (dat : Dat τ (Elt F) Unit ℕ (UR sig nD τ) ℕ cfg0 c) (hA : dat.A 0 = V c (Pipeline.arrRef spec0 0))
    (hafter : ∀ t, dat.after 0 t = uvBlk V c 0 t) (t : Fin cfg0.N) (d) : dat.before 0 t d = uvBlk V c 0 t :=
  (dat.before_in_eq_fetched 0 rfl (fun _ => rfl) (fun _ _ _ => rfl) (fun t => by rw [hafter]; unfold Dat.blockOf uvBlk; rw [hA]; try rfl) t d).trans
    (by unfold Dat.fetched Dat.blockOf uvBlk; rw [hA]; try rfl)

/-- The first weight window's buffer holds the whole matrix at every point: it is brought in at the first point, and
    at the later ones its block index has not moved. -/
theorem uvBefore_wA_of {c : Dev nD} (dat : Dat τ (Elt F) Unit ℕ (UR sig nD τ) ℕ cfg0 c) (hA : dat.A 1 = V c (Pipeline.arrRef spec0 1))
    (hafter : ∀ t, dat.after 1 t = uvBlk V c 1 t) (t : Fin cfg0.N) (d) : dat.before 1 t d = uvBlk V c 1 t :=
  (dat.before_in_eq_fetched 1 rfl (fun _ => rfl) (fun _ _ _ => rfl) (fun t => by rw [hafter]; unfold Dat.blockOf uvBlk; rw [hA]; try rfl) t d).trans
    (by unfold Dat.fetched Dat.blockOf uvBlk; rw [hA]; try rfl)

/-- The second weight window's buffer likewise. -/
theorem uvBefore_wB_of {c : Dev nD} (dat : Dat τ (Elt F) Unit ℕ (UR sig nD τ) ℕ cfg0 c) (hA : dat.A 2 = V c (Pipeline.arrRef spec0 2))
    (hafter : ∀ t, dat.after 2 t = uvBlk V c 2 t) (t : Fin cfg0.N) (d) : dat.before 2 t d = uvBlk V c 2 t :=
  (dat.before_in_eq_fetched 2 rfl (fun _ => rfl) (fun _ _ _ => rfl) (fun t => by rw [hafter]; unfold Dat.blockOf uvBlk; rw [hA]; try rfl) t d).trans
    (by unfold Dat.fetched Dat.blockOf uvBlk; rw [hA]; try rfl)

/-! ## What the body reads and writes: every buffer whole -/

/-- A block of rows (1024 × 256), whole. -/
abbrev uvRows : Rect S1024x256 := Rect.unit (s := S1024x256) ![0, 0] S1024x256.size inb_S1024x256_S1024x256_0_0
/-- A weight matrix (256 × 256), whole. -/
abbrev uvWeights : Rect S256x256 := Rect.unit (s := S256x256) ![0, 0] S256x256.size inb_S256x256_S256x256_0_0

/-! ## What the body leaves in the two output buffers -/

/-- The first output buffer after the body: the block of rows times the first weight matrix, stored over the whole buffer. -/
def uvOutU (x0 : Vec F S1024x256 .f32) (x1 : Vec F S256x256 .f32) : Vec F S1024x256 .f32 :=
  View.canon [⟨uvRows, k0_pay2 (View.ld x0 uvRows) (View.ld x1 uvWeights)⟩]

/-- The second output buffer after the body: the block of rows times the second weight matrix, stored over the whole buffer. -/
def uvOutV (x0 : Vec F S1024x256 .f32) (x2 : Vec F S256x256 .f32) : Vec F S1024x256 .f32 :=
  View.canon [⟨uvRows, k0_pay3 (View.ld x0 uvRows) (View.ld x2 uvWeights)⟩]

/-- The one store into an output buffer covers it: its rectangle is the whole buffer. -/
theorem uvCover (p0 : Vec F S1024x256 .f32) (y : S1024x256.Idx) :
    ∃ pc ∈ ([⟨uvRows, p0⟩] : List (View.Piece (Elt F) S1024x256 .f32)), y ∈ pc.1.set :=
  View.cover_of_tiled [⟨uvRows, p0⟩] S1024x256.size (by rfl) y

/-! ## The body's triple -/

set_option maxHeartbeats 1000000 in
/-- The body on whole buffers — the three inputs' at contents `x0`, `x1`, `x2`, the two outputs' at anything — runs
    to a state with the inputs' as they were and the outputs' at the two products. The body reads each output buffer
    before it writes it; what it reads there is not used. -/
theorem uv_sound_kernel (c : Dev nD) (E : Set ℕ) (i : grid0.Coords) (arg1 : Memref sig .tc .vmem S1024x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S1024x256 .f32) (harg4 : arg4.IsWhole) (arg5 : Memref sig .tc .vmem S1024x256 .f32) (harg5 : arg5.IsWhole)
    (x0 : Vec F S1024x256 .f32) (x1 : Vec F S256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (uvOutU x0 x1) ∗ owns (c : Thread nD τ) arg5 fullShare (uvOutV x0 x2)) -∗ K ⟨⟩))
      ⊢ wp frame (wpE (defs₀ (F := F)) Variants.none c none) E (cc0__uv_kernel i arg1 harg1 arg2 harg2 arg3 harg3 arg4 harg4 arg5 harg5) K := by
  simp only [cc0__uv_kernel_eq_skeleton]; unfold cc0__uv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (uvCover _)
  iexists _; isplitr
  swap; · iexact H4
  ipureintro
  exact View.read_writes_eq_canon _ _ _ (uvCover _)

/-! ## The call's proof data -/

/-- The proof data of the call on core `c`: the arrays as the call finds them; after the body at point `t` each
    input buffer still at its block, the first output buffer at the block of rows times the first weight matrix and the
    second at the block of rows times the second; the invariant carries what the call does not touch; nothing owed;
    full shares. -/
def dat0 (c : Dev nD) : Dat τ (Elt F) Unit ℕ (UR sig nD τ) ℕ cfg0 c where
  A w := V c (Pipeline.arrRef spec0 w)
  after w t := match w with
    | ⟨0, _⟩ => uvBlk V c 0 t
    | ⟨1, _⟩ => uvBlk V c 1 t
    | ⟨2, _⟩ => uvBlk V c 2 t
    | ⟨3, _⟩ => uvOutU (uvBlk V c 0 t) (uvBlk V c 1 t)
    | ⟨4, _⟩ => uvOutV (uvBlk V c 0 t) (uvBlk V c 2 t)
  Φ _ := Pipeline.ΦA spec0 c
  q _ := fullShare
  owed _ := 0

/-- The proof data's arrays are the contents the call is entered with. -/
theorem A_eq0 (c : Dev nD) (w : Fin cfg0.W) : (dat0 V c).A w = V c (Pipeline.arrRef spec0 w) := by
  dsimp only [dat0]

/-- What the body leaves, window by window. -/
theorem uvAfter_rows (c : Dev nD) (t : Fin cfg0.N) : (dat0 V c).after 0 t = uvBlk V c 0 t := by dsimp only [dat0]
theorem uvAfter_wA (c : Dev nD) (t : Fin cfg0.N) : (dat0 V c).after 1 t = uvBlk V c 1 t := by dsimp only [dat0]
theorem uvAfter_wB (c : Dev nD) (t : Fin cfg0.N) : (dat0 V c).after 2 t = uvBlk V c 2 t := by dsimp only [dat0]
theorem uvAfter_u (c : Dev nD) (t : Fin cfg0.N) : (dat0 V c).after 3 t = uvOutU (uvBlk V c 0 t) (uvBlk V c 1 t) := by dsimp only [dat0]
theorem uvAfter_v (c : Dev nD) (t : Fin cfg0.N) : (dat0 V c).after 4 t = uvOutV (uvBlk V c 0 t) (uvBlk V c 2 t) := by dsimp only [dat0]

/-- Each input buffer holds its block at every point, brought in there or not. -/
theorem uvBefore_rows (c : Dev nD) (t : Fin cfg0.N) (d) : (dat0 V c).before 0 t d = uvBlk V c 0 t :=
  uvBefore_rows_of V (dat0 V c) (A_eq0 V c 0) (uvAfter_rows V c) t d
theorem uvBefore_wA (c : Dev nD) (t : Fin cfg0.N) (d) : (dat0 V c).before 1 t d = uvBlk V c 1 t :=
  uvBefore_wA_of V (dat0 V c) (A_eq0 V c 1) (uvAfter_wA V c) t d
theorem uvBefore_wB (c : Dev nD) (t : Fin cfg0.N) (d) : (dat0 V c).before 2 t d = uvBlk V c 2 t :=
  uvBefore_wB_of V (dat0 V c) (A_eq0 V c 2) (uvAfter_wB V c) t d

/-! ## The body obligation, at a generic point -/

/-- What the body is called with at point `t`, the windows one by one, -/
def uvBodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def uvBodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and what
    the core owes pass through unread. -/
theorem uv_sound_body (c : Dev nD) (t : Fin cfg0.N) :
    uvBodyPre V c t ⊢ wp frame (wpE (defs₀ (F := F)) Variants.none c none) Set.univ (bodyAt0 t) (fun _ => uvBodyPost V c t) := by
  unfold uvBodyPre uvBodyPost bodyAt0
  simp only [uvBefore_rows, uvBefore_wA, uvBefore_wB]
  rw [show (dat0 V c).Φ t.succ = (dat0 V c).Φ t.castSucc from rfl,
    show (dat0 V c).owesAt () t.succ = (dat0 V c).owesAt () t.castSucc from rfl,
    uvAfter_rows, uvAfter_wA, uvAfter_wB, uvAfter_u, uvAfter_v]
  iintro ⟨HΦ, Ho, ⟨%d0, H0⟩, ⟨%d1, H1⟩, ⟨%d2, H2⟩, ⟨%d3, H3⟩, ⟨%d4, H4⟩⟩
  iapply (uv_sound_kernel c Set.univ _ _ _ _ _ _ _ _ _ _ _ (uvBlk V c 0 t) (uvBlk V c 1 t) (uvBlk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the call, at every point. -/
theorem body_obligation0 (c : Dev nD) : Pipeline.BodyObligation (dat0 (F := F) V c) (defs₀ (F := F)) Variants.none () Set.univ := fun t => by
  rw [bigSep_W0, bigSep_W0]
  exact uv_sound_body V c t

/-! ## The input arrays -/

/-- An input window's array is never written: after any number of points it holds what the call was entered with. -/
theorem arrAt0_in (c : Dev nD) (w : Fin cfg0.W) (hw : (cfg0.win w).isOut = false) (n : Nat) :
    (dat0 V c).arrAt w n = V c (Pipeline.arrRef spec0 w) :=
  ((dat0 V c).arrAt_in w hw n).trans (A_eq0 V c w)

end Cert.KernelIdeal.Hand

end
-- ==== Proof.KI.Body1.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The aggregation kernel's body at one grid point, in each of its three cases

The kernel keeps three buffers across the eight points k = 0 … 7 of a row block: the neighbour-weighted sum of
`u` rows (512 × 256), the neighbour count (512 × 1), and the output block's staging buffer (512 × 512). At each
point both accumulators grow by the point's block of neighbours; at k = 0 they start from zero and the output's left
half takes the descriptor block; at k = 7 the output's right half takes the pooled value computed from the finished
accumulators. What a point leaves in each is stated as a pure function of the point's input blocks and of what the
buffer held; the three theorems say the body, run on whole buffers at given contents, leaves exactly that. -/

theorem hz2 : (![0, 0] : Fin 2 → Nat) = fun _ => 0 := funext fun a => by fin_cases a <;> rfl

/-- The neighbour count after a point, from the two blocks of centres and the count before it. -/
def degNext (i : grid1.Coords) (x0 x1 : Vec F S512x3 .f32) (d : Vec F S512x1 .f32) : Vec F S512x1 .f32 :=
  k1_pay1 (k1_pay7 i x0 x1 d)

/-- The neighbour-weighted sum after a point, from the two blocks of centres, the block of `u` and the sum before it. -/
def muNext (i : grid1.Coords) (x0 x1 : Vec F S512x3 .f32) (x2 : Vec F S512x256 .f32) (mu : Vec F S512x256 .f32) : Vec F S512x256 .f32 :=
  k1_pay2 (k1_pay6 i x0 x1) x2 mu

/-- The left half of the output block (columns 0–255) and its right half (columns 256–511). -/
abbrev rL : Rect S512x512 := Rect.unit (s := S512x512) ![0, 0] S512x256.size inb_S512x512_S512x256_0_0
abbrev rR : Rect S512x512 := Rect.unit (s := S512x512) ![0, 256] S512x256.size inb_S512x512_S512x256_0_256

/-- Reading back ONE store over contents `f`: the payload on the store's rectangle, `f` read elsewhere. -/
theorem read_write_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

/-- A store through the whole-shape rectangle replaces everything. -/
theorem overlay_unit_zero {S : Shape} {α : Type} {off : Fin S.rank → Nat} (h : off = fun _ => 0)
    (inb : ∀ a, off a + S.size a ≤ S.size a) (X : S.Idx → α) (w : S.Idx → α) :
    (Rect.unit off S.size inb).overlay X w = w := by
  subst h; funext y
  have e := Rect.overlay_emb (Rect.whole S) X w y
  rw [Rect.emb_whole_apply] at e
  exact e

/-- The last of several stores, when it is through the whole-shape rectangle, is all that is read back. -/
theorem read_writes_last_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩), View.canon_cons_unit_zero h]

/-- The kernel's two branch conditions: "this is the row block's first point" and "its last point". -/
abbrev c1 (i : grid1.Coords) : Prop := k1_cond1 i = 1#1
abbrev c2 (i : grid1.Coords) : Prop := k1_cond2 i = 1#1

set_option maxHeartbeats 4000000 in
/-- A MIDDLE point (neither the first nor the last of its row block): the inputs and the output's buffer come back as
    handed over, both accumulators advance. -/
theorem body_mid (c : Dev nD) (i : grid1.Coords)
    (arg2 : Memref sig .tc .vmem S512x3 .f32) (harg2 : arg2.IsWhole) (arg3 : Memref sig .tc .vmem S512x3 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S1x256 .f32) (harg7 : arg7.IsWhole)
    (arg8 : Memref sig .tc .vmem S256x256 .f32) (harg8 : arg8.IsWhole) (arg9 : Memref sig .tc .vmem S1x256 .f32) (harg9 : arg9.IsWhole)
    (arg10 : Memref sig .tc .vmem S512x512 .f32) (harg10 : arg10.IsWhole) (arg11 : Memref sig .tc .vmem S512x256 .f32) (harg11 : arg11.IsWhole)
    (arg12 : Memref sig .tc .vmem S512x1 .f32) (harg12 : arg12.IsWhole) (hc1 : ¬ c1 i) (hc2 : ¬ c2 i)
    (x0 x1 : Vec F S512x3 .f32) (x2 x3 x4 : Vec F S512x256 .f32) (x5 : Vec F S1x256 .f32) (x6 : Vec F S256x256 .f32) (x7 : Vec F S1x256 .f32)
    (xo : Vec F S512x512 .f32) (xs0 : Vec F S512x256 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
            ∗ owns (c : Thread nD τ) arg11 fullShare (muNext i x0 x1 x2 xs0) ∗ owns (c : Thread nD τ) arg12 fullShare (degNext i x0 x1 xs1)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfs0; obtain rfl := harg12.eq_unread hfs1
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [HO]; · iexists _; isplitr; · ipureintro; exact harg10.read_unread _
                  iexact HO
  isplitl [HS0]
  · iexists _; isplitr
    swap; · iexact HS0
    ipureintro
    sl_unfold_words
    rw [read_writes_last_whole _ _ hz2]
    unfold muNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  · iexists _; isplitr
    swap; · iexact HS1
    ipureintro
    sl_unfold_words
    rw [read_writes_last_whole _ _ hz2]
    unfold degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]

set_option maxHeartbeats 4000000 in
/-- The FIRST point of a row block: both accumulators are zeroed and then advanced, and the left half of the output's
    buffer takes the descriptor block (its right half is left as it was). -/
theorem body_first (c : Dev nD) (i : grid1.Coords)
    (arg2 : Memref sig .tc .vmem S512x3 .f32) (harg2 : arg2.IsWhole) (arg3 : Memref sig .tc .vmem S512x3 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S1x256 .f32) (harg7 : arg7.IsWhole)
    (arg8 : Memref sig .tc .vmem S256x256 .f32) (harg8 : arg8.IsWhole) (arg9 : Memref sig .tc .vmem S1x256 .f32) (harg9 : arg9.IsWhole)
    (arg10 : Memref sig .tc .vmem S512x512 .f32) (harg10 : arg10.IsWhole) (arg11 : Memref sig .tc .vmem S512x256 .f32) (harg11 : arg11.IsWhole)
    (arg12 : Memref sig .tc .vmem S512x1 .f32) (harg12 : arg12.IsWhole) (hc1 : c1 i) (hc2 : ¬ c2 i)
    (x0 x1 : Vec F S512x3 .f32) (x2 x3 x4 : Vec F S512x256 .f32) (x5 : Vec F S1x256 .f32) (x6 : Vec F S256x256 .f32) (x7 : Vec F S1x256 .f32)
    (xo : Vec F S512x512 .f32) (xs0 : Vec F S512x256 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare (rL.overlay xo x4)
            ∗ owns (c : Thread nD τ) arg11 fullShare (muNext i x0 x1 x2 (k1_pay4 (F := F))) ∗ owns (c : Thread nD τ) arg12 fullShare (degNext i x0 x1 (k1_pay5 (F := F)))) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfs0; obtain rfl := harg12.eq_unread hfs1
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [HO]
  · iexists _; isplitr
    swap; · iexact HO
    ipureintro
    sl_unfold_words
    rw [read_write_one]
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  isplitl [HS0]
  · iexists _; isplitr
    swap; · iexact HS0
    ipureintro
    sl_unfold_words
    rw [read_writes_last_whole _ _ hz2]
    unfold muNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  · iexists _; isplitr
    swap; · iexact HS1
    ipureintro
    sl_unfold_words
    rw [read_writes_last_whole _ _ hz2]
    unfold degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]

set_option maxHeartbeats 4000000 in
/-- The LAST point of a row block: both accumulators advance, and the right half of the output's buffer takes the pooled
    value computed from the finished accumulators (its left half is left as it was). -/
theorem body_last (c : Dev nD) (i : grid1.Coords)
    (arg2 : Memref sig .tc .vmem S512x3 .f32) (harg2 : arg2.IsWhole) (arg3 : Memref sig .tc .vmem S512x3 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S1x256 .f32) (harg7 : arg7.IsWhole)
    (arg8 : Memref sig .tc .vmem S256x256 .f32) (harg8 : arg8.IsWhole) (arg9 : Memref sig .tc .vmem S1x256 .f32) (harg9 : arg9.IsWhole)
    (arg10 : Memref sig .tc .vmem S512x512 .f32) (harg10 : arg10.IsWhole) (arg11 : Memref sig .tc .vmem S512x256 .f32) (harg11 : arg11.IsWhole)
    (arg12 : Memref sig .tc .vmem S512x1 .f32) (harg12 : arg12.IsWhole) (hc1 : ¬ c1 i) (hc2 : c2 i)
    (x0 x1 : Vec F S512x3 .f32) (x2 x3 x4 : Vec F S512x256 .f32) (x5 : Vec F S1x256 .f32) (x6 : Vec F S256x256 .f32) (x7 : Vec F S1x256 .f32)
    (xo : Vec F S512x512 .f32) (xs0 : Vec F S512x256 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare xo
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare (rR.overlay xo (k1_pay3 x3 x5 (degNext i x0 x1 xs1) (muNext i x0 x1 x2 xs0) x6 x7))
            ∗ owns (c : Thread nD τ) arg11 fullShare (muNext i x0 x1 x2 xs0) ∗ owns (c : Thread nD τ) arg12 fullShare (degNext i x0 x1 xs1)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfs0; obtain rfl := harg12.eq_unread hfs1
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [HO]
  · iexists _; isplitr
    swap; · iexact HO
    ipureintro
    sl_unfold_words
    rw [read_write_one]
    unfold muNext degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  isplitl [HS0]
  · iexists _; isplitr
    swap; · iexact HS0
    ipureintro
    sl_unfold_words
    rw [read_writes_last_whole _ _ hz2]
    unfold muNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]
  · iexists _; isplitr
    swap; · iexact HS1
    ipureintro
    sl_unfold_words
    rw [read_writes_last_whole _ _ hz2]
    unfold degNext
    simp only [View.readAt_eq_ld, harg2.read_unread, harg3.read_unread, harg4.read_unread, harg5.read_unread, harg6.read_unread, harg7.read_unread, harg8.read_unread, harg9.read_unread, harg10.read_unread, harg11.read_unread, harg12.read_unread, View.readCov_unit_zero (S := S512x256) _ hz2, View.readCov_unit_zero (S := S512x1) _ hz2, View.ld_unit_zero (S := S512x3) hz2, View.ld_unit_zero (S := S512x256) hz2, View.ld_unit_zero (S := S512x1) hz2, View.ld_unit_zero (S := S1x256) hz2, View.ld_unit_zero (S := S256x256) hz2]

end Cert.KernelIdeal.Hand

end
-- ==== Proof.KI.Frame1.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Body1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The aggregation region's proof data: what its buffers hold from point to point

The region runs the aggregation kernel at the 64 points (i, k) of an 8 × 8 grid, k fastest. Its eight input windows are
only read. Its output window's staging buffer is written in halves — the left at k = 0, the right at k = 7 — and
written back to the array after k = 7, so what it holds at a point depends on what it held before: the data below
RELATE the contents the body is handed to the contents it leaves (left as found for an input; for the output, the
half overwritten at the row block's first and last point). The two accumulators live in scratch buffers the region's
invariant holds at the values `accAt` names, which restart at every k = 0. The two windows on the centres' array hold
one half of its share each. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- "First point of its row block" and "last point of its row block", decided over the grid. -/
theorem hc1 : ∀ t : Fin cfg1.N, c1 (grid1.coords t) ↔ t.val % 8 = 0 :=
  (by decide +kernel : ∀ t : Fin grid1.N, c1 (grid1.coords t) ↔ t.val % 8 = 0)
theorem hc2 : ∀ t : Fin cfg1.N, c2 (grid1.coords t) ↔ t.val % 8 = 7 :=
  (by decide +kernel : ∀ t : Fin grid1.N, c2 (grid1.coords t) ↔ t.val % 8 = 7)

/-- The two accumulators (the weighted sum, the neighbour count) after the body at position `n`: started from zero at
    a row block's first point, else advanced from the point before. -/
def accAt (c : Dev nD) : (n : ℕ) → n < cfg1.N → Vec F S512x256 .f32 × Vec F S512x1 .f32
  | 0, hn => (muNext (grid1.coords ⟨0, hn⟩) (iblk1 V c 0 ⟨0, hn⟩) (iblk1 V c 1 ⟨0, hn⟩) (iblk1 V c 2 ⟨0, hn⟩) (k1_pay4 (F := F)),
              degNext (grid1.coords ⟨0, hn⟩) (iblk1 V c 0 ⟨0, hn⟩) (iblk1 V c 1 ⟨0, hn⟩) (k1_pay5 (F := F)))
  | n + 1, hn =>
    if (n + 1) % 8 = 0 then
      (muNext (grid1.coords ⟨n + 1, hn⟩) (iblk1 V c 0 ⟨n + 1, hn⟩) (iblk1 V c 1 ⟨n + 1, hn⟩) (iblk1 V c 2 ⟨n + 1, hn⟩) (k1_pay4 (F := F)),
       degNext (grid1.coords ⟨n + 1, hn⟩) (iblk1 V c 0 ⟨n + 1, hn⟩) (iblk1 V c 1 ⟨n + 1, hn⟩) (k1_pay5 (F := F)))
    else
      (muNext (grid1.coords ⟨n + 1, hn⟩) (iblk1 V c 0 ⟨n + 1, hn⟩) (iblk1 V c 1 ⟨n + 1, hn⟩) (iblk1 V c 2 ⟨n + 1, hn⟩) (accAt c n (Nat.lt_of_succ_lt hn)).1,
       degNext (grid1.coords ⟨n + 1, hn⟩) (iblk1 V c 0 ⟨n + 1, hn⟩) (iblk1 V c 1 ⟨n + 1, hn⟩) (accAt c n (Nat.lt_of_succ_lt hn)).2)

theorem accAt_first (c : Dev nD) (t : Fin cfg1.N) (h : t.val % 8 = 0) :
    accAt V c t.val t.isLt = (muNext (grid1.coords t) (iblk1 V c 0 t) (iblk1 V c 1 t) (iblk1 V c 2 t) (k1_pay4 (F := F)),
      degNext (grid1.coords t) (iblk1 V c 0 t) (iblk1 V c 1 t) (k1_pay5 (F := F))) := by
  obtain ⟨n, hn⟩ := t
  cases n with
  | zero => rfl
  | succ n => exact (if_pos h).trans rfl

theorem accAt_next (c : Dev nD) (t : Fin cfg1.N) (h : ¬ t.val % 8 = 0) :
    accAt V c t.val t.isLt = (muNext (grid1.coords t) (iblk1 V c 0 t) (iblk1 V c 1 t) (iblk1 V c 2 t) (accAt V c (t.val - 1) (Nat.lt_of_le_of_lt (Nat.sub_le _ _) t.isLt)).1,
      degNext (grid1.coords t) (iblk1 V c 0 t) (iblk1 V c 1 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the body leaves in the output window's buffer at point `t` if it was handed `Y`: at a row block's first
    point the left half becomes the descriptor block, at its last the right half becomes the pooled value of the
    finished accumulators, in between nothing changes. -/
def outStep (c : Dev nD) (t : Fin cfg1.N) (Y : Vec F S512x512 .f32) : Vec F S512x512 .f32 :=
  if t.val % 8 = 0 then rL.overlay Y (iblk1 V c 4 t)
  else if t.val % 8 = 7 then
    rR.overlay Y (k1_pay3 (iblk1 V c 3 t) (iblk1 V c 5 t) (accAt V c t.val t.isLt).2 (accAt V c t.val t.isLt).1 (iblk1 V c 6 t) (iblk1 V c 7 t))
  else Y

/-- The two scratch buffers as whole memrefs. -/
abbrev scM0 : Memref sig .tc .vmem S512x256 .f32 := Memref.whole cc1_scratch0
abbrev scM1 : Memref sig .tc .vmem S512x1 .f32 := Memref.whole cc1_scratch1

/-- The core's scoped buffers that are no staging buffer of this region: the other region's eight staging buffers at
    anything, and the two scratch buffers as `P`, `Q` say. -/
def restChain (c : Dev nD) (P Q : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P ∗ Q)

/-- The class's invariant (every scoped buffer the region does not stage at anything, the generator register at some
    state) with the scratch buffers as owned memrefs. -/
theorem PhiA1_eq (c : Dev nD) :
    (Pipeline.ΦA spec1 c : sProp 𝕄)
      = iprop(restChain c (iprop(∃ d, owns (c : Thread nD τ) scM0 fullShare d)) (iprop(∃ d, owns (c : Thread nD τ) scM1 fullShare d)) ∗ (∃ r, prngReg c r)) := by
  unfold Pipeline.ΦA restChain; rw [scopedRest1_eq]; simp only [scM0, scM1, owns_whole]; try rfl

/-- The region's invariant before position `n`: before the first point the class's; afterwards the scratch buffers at
    the accumulators the point before left. -/
def PhiS (c : Dev nD) : (n : ℕ) → n ≤ cfg1.N → sProp 𝕄
  | 0, _ => Pipeline.ΦA spec1 c
  | n + 1, hn => iprop(restChain c (owns (c : Thread nD τ) scM0 fullShare (accAt V c n hn).1) (owns (c : Thread nD τ) scM1 fullShare (accAt V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restChain c (owns (c : Thread nD τ) scM0 fullShare (accAt V c n hn).1) (owns (c : Thread nD τ) scM1 fullShare (accAt V c n hn).2) ∗ (∃ r, prngReg c r)) := rfl
theorem PhiS_pos (c : Dev nD) (n : ℕ) (h : n ≤ cfg1.N) (hz : n ≠ 0) :
    PhiS V c n h = iprop(restChain c (owns (c : Thread nD τ) scM0 fullShare (accAt V c (n - 1) (by omega)).1) (owns (c : Thread nD τ) scM1 fullShare (accAt V c (n - 1) (by omega)).2) ∗ (∃ r, prngReg c r)) := by
  cases n with
  | zero => exact absurd rfl hz
  | succ n => rfl

/-- The proof data of the region on core `c`: the arrays as the region finds them; an input left as found, the output
    stepped by `outStep`; the invariant `PhiS`; the two windows on the centres' array at half its share each; nothing owed. -/
def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = outStep V c t Y
  Φ t := PhiS V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (rdat1 V c).A w = V c (Pipeline.arrRef spec1 w) := by
  dsimp only [rdat1]

theorem after1_0 (c : Dev nD) (t : Fin cfg1.N) (Y X) : (rdat1 V c).after 0 t Y X ↔ X = Y := by dsimp only [rdat1]; exact Iff.rfl
theorem after1_1 (c : Dev nD) (t : Fin cfg1.N) (Y X) : (rdat1 V c).after 1 t Y X ↔ X = Y := by dsimp only [rdat1]; exact Iff.rfl
theorem after1_2 (c : Dev nD) (t : Fin cfg1.N) (Y X) : (rdat1 V c).after 2 t Y X ↔ X = Y := by dsimp only [rdat1]; exact Iff.rfl
theorem after1_3 (c : Dev nD) (t : Fin cfg1.N) (Y X) : (rdat1 V c).after 3 t Y X ↔ X = Y := by dsimp only [rdat1]; exact Iff.rfl
theorem after1_4 (c : Dev nD) (t : Fin cfg1.N) (Y X) : (rdat1 V c).after 4 t Y X ↔ X = Y := by dsimp only [rdat1]; exact Iff.rfl
theorem after1_5 (c : Dev nD) (t : Fin cfg1.N) (Y X) : (rdat1 V c).after 5 t Y X ↔ X = Y := by dsimp only [rdat1]; exact Iff.rfl
theorem after1_6 (c : Dev nD) (t : Fin cfg1.N) (Y X) : (rdat1 V c).after 6 t Y X ↔ X = Y := by dsimp only [rdat1]; exact Iff.rfl
theorem after1_7 (c : Dev nD) (t : Fin cfg1.N) (Y X) : (rdat1 V c).after 7 t Y X ↔ X = Y := by dsimp only [rdat1]; exact Iff.rfl
theorem after1_8 (c : Dev nD) (t : Fin cfg1.N) (Y X : Vec F S512x512 .f32) : (rdat1 V c).after 8 t Y X = (X = outStep V c t Y) := by dsimp only [rdat1]

theorem PhiS_castSucc (c : Dev nD) (t : Fin cfg1.N) :
    (rdat1 V c).Φ t.castSucc = PhiS V c t.val (Nat.le_of_lt t.isLt) := by
  dsimp only [rdat1]; simp only [Fin.coe_castSucc]

/-- An input window's buffer holds its block wherever the body is handed it, fetched there or not. -/
theorem finds1_0 (c : Dev nD) (t : Fin cfg1.N) (Y) (h : (rdat1 V c).Finds 0 t Y) : Y = iblk1 V c 0 t := by
  obtain ⟨d, hd⟩ := (rdat1 V c).finds_in_eq_fetched 0 rfl (fun _ _ _ => rfl) (fun t Y X h => (after1_0 V c t Y X).mp h) t Y h
  rw [hd]; unfold RDat.fetched RDat.blockOf iblk1; rw [A_eq1]; try rfl
theorem finds1_1 (c : Dev nD) (t : Fin cfg1.N) (Y) (h : (rdat1 V c).Finds 1 t Y) : Y = iblk1 V c 1 t := by
  obtain ⟨d, hd⟩ := (rdat1 V c).finds_in_eq_fetched 1 rfl (fun _ _ _ => rfl) (fun t Y X h => (after1_1 V c t Y X).mp h) t Y h
  rw [hd]; unfold RDat.fetched RDat.blockOf iblk1; rw [A_eq1]; try rfl
theorem finds1_2 (c : Dev nD) (t : Fin cfg1.N) (Y) (h : (rdat1 V c).Finds 2 t Y) : Y = iblk1 V c 2 t := by
  obtain ⟨d, hd⟩ := (rdat1 V c).finds_in_eq_fetched 2 rfl (fun _ _ _ => rfl) (fun t Y X h => (after1_2 V c t Y X).mp h) t Y h
  rw [hd]; unfold RDat.fetched RDat.blockOf iblk1; rw [A_eq1]; try rfl
theorem finds1_3 (c : Dev nD) (t : Fin cfg1.N) (Y) (h : (rdat1 V c).Finds 3 t Y) : Y = iblk1 V c 3 t := by
  obtain ⟨d, hd⟩ := (rdat1 V c).finds_in_eq_fetched 3 rfl (fun _ _ _ => rfl) (fun t Y X h => (after1_3 V c t Y X).mp h) t Y h
  rw [hd]; unfold RDat.fetched RDat.blockOf iblk1; rw [A_eq1]; try rfl
theorem finds1_4 (c : Dev nD) (t : Fin cfg1.N) (Y) (h : (rdat1 V c).Finds 4 t Y) : Y = iblk1 V c 4 t := by
  obtain ⟨d, hd⟩ := (rdat1 V c).finds_in_eq_fetched 4 rfl (fun _ _ _ => rfl) (fun t Y X h => (after1_4 V c t Y X).mp h) t Y h
  rw [hd]; unfold RDat.fetched RDat.blockOf iblk1; rw [A_eq1]; try rfl
theorem finds1_5 (c : Dev nD) (t : Fin cfg1.N) (Y) (h : (rdat1 V c).Finds 5 t Y) : Y = iblk1 V c 5 t := by
  obtain ⟨d, hd⟩ := (rdat1 V c).finds_in_eq_fetched 5 rfl (fun _ _ _ => rfl) (fun t Y X h => (after1_5 V c t Y X).mp h) t Y h
  rw [hd]; unfold RDat.fetched RDat.blockOf iblk1; rw [A_eq1]; try rfl
theorem finds1_6 (c : Dev nD) (t : Fin cfg1.N) (Y) (h : (rdat1 V c).Finds 6 t Y) : Y = iblk1 V c 6 t := by
  obtain ⟨d, hd⟩ := (rdat1 V c).finds_in_eq_fetched 6 rfl (fun _ _ _ => rfl) (fun t Y X h => (after1_6 V c t Y X).mp h) t Y h
  rw [hd]; unfold RDat.fetched RDat.blockOf iblk1; rw [A_eq1]; try rfl
theorem finds1_7 (c : Dev nD) (t : Fin cfg1.N) (Y) (h : (rdat1 V c).Finds 7 t Y) : Y = iblk1 V c 7 t := by
  obtain ⟨d, hd⟩ := (rdat1 V c).finds_in_eq_fetched 7 rfl (fun _ _ _ => rfl) (fun t Y X h => (after1_7 V c t Y X).mp h) t Y h
  rw [hd]; unfold RDat.fetched RDat.blockOf iblk1; rw [A_eq1]; try rfl

/-- Each window's current staging memref at a point is a whole buffer. -/
abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)
abbrev hs1_7 (t : Fin cfg1.N) : (st1_7 t).IsWhole := hstage1_7 ((cfg1.slots t 7).cast nbuf1_7)
abbrev hs1_8 (t : Fin cfg1.N) : (st1_8 t).IsWhole := hstage1_8 ((cfg1.slots t 8).cast nbuf1_8)

/-- What the body is called with at point `t`, the windows' buffers at contents `Y w`, -/
def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4)
    ∗ owns (c : Thread nD τ) (st1_5 t) fullShare (Y 5)
    ∗ owns (c : Thread nD τ) (st1_6 t) fullShare (Y 6)
    ∗ owns (c : Thread nD τ) (st1_7 t) fullShare (Y 7)
    ∗ owns (c : Thread nD τ) (st1_8 t) fullShare (Y 8))

/-- and what it returns. -/
def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (st1_0 t) fullShare X)
    ∗ (∃ X, ⌜(rdat1 V c).after 1 t (Y 1) X⌝ ∗ owns (c : Thread nD τ) (st1_1 t) fullShare X)
    ∗ (∃ X, ⌜(rdat1 V c).after 2 t (Y 2) X⌝ ∗ owns (c : Thread nD τ) (st1_2 t) fullShare X)
    ∗ (∃ X, ⌜(rdat1 V c).after 3 t (Y 3) X⌝ ∗ owns (c : Thread nD τ) (st1_3 t) fullShare X)
    ∗ (∃ X, ⌜(rdat1 V c).after 4 t (Y 4) X⌝ ∗ owns (c : Thread nD τ) (st1_4 t) fullShare X)
    ∗ (∃ X, ⌜(rdat1 V c).after 5 t (Y 5) X⌝ ∗ owns (c : Thread nD τ) (st1_5 t) fullShare X)
    ∗ (∃ X, ⌜(rdat1 V c).after 6 t (Y 6) X⌝ ∗ owns (c : Thread nD τ) (st1_6 t) fullShare X)
    ∗ (∃ X, ⌜(rdat1 V c).after 7 t (Y 7) X⌝ ∗ owns (c : Thread nD τ) (st1_7 t) fullShare X)
    ∗ (∃ X, ⌜(rdat1 V c).after 8 t (Y 8) X⌝ ∗ owns (c : Thread nD τ) (st1_8 t) fullShare X))

set_option maxHeartbeats 4000000 in
/-- The body at any point, whatever the windows' buffers may hold there: the inputs' hold their blocks; the invariant
    hands over the scratch buffers at the accumulators the point before left (at anything at the very first point); the
    point's position in its row block says which of the three cases runs. -/
theorem sound_body1 (c : Dev nD) (t : Fin cfg1.N) (Y : (w : Fin cfg1.W) → (cfg1.win w).block.Idx → Elt F (cfg1.win w).elt)
    (hY : ∀ w, (rdat1 V c).Finds w t (Y w)) :
    bodyPre1 V c t Y ⊢ wp frame (wpE (defs₀ (F := F)) Variants.none c none) Set.univ (bodyAt1 t) (fun _ => bodyPost1 V c t Y) := by
  have e0 : Y 0 = iblk1 V c 0 t := finds1_0 V c t _ (hY 0)
  have e1 : Y 1 = iblk1 V c 1 t := finds1_1 V c t _ (hY 1)
  have e2 : Y 2 = iblk1 V c 2 t := finds1_2 V c t _ (hY 2)
  have e3 : Y 3 = iblk1 V c 3 t := finds1_3 V c t _ (hY 3)
  have e4 : Y 4 = iblk1 V c 4 t := finds1_4 V c t _ (hY 4)
  have e5 : Y 5 = iblk1 V c 5 t := finds1_5 V c t _ (hY 5)
  have e6 : Y 6 = iblk1 V c 6 t := finds1_6 V c t _ (hY 6)
  have e7 : Y 7 = iblk1 V c 7 t := finds1_7 V c t _ (hY 7)
  unfold bodyPre1 bodyPost1 bodyAt1
  rw [e0, e1, e2, e3, e4, e5, e6, e7]
  rw [show (rdat1 V c).owesAt () t.succ = (rdat1 V c).owesAt () t.castSucc from rfl]
  rw [show (rdat1 V c).Φ t.succ = PhiS V c (t.val + 1) t.isLt from rfl, PhiS_succ, PhiS_castSucc]
  have hN : t.val < 64 := lt_of_lt_of_eq t.isLt (show cfg1.N = 64 from N_1)
  by_cases h0 : t.val % 8 = 0
  · -- a row block's first point
    have h7 : ¬ t.val % 8 = 7 := by omega
    have hin : PhiS V c t.val (Nat.le_of_lt t.isLt)
        ⊢ iprop(restChain c (iprop(∃ d, owns (c : Thread nD τ) scM0 fullShare d)) (iprop(∃ d, owns (c : Thread nD τ) scM1 fullShare d)) ∗ (∃ r, prngReg c r)) := by
      by_cases hz : t.val = 0
      · rw [PhiS_zero V c _ _ hz, PhiA1_eq]
      · rw [PhiS_pos V c _ _ hz]; unfold restChain
        iintro ⟨⟨A0, A1, A2, A3, A4, A5, A6, A7, HS0, HS1⟩, Hg⟩
        isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexists _; iexact HS0
          iexists _; iexact HS1
        iexact Hg
    refine (sep_mono hin .rfl).trans ?_
    unfold restChain

    -- first
    rw [accAt_first V c t h0]
    iintro ⟨⟨⟨A0, A1, A2, A3, A4, A5, A6, A7, HS0, HS1⟩, Hg⟩, Ho, H0, H1, H2, H3, H4, H5, H6, H7, H8⟩
    icases HS0 with ⟨%d0, HS0⟩
    icases HS1 with ⟨%d1, HS1⟩
    iapply (body_first c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) scM0 (Memref.isWhole_whole _) scM1 (Memref.isWhole_whole _) ((hc1 t).mpr h0) (fun h => h7 ((hc2 t).mp h))
        (iblk1 V c 0 t) (iblk1 V c 1 t) (iblk1 V c 2 t) (iblk1 V c 3 t) (iblk1 V c 4 t) (iblk1 V c 5 t) (iblk1 V c 6 t) (iblk1 V c 7 t) (Y 8) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [A0 A1 A2 A3 A4 A5 A6 A7 HS0 HS1 Hg]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [HS0]; · iexact HS0
        iexact HS1
      iexact Hg
    isplitl [Ho]; · iexact Ho
    isplitl [H0]; · iexists _; isplitr; · ipureintro; exact (after1_0 V c t _ _).mpr rfl
                    iexact H0
    isplitl [H1]; · iexists _; isplitr; · ipureintro; exact (after1_1 V c t _ _).mpr rfl
                    iexact H1
    isplitl [H2]; · iexists _; isplitr; · ipureintro; exact (after1_2 V c t _ _).mpr rfl
                    iexact H2
    isplitl [H3]; · iexists _; isplitr; · ipureintro; exact (after1_3 V c t _ _).mpr rfl
                    iexact H3
    isplitl [H4]; · iexists _; isplitr; · ipureintro; exact (after1_4 V c t _ _).mpr rfl
                    iexact H4
    isplitl [H5]; · iexists _; isplitr; · ipureintro; exact (after1_5 V c t _ _).mpr rfl
                    iexact H5
    isplitl [H6]; · iexists _; isplitr; · ipureintro; exact (after1_6 V c t _ _).mpr rfl
                    iexact H6
    isplitl [H7]; · iexists _; isplitr; · ipureintro; exact (after1_7 V c t _ _).mpr rfl
                    iexact H7
    iexists _; isplitr
    swap; · iexact H8
    ipureintro
    rw [after1_8, outStep, if_pos h0]
  · have hz : t.val ≠ 0 := fun e => h0 (by rw [e])
    rw [PhiS_pos V c _ _ hz]
    unfold restChain
    by_cases h7 : t.val % 8 = 7
    · -- a row block's last point

      -- last
      rw [accAt_next V c t h0]
      iintro ⟨⟨⟨A0, A1, A2, A3, A4, A5, A6, A7, HS0, HS1⟩, Hg⟩, Ho, H0, H1, H2, H3, H4, H5, H6, H7, H8⟩

      iapply (body_last c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) scM0 (Memref.isWhole_whole _) scM1 (Memref.isWhole_whole _) (fun h => h0 ((hc1 t).mp h)) ((hc2 t).mpr h7)
          (iblk1 V c 0 t) (iblk1 V c 1 t) (iblk1 V c 2 t) (iblk1 V c 3 t) (iblk1 V c 4 t) (iblk1 V c 5 t) (iblk1 V c 6 t) (iblk1 V c 7 t) (Y 8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [A0 A1 A2 A3 A4 A5 A6 A7 HS0 HS1 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          iexact HS1
        iexact Hg
      isplitl [Ho]; · iexact Ho
      isplitl [H0]; · iexists _; isplitr; · ipureintro; exact (after1_0 V c t _ _).mpr rfl
                      iexact H0
      isplitl [H1]; · iexists _; isplitr; · ipureintro; exact (after1_1 V c t _ _).mpr rfl
                      iexact H1
      isplitl [H2]; · iexists _; isplitr; · ipureintro; exact (after1_2 V c t _ _).mpr rfl
                      iexact H2
      isplitl [H3]; · iexists _; isplitr; · ipureintro; exact (after1_3 V c t _ _).mpr rfl
                      iexact H3
      isplitl [H4]; · iexists _; isplitr; · ipureintro; exact (after1_4 V c t _ _).mpr rfl
                      iexact H4
      isplitl [H5]; · iexists _; isplitr; · ipureintro; exact (after1_5 V c t _ _).mpr rfl
                      iexact H5
      isplitl [H6]; · iexists _; isplitr; · ipureintro; exact (after1_6 V c t _ _).mpr rfl
                      iexact H6
      isplitl [H7]; · iexists _; isplitr; · ipureintro; exact (after1_7 V c t _ _).mpr rfl
                      iexact H7
      iexists _; isplitr
      swap; · iexact H8
      ipureintro
      rw [after1_8, outStep, if_neg h0, if_pos h7, accAt_next V c t h0]
    · -- a middle point

      -- middle
      rw [accAt_next V c t h0]
      iintro ⟨⟨⟨A0, A1, A2, A3, A4, A5, A6, A7, HS0, HS1⟩, Hg⟩, Ho, H0, H1, H2, H3, H4, H5, H6, H7, H8⟩

      iapply (body_mid c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) scM0 (Memref.isWhole_whole _) scM1 (Memref.isWhole_whole _) (fun h => h0 ((hc1 t).mp h)) (fun h => h7 ((hc2 t).mp h))
          (iblk1 V c 0 t) (iblk1 V c 1 t) (iblk1 V c 2 t) (iblk1 V c 3 t) (iblk1 V c 4 t) (iblk1 V c 5 t) (iblk1 V c 6 t) (iblk1 V c 7 t) (Y 8) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [A0 A1 A2 A3 A4 A5 A6 A7 HS0 HS1 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          iexact HS1
        iexact Hg
      isplitl [Ho]; · iexact Ho
      isplitl [H0]; · iexists _; isplitr; · ipureintro; exact (after1_0 V c t _ _).mpr rfl
                      iexact H0
      isplitl [H1]; · iexists _; isplitr; · ipureintro; exact (after1_1 V c t _ _).mpr rfl
                      iexact H1
      isplitl [H2]; · iexists _; isplitr; · ipureintro; exact (after1_2 V c t _ _).mpr rfl
                      iexact H2
      isplitl [H3]; · iexists _; isplitr; · ipureintro; exact (after1_3 V c t _ _).mpr rfl
                      iexact H3
      isplitl [H4]; · iexists _; isplitr; · ipureintro; exact (after1_4 V c t _ _).mpr rfl
                      iexact H4
      isplitl [H5]; · iexists _; isplitr; · ipureintro; exact (after1_5 V c t _ _).mpr rfl
                      iexact H5
      isplitl [H6]; · iexists _; isplitr; · ipureintro; exact (after1_6 V c t _ _).mpr rfl
                      iexact H6
      isplitl [H7]; · iexists _; isplitr; · ipureintro; exact (after1_7 V c t _ _).mpr rfl
                      iexact H7
      iexists _; isplitr
      swap; · iexact H8
      ipureintro
      rw [after1_8, outStep, if_neg h0, if_neg h7]

/-- The library's body obligation for relational data, at every point. -/
theorem body_obligation1 (c : Dev nD) : (rdat1 (F := F) V c).BodyObligation (defs₀ (F := F)) Variants.none () Set.univ := fun t Y hY => by
  rw [bigSep_W1, bigSep_W1]
  exact sound_body1 V c t Y hY

/-- What the launch hands the region is the invariant before the first point. -/
theorem hin1 (c : Dev nD) : Pipeline.ΦA spec1 c ⊢ (rdat1 V c).Φ 0 := by
  rw [show (rdat1 V c).Φ 0 = PhiS V c 0 (Nat.zero_le _) from rfl, PhiS_zero V c 0 _ rfl]
  try exact Idealize.SL.BI.Entails.refl _

/-- After the last point the invariant gives the class's back: the accumulators' values are forgotten. -/
theorem hout1 (c : Dev nD) : (rdat1 V c).Φ (Fin.last cfg1.N) ⊢ Pipeline.ΦA spec1 c := by
  rw [show (rdat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold restChain
  iintro ⟨⟨A0, A1, A2, A3, A4, A5, A6, A7, HS0, HS1⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS0]; · iexists _; iexact HS0
    iexists _; iexact HS1
  iexact Hg

end Cert.KernelIdeal.Hand

end
-- ==== Proof.KI.Run0.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Region0
import proofs.«105388_j24962349924890_1_alg».proof.Proof.KI.Frame1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The program's run, first half: the buffers between @main's items, and the first region as a segment

@main is four items: ten host operations (slices, differences and transposes that make the three weight matrices), the
first kernel region (u and v), two host reshapes of the bias vectors, the aggregation region. Between two items each
core holds every unscoped buffer whole at a valuation; the valuations fold through @main from the launch memory. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the aggregation region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- No pallas_call has a prefetched table. -/
abbrev adm : (p : Fin 2) → (pcfgs (F := F) p).Adm := fun p => (cfgs p).toPCfg_adm

/-- Both regions' proof data, each at its region's entry contents: the first names what its body leaves, read as
    relational data; the second relates. -/
def rdats : (p : Fin 2) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => rdat1 (V3 m ρ) c

/-- The same family with the first region's data in the naming form (only its `arrays` are read through it). -/
def pdats0 : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => { A := fun w => V3 m ρ c (Pipeline.arrRef spec1 w), after := fun _ _ _ => Classical.arbitrary _,
                          Φ := fun _ => BI.emp, q := fun _ => fullShare, owed := fun _ => 0 }

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE FIRST REGION over the thread state: entered from every unscoped buffer at `W1`, left at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((dat0 (V1 m ρ) c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop(((dat0 (V1 m ρ) c).arrays ((dat0 (V1 m ρ) c).arrAt · cfg0.N) : sProp 𝕄)
          ∗ Pipeline.unscopedRest (Ix := Unit) (Name := ℕ) (U := UR sig nD τ) (Lvl := ℕ) spec0 c (V1 m ρ c))
        ⊢ (unscopedBufs c (V2 m ρ c) : sProp 𝕄) := Pipeline.unscopedBufs_of_arrays (p := 0) (pcfgs (F := F)) adm (Ix := Unit) (Name := ℕ) (U := UR sig nD τ) (Lvl := ℕ)
      launch0.win launch0.arr_whole c (pdats0 m ρ) ((pdats0 m ρ 0 c).share_full fun _ => rfl)
      (V1 m ρ c) (V2 m ρ c) ((pdats0 m ρ 0 c).arrAt · cfg0.N) (hF0 m ρ c) (hrest0 m ρ c)
    rw [Pipeline.unscopedBufs_held] at hjoin
    rw [show (rdats m ρ 0 c).arraysAt (Pipeline.pin (pcfgs (F := F)) adm 0).N = ((dat0 (V1 m ρ) c).arrays ((dat0 (V1 m ρ) c).arrAt · cfg0.N) : sProp 𝕄)
      from (dat0 (V1 m ρ) c).toR_arraysAt_eq cfg0.N]
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

end Cert.KernelIdeal.Hand

end
-- ==== Proof.KI.Shared1.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.Regions
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The second call's arrays, two windows on one array

The second pallas_call reads the array of centres through two windows. Its nine windows therefore sit on eight
distinct buffers, and the proof data holds the shared buffer's full share as two halves: window 0 the left half,
window 1 the right half. Every other window holds its buffer's full share. Below, the eight buffers held whole at the
full share are shown to be the nine windows' arrays at these shares (one points-to split in two along the share, or
two joined at equal contents), and with that the region's entry and exit are stated between "all the core's unscoped
buffers" and "the region's arrays beside the rest". -/

/-- The eight distinct buffers behind the nine windows. -/
theorem arrImage1 : Finset.univ.image (Pipeline.arrRef spec1)
    = [main_arg0, main_v10_0, main_v10_1, main_arg1, main_v11, main_v9, main_v12, main_v13].toFinset := by decide

/-- The buffers behind the windows, each whole at the full share at contents `V`, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v10_0) ↦{fullShare} V main_v10_0)
          ∗ (((c : Thread nD τ).loc main_v10_1) ↦{fullShare} V main_v10_1) ∗ (((c : Thread nD τ).loc main_arg1) ↦{fullShare} V main_arg1)
          ∗ (((c : Thread nD τ).loc main_v11) ↦{fullShare} V main_v11) ∗ (((c : Thread nD τ).loc main_v9) ↦{fullShare} V main_v9)
          ∗ (((c : Thread nD τ).loc main_v12) ↦{fullShare} V main_v12) ∗ (((c : Thread nD τ).loc main_v13) ↦{fullShare} V main_v13)) := by
  unfold Pipeline.arrBufs
  exact bigSep_eq_bigSepL_of_eq _ arrImage1 (by decide) _

/-- A core's unscoped buffers at contents `V` are the eight buffers behind the windows and the rest. -/
theorem unscopedBufs_split1 (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ cfgs 1 winFacts₀1.arr_unscoped c V

variable (c : Dev nD) (rd : RDat τ (Elt F) Unit ℕ (UR sig nD τ) ℕ cfg1 c)

/-- The region's arrays at contents `Fw`, window by window. -/
theorem arrays1_chain (Fw : (w : Fin cfg1.W) → Buf (Elt F) ((cfg1.win w).arr.view.loc (c : Thread nD τ))) :
    rd.arrays Fw
      = iprop((((c : Thread nD τ).loc main_arg0) ↦{rd.share 0} Fw 0) ∗ (((c : Thread nD τ).loc main_arg0) ↦{rd.share 1} Fw 1)
          ∗ (((c : Thread nD τ).loc main_v10_0) ↦{rd.share 2} Fw 2) ∗ (((c : Thread nD τ).loc main_v10_1) ↦{rd.share 3} Fw 3)
          ∗ (((c : Thread nD τ).loc main_arg1) ↦{rd.share 4} Fw 4) ∗ (((c : Thread nD τ).loc main_v11) ↦{rd.share 5} Fw 5)
          ∗ (((c : Thread nD τ).loc main_v9) ↦{rd.share 6} Fw 6) ∗ (((c : Thread nD τ).loc main_v12) ↦{rd.share 7} Fw 7)
          ∗ (((c : Thread nD τ).loc main_v13) ↦{rd.share 8} Fw 8)) := by
  unfold RDat.arrays
  rw [bigSep_W1]
  simp only [View.set_whole]

variable (hq0 : rd.q 0 = fullShare.left) (hq1 : rd.q 1 = fullShare.right) (hq : ∀ w : Fin cfg1.W, 2 ≤ w.val → rd.q w = fullShare)

include hq0 in
theorem share1_0 : rd.share 0 = fullShare.left := hq0 ▸ rfl
include hq1 in
theorem share1_1 : rd.share 1 = fullShare.right := hq1 ▸ rfl
include hq in
theorem share1_in (w : Fin cfg1.W) (hw : 2 ≤ w.val) (hin : (cfg1.win w).isOut = false) : rd.share w = fullShare := by
  unfold RDat.share; rw [hin]; exact hq w hw
theorem share1_8 : rd.share 8 = fullShare := rfl

include hq0 hq1 hq in
/-- The nine windows' arrays at contents `Fw`, at the proof data's shares. -/
theorem arrays1_shares (Fw : (w : Fin cfg1.W) → Buf (Elt F) ((cfg1.win w).arr.view.loc (c : Thread nD τ))) :
    rd.arrays Fw
      = iprop((((c : Thread nD τ).loc main_arg0) ↦{fullShare.left} Fw 0) ∗ (((c : Thread nD τ).loc main_arg0) ↦{fullShare.right} Fw 1)
          ∗ (((c : Thread nD τ).loc main_v10_0) ↦{fullShare} Fw 2) ∗ (((c : Thread nD τ).loc main_v10_1) ↦{fullShare} Fw 3)
          ∗ (((c : Thread nD τ).loc main_arg1) ↦{fullShare} Fw 4) ∗ (((c : Thread nD τ).loc main_v11) ↦{fullShare} Fw 5)
          ∗ (((c : Thread nD τ).loc main_v9) ↦{fullShare} Fw 6) ∗ (((c : Thread nD τ).loc main_v12) ↦{fullShare} Fw 7)
          ∗ (((c : Thread nD τ).loc main_v13) ↦{fullShare} Fw 8)) := by
  have h2 := share1_in c rd hq 2 (by decide) rfl
  have h3 := share1_in c rd hq 3 (by decide) rfl
  have h4 := share1_in c rd hq 4 (by decide) rfl
  have h5 := share1_in c rd hq 5 (by decide) rfl
  have h6 := share1_in c rd hq 6 (by decide) rfl
  have h7 := share1_in c rd hq 7 (by decide) rfl
  rw [arrays1_chain]
  simp only [share1_0 c rd hq0, share1_1 c rd hq1, h2, h3, h4, h5, h6, h7, share1_8]

include hq0 hq1 hq in
/-- The same at the contents a valuation `V` of the core's buffers has at the arrays. -/
theorem arrays1_val (V : (b : Ref sig .tc) → Buf (Elt F) ((c : Thread nD τ).loc b)) :
    rd.arrays (fun w => V (Pipeline.arrRef spec1 w))
      = iprop((((c : Thread nD τ).loc main_arg0) ↦{fullShare.left} V main_arg0) ∗ (((c : Thread nD τ).loc main_arg0) ↦{fullShare.right} V main_arg0)
          ∗ (((c : Thread nD τ).loc main_v10_0) ↦{fullShare} V main_v10_0) ∗ (((c : Thread nD τ).loc main_v10_1) ↦{fullShare} V main_v10_1)
          ∗ (((c : Thread nD τ).loc main_arg1) ↦{fullShare} V main_arg1) ∗ (((c : Thread nD τ).loc main_v11) ↦{fullShare} V main_v11)
          ∗ (((c : Thread nD τ).loc main_v9) ↦{fullShare} V main_v9) ∗ (((c : Thread nD τ).loc main_v12) ↦{fullShare} V main_v12)
          ∗ (((c : Thread nD τ).loc main_v13) ↦{fullShare} V main_v13)) :=
  arrays1_shares c rd hq0 hq1 hq _

include hq0 hq1 hq in
/-- The eight buffers whole at the full share at contents `V` are the nine windows' arrays at the contents read off
    `V`: the shared buffer's points-to splits along its share, each half at the same contents. -/
theorem arrays1_of_arrBufs (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (Pipeline.arrBufs (Ix := Unit) (Name := ℕ) (U := UR sig nD τ) (Lvl := ℕ) spec1 c V : sProp 𝕄) ⊢ rd.arrays Fw := by
  obtain rfl : Fw = fun w => V (Pipeline.arrRef spec1 w) := funext hF
  rw [arrBufs1_eq, arrays1_val c rd hq0 hq1 hq]
  iintro ⟨H0, H2, H3, H4, H5, H6, H7, H8⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

include hq0 hq1 hq in
/-- The nine windows' arrays at contents read off `V` are the eight buffers whole at the full share at `V`: the two
    halves of the shared buffer's share, held at equal contents, join. -/
theorem arrBufs_of_arrays1 (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    rd.arrays Fw ⊢ (Pipeline.arrBufs (Ix := Unit) (Name := ℕ) (U := UR sig nD τ) (Lvl := ℕ) spec1 c V : sProp 𝕄) := by
  obtain rfl : Fw = fun w => V (Pipeline.arrRef spec1 w) := funext hF
  rw [arrBufs1_eq, arrays1_val c rd hq0 hq1 hq]
  iintro ⟨H0, H1, H2, H3, H4, H5, H6, H7, H8⟩
  ihave H01 := (pointsTo_share (PosShare.mem_left_op_right fullShare)).2 $$ [H0 H1]
  · isplitl [H0]; · iexact H0
    iexact H1
  isplitl [H01]; · iexact H01
  isplitl [H2]; · iexact H2
  isplitl [H3]; · iexact H3
  isplitl [H4]; · iexact H4
  isplitl [H5]; · iexact H5
  isplitl [H6]; · iexact H6
  isplitl [H7]; · iexact H7
  iexact H8

include hq0 hq1 hq in
/-- ENTRY: the core's unscoped buffers at contents `Vv` are the region's arrays at the proof data's entry contents
    (read off `Vv`) and the unscoped rest. -/
theorem entry1 (Vv : (b : Ref sig .tc) → Buf (Elt F) ((c : Thread nD τ).loc b)) (hA : ∀ w, rd.A w = Vv (Pipeline.arrRef spec1 w)) :
    (unscopedBufs c Vv : sProp 𝕄) ⊢ iprop(rd.arrays rd.A ∗ Pipeline.unscopedRest (Ix := Unit) (Name := ℕ) (U := UR sig nD τ) (Lvl := ℕ) spec1 c Vv) := by
  rw [unscopedBufs_split1]
  exact sep_mono (arrays1_of_arrBufs c rd hq0 hq1 hq Vv rd.A hA) .rfl

include hq0 hq1 hq in
/-- EXIT: the arrays at contents `Fw`, which are `Vv'` read at the arrays, beside the unscoped rest at `Vv`, are the
    core's unscoped buffers at `Vv'`, when `Vv'` and `Vv` agree off the arrays. -/
theorem exit1 (Vv Vv' : (b : Ref sig .tc) → Buf (Elt F) ((c : Thread nD τ).loc b))
    (Fw : (w : Fin cfg1.W) → Buf (Elt F) ((cfg1.win w).arr.view.loc (c : Thread nD τ))) (hF : ∀ w, Fw w = Vv' (Pipeline.arrRef spec1 w))
    (hrest : ∀ b, b ∉ Finset.univ.image (Pipeline.arrRef spec1) → Vv' b = Vv b) :
    iprop(rd.arrays Fw ∗ Pipeline.unscopedRest (Ix := Unit) (Name := ℕ) (U := UR sig nD τ) (Lvl := ℕ) spec1 c Vv) ⊢ (unscopedBufs c Vv' : sProp 𝕄) := by
  rw [unscopedBufs_split1]
  refine sep_mono (arrBufs_of_arrays1 c rd hq0 hq1 hq Vv' Fw hF) (Entails.of_eq ?_)
  unfold Pipeline.unscopedRest
  exact bigSep_congr fun b hb => by rw [hrest b (Finset.mem_sdiff.mp hb).2]

/-- An input window's array is never written back: after any number of write-backs it holds its entry contents,
    which an update of the entry contents at the output window leaves alone. -/
theorem arrAt1_in (w : Fin cfg1.W) (hin : (cfg1.win w).isOut = false) (hw : w ≠ 8) (n : ℕ)
    (G8 : Buf (Elt F) ((cfg1.win 8).arr.view.loc (c : Thread nD τ))) :
    iprop(∃ G, ⌜rd.ArrAt w n G⌝ ∗ (cfg1.win w).arr.view.loc (c : Thread nD τ) ↦[(cfg1.win w).arr.view.set]{rd.share w} G)
      ⊢ ((cfg1.win w).arr.view.loc (c : Thread nD τ) ↦[(cfg1.win w).arr.view.set]{rd.share w} Function.update rd.A 8 G8 w : sProp 𝕄) := by
  rw [rd.ArrAt_in w hin n, Function.update_of_ne hw]
  iintro ⟨%G, %h, H⟩
  subst h
  iexact H

/-- The output window's array at contents `G8` is the entry contents updated there, read there. -/
theorem arrAt1_out (G8 : Buf (Elt F) ((cfg1.win 8).arr.view.loc (c : Thread nD τ))) :
    ((cfg1.win 8).arr.view.loc (c : Thread nD τ) ↦[(cfg1.win 8).arr.view.set]{rd.share 8} G8 : sProp 𝕄)
      ⊢ ((cfg1.win 8).arr.view.loc (c : Thread nD τ) ↦[(cfg1.win 8).arr.view.set]{rd.share 8} Function.update rd.A 8 G8 8 : sProp 𝕄) := by
  rw [Function.update_self]

/-- After the write-backs below `n` every input array is as at entry, so only the output's contents are unknown:
    name them. -/
theorem arraysAt1_named (n : ℕ) :
    rd.arraysAt n ⊢ iprop(∃ F8, ⌜rd.ArrAt 8 n F8⌝ ∗ rd.arrays (Function.update rd.A 8 F8)) := by
  unfold RDat.arraysAt RDat.arrays
  rw [bigSep_W1]
  iintro ⟨H0, H1, H2, H3, H4, H5, H6, H7, H8⟩
  icases H8 with ⟨%F8, %h8, H8⟩
  iexists F8
  isplitr; · ipureintro; exact h8
  rw [bigSep_W1]
  isplitl [H0]; · iapply (arrAt1_in c rd (0 : Fin 9) rfl (by decide) n F8); iexact H0
  isplitl [H1]; · iapply (arrAt1_in c rd (1 : Fin 9) rfl (by decide) n F8); iexact H1
  isplitl [H2]; · iapply (arrAt1_in c rd (2 : Fin 9) rfl (by decide) n F8); iexact H2
  isplitl [H3]; · iapply (arrAt1_in c rd (3 : Fin 9) rfl (by decide) n F8); iexact H3
  isplitl [H4]; · iapply (arrAt1_in c rd (4 : Fin 9) rfl (by decide) n F8); iexact H4
  isplitl [H5]; · iapply (arrAt1_in c rd (5 : Fin 9) rfl (by decide) n F8); iexact H5
  isplitl [H6]; · iapply (arrAt1_in c rd (6 : Fin 9) rfl (by decide) n F8); iexact H6
  isplitl [H7]; · iapply (arrAt1_in c rd (7 : Fin 9) rfl (by decide) n F8); iexact H7
  iapply (arrAt1_out c rd F8); iexact H8

end Cert.KernelIdeal.Hand

end
-- ==== Proof.KI.Run1.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Run0
import proofs.«105388_j24962349924890_1_alg».proof.Proof.KI.Shared1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The program's run, second half: the aggregation region as a segment, and the run

The aggregation region is entered from every unscoped buffer at `W3`. Two of its windows sit on the centres' array, so
its arrays are dealt out of the core's buffers with that array's share split in halves, and put back joined. Its output
array ends at contents the relational data only constrain: the last thread state holds it at SOME `F8` the data allow,
every other buffer as entered. The run reads every unscoped buffer of the final memory at that valuation. -/

variable (m : (ℓ : Loc nD τ sig) → Buf (Elt F) ℓ) (ρ : Dev nD → PrngReg)

/-- Core `c`'s buffers after the aggregation region, its output array at `F8`. -/
abbrev W4 (c : Dev nD) (F8 : Buf (Elt F) ((c : Thread nD τ).loc main_v13)) : Valuation τ sig (Elt F) :=
  Function.update (W3 m ρ c) (Proc.devRef .tc main_v13) F8

/-- The last thread state: every unscoped buffer at `W4` for some output contents the region's data allow, the
    generator register at some state. -/
abbrev Tₙ (c : Dev nD) : sProp 𝕄 :=
  iprop(∃ F8, ⌜(rdat1 (V3 m ρ) c).ArrAt 8 cfg1.N F8⌝ ∗ StableHlo.held (c : Thread nD τ) (Pipeline.ucRefs τ sig) (W4 m ρ c F8) ∗ ∃ r, prngReg c r)

theorem q1_0 (c : Dev nD) : (rdat1 (V3 m ρ) c).q 0 = fullShare.left := rfl
theorem q1_1 (c : Dev nD) : (rdat1 (V3 m ρ) c).q 1 = fullShare.right := rfl
theorem q1_rest (c : Dev nD) : ∀ w : Fin cfg1.W, 2 ≤ w.val → (rdat1 (V3 m ρ) c).q w = fullShare := by
  intro w hw
  match w, hw with
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl

/-- Only window 8 sits on the output array. -/
theorem arr1_ne : ∀ w : Fin cfg1.W, w ≠ 8 → Pipeline.arrRef spec1 w ≠ main_v13 := by decide

/-- The exit valuation has each array at the contents the region leaves: the inputs as entered, the output at `F8`. -/
theorem hF1 (c : Dev nD) (F8 : Buf (Elt F) ((c : Thread nD τ).loc main_v13)) (w : Fin cfg1.W) :
    Function.update (rdat1 (V3 m ρ) c).A 8 F8 w = (fun b : Ref sig .tc => W4 m ρ c F8 b) (Pipeline.arrRef spec1 w) := by
  by_cases hw : w = 8
  · subst hw
    exact (Function.update_self ..).trans
      (show F8 = Function.update (W3 m ρ c) (Proc.devRef .tc main_v13) F8 (Proc.devRef .tc main_v13) from (Function.update_self (β := fun b : DevRef τ sig => Buf (Elt F) (((c : Thread nD τ)).1, b)) (Proc.devRef .tc main_v13) F8 (W3 m ρ c)).symm)
  · exact (Function.update_of_ne hw ..).trans ((A_eq1 (V3 m ρ) c w).trans
      (Function.update_of_ne (StableHlo.devRef_ne_of_ne (arr1_ne w hw)) ..).symm)

/-- and agrees with the entry valuation off the arrays. -/
theorem hrest1 (c : Dev nD) (F8 : Buf (Elt F) ((c : Thread nD τ).loc main_v13)) :
    ∀ b, b ∉ Finset.univ.image (Pipeline.arrRef spec1) → (fun b : Ref sig .tc => W4 m ρ c F8 b) b = V3 m ρ c b := by
  intro b hb
  have hne : b ≠ main_v13 := fun e => hb (Finset.mem_image.mpr ⟨8, Finset.mem_univ _, e.symm⟩)
  exact Function.update_of_ne (StableHlo.devRef_ne_of_ne hne) ..

set_option backward.isDefEq.respectTransparency.types false in
/-- THE AGGREGATION REGION over the thread state: entered from every unscoped buffer at `W3`, left at `W4` of some
    output contents the data allow. -/
def reg1 : Pipeline.RDat.RegionSeg (pcfgs (F := F)) adm (rdats m ρ) () defs₀ 𝒱₀ L lv 1 where
  win := winFacts₀1
  block_pos := block_pos1
  stage_whole := stage_whole1
  K := PEmpty
  osem k := k.elim
  ho := Pipeline.OwnSemFacts.none _
  hbody c := body_obligation1 (V3 m ρ) c
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 c (rdat1 (V3 m ρ) c) (q1_0 m ρ c) (q1_1 m ρ c) (q1_rest m ρ c) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    rw [show (rdats m ρ 1 c).arraysAt (Pipeline.pin (pcfgs (F := F)) adm 1).N = ((rdat1 (V3 m ρ) c).arraysAt cfg1.N : sProp 𝕄) from rfl]
    iintro ⟨Ha, HO, HY, Hrest⟩
    ihave Hn := (arraysAt1_named c (rdat1 (V3 m ρ) c) cfg1.N) $$ Ha
    icases Hn with ⟨%F8, %hF8, Ha⟩
    have hjoin := exit1 c (rdat1 (V3 m ρ) c) (q1_0 m ρ c) (q1_1 m ρ c) (q1_rest m ρ c) (V3 m ρ c) (fun b : Ref sig .tc => W4 m ρ c F8 b)
      (Function.update (rdat1 (V3 m ρ) c).A 8 F8) (hF1 m ρ c F8) (hrest1 m ρ c F8)
    rw [Pipeline.unscopedBufs_held] at hjoin
    imodintro
    isplitr [HO]
    · iexists F8
      isplitr; · ipureintro; exact hF8
      isplitl [Ha Hrest]
      · iapply hjoin
        isplitl [Ha]; · iexact Ha
        iexact Hrest
      iexact HY
    unfold Pipeline.RDat.owesAt Pipeline.owesWithin
    icases HO with ⟨%W, -, HO⟩; iexists W; iexact HO

/-- @main's four segments in order. -/
abbrev segs : List (Pipeline.RDat.Seg (pcfgs (F := F)) adm (rdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]

theorem main_run (c : Dev nD) : main (F := F) c = Pipeline.RDat.Seg.run (segs m ρ) := (main_chain c).trans (by chain_rfl)

set_option backward.isDefEq.respectTransparency.types false in
/-- THE RUN. From any memory with zero counters every weakly fair execution of @main on the TensorCores terminates,
    nothing faulting, and in every final state each core's unscoped buffers hold `W4` of some output contents the
    aggregation region's data allow. -/
theorem run_main : θ_run defs (onTc (τ := τ) (main (F := F))) ⟨m, fun _ => 0, ρ⟩ (fun r => ∀ c : Dev nD,
      ∃ F8, (rdat1 (V3 m ρ) c).ArrAt 8 cfg1.N F8 ∧ ∀ b ∈ Pipeline.ucRefs τ sig, r.2.mem (((c : Thread nD τ)).1, b) = W4 m ρ c F8 b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ F8, (rdat1 (V3 m ρ) c).ArrAt 8 cfg1.N F8 ∧ ∀ b ∈ Pipeline.ucRefs τ sig, s.mem (((c : Thread nD τ)).1, b) = W4 m ρ c F8 b)
    (hfin := fun c s' => by
      iintro ⟨⟨%F8, %hF8, Hh, -⟩, HSI⟩
      unfold StableHlo.held
      ihave Hr := (pointsTo_read_all (Pipeline.ucRefs τ sig) (fun b => (((c : Thread nD τ)).1, b)) (W4 m ρ c F8) s') $$ [Hh HSI]
      · isplitl [Hh] <;> iassumption
      icases Hr with ⟨%h, HSI⟩
      imodintro
      isplitr
      · ipureintro; exact ⟨F8, hF8, h⟩
      · iexact HSI)
    (hQ := fun s h c => h c)

end Cert.KernelIdeal.Hand

end
-- ==== Proof.KI.ArgsKept.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Run0
import proofs.«105388_j24962349924890_1_alg».proof.Proof.Gen.KernelIdeal.Regions
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The argument arrays reach the aggregation region as launched

No host operation writes an argument, and the first region only reads the one argument it windows (the descriptors):
so each argument's buffer, when the aggregation region is entered, still holds what the launch memory held. -/

variable (m : (ℓ : Loc nD τ sig) → Buf (Elt F) ℓ) (ρ : Dev nD → PrngReg)

/-- A buffer no host stretch writes and the first region does not window is, at the aggregation region's entry, as launched. -/
theorem W3_kept (c : Dev nD) (r : Ref sig .tc) (h1 : r ∉ hostOps1_W) (hne : ∀ w, Pipeline.arrRef spec0 w ≠ r) (h0 : r ∉ hostOps0_W) :
    W3 m ρ c r = m ((c : Thread nD τ).loc r) :=
  (StableHlo.after_of_writes_sub hostOps1 _ hostOps1_writes h1).trans
    ((W2_of_ne m ρ c r hne).trans ((StableHlo.after_of_writes_sub hostOps0 _ hostOps0_writes h0).trans rfl))

theorem W3_arg0 (c : Dev nD) : W3 m ρ c main_arg0 = m ((c : Thread nD τ).loc main_arg0) := W3_kept m ρ c main_arg0 (by decide) (by decide) (by decide)
theorem W3_arg2 (c : Dev nD) : W3 m ρ c main_arg2 = m ((c : Thread nD τ).loc main_arg2) := W3_kept m ρ c main_arg2 (by decide) (by decide) (by decide)
theorem W3_arg3 (c : Dev nD) : W3 m ρ c main_arg3 = m ((c : Thread nD τ).loc main_arg3) := W3_kept m ρ c main_arg3 (by decide) (by decide) (by decide)
theorem W3_arg4 (c : Dev nD) : W3 m ρ c main_arg4 = m ((c : Thread nD τ).loc main_arg4) := W3_kept m ρ c main_arg4 (by decide) (by decide) (by decide)
theorem W3_arg5 (c : Dev nD) : W3 m ρ c main_arg5 = m ((c : Thread nD τ).loc main_arg5) := W3_kept m ρ c main_arg5 (by decide) (by decide) (by decide)

/-- The descriptors are the first region's window 0, an input: its array is never written. -/
theorem W3_arg1 (c : Dev nD) : W3 m ρ c main_arg1 = m ((c : Thread nD τ).loc main_arg1) :=
  (StableHlo.after_of_writes_sub hostOps1 _ hostOps1_writes (by decide : main_arg1 ∉ hostOps1_W)).trans
    ((W2_arr m ρ c 0).trans ((arrAt0_in (V1 m ρ) c 0 rfl _).trans
      ((StableHlo.after_of_writes_sub hostOps0 _ hostOps0_writes (by decide : main_arg1 ∉ hostOps0_W)).trans rfl)))

end Cert.KernelIdeal.Hand

end
-- ==== Proof.KI.FrameOf.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Run1
import proofs.«105388_j24962349924890_1_alg».proof.Proof.KI.ArgsKept
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The frame: every argument array ends as launched

The run ends with each core's unscoped buffers at the aggregation region's entry contents, its output array apart; and
at that entry each argument still held its launch contents. So in every final memory each argument array is as
launched — at any instance of the float operations. -/

variable (m : (ℓ : Loc nD τ sig) → Buf (Elt F) ℓ) (ρ : Dev nD → PrngReg)

/-- Off the output array the final valuation is the aggregation region's entry valuation. -/
theorem W4_of_ne (c : Dev nD) (F8 : Buf (Elt F) ((c : Thread nD τ).loc main_v13)) (r : Ref sig .tc) (hne : r ≠ main_v13) :
    W4 m ρ c F8 r = W3 m ρ c r :=
  Function.update_of_ne (StableHlo.devRef_ne_of_ne hne) ..

/-- and at the output array it is the contents named. -/
theorem W4_out (c : Dev nD) (F8 : Buf (Elt F) ((c : Thread nD τ).loc main_v13)) : W4 m ρ c F8 main_v13 = F8 :=
  Function.update_self ..

/-- THE FRAME at any `F`: every weakly fair execution terminates, nothing faulting, and every argument array ends as launched. -/
theorem frame_post : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨F8, -, hmem⟩ := h c
    exact ⟨(hmem _ (mem_uc main_arg0 (by decide))).trans ((W4_of_ne m ρ c F8 main_arg0 (by decide)).trans (W3_arg0 m ρ c)),
      (hmem _ (mem_uc main_arg1 (by decide))).trans ((W4_of_ne m ρ c F8 main_arg1 (by decide)).trans (W3_arg1 m ρ c)),
      (hmem _ (mem_uc main_arg2 (by decide))).trans ((W4_of_ne m ρ c F8 main_arg2 (by decide)).trans (W3_arg2 m ρ c)),
      (hmem _ (mem_uc main_arg3 (by decide))).trans ((W4_of_ne m ρ c F8 main_arg3 (by decide)).trans (W3_arg3 m ρ c)),
      (hmem _ (mem_uc main_arg4 (by decide))).trans ((W4_of_ne m ρ c F8 main_arg4 (by decide)).trans (W3_arg4 m ρ c)),
      (hmem _ (mem_uc main_arg5 (by decide))).trans ((W4_of_ne m ρ c F8 main_arg5 (by decide)).trans (W3_arg5 m ρ c))⟩)
    (run_main m ρ)

end Cert.KernelIdeal.Hand

end
-- ==== Proof.KI.Out8.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Frame1
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # The output block at a row block's last point is determined

The output window's staging buffer is written in halves over the eight points of a row block and written back after
the last. What the body is handed there at the first point is arbitrary; from the second point on its left half is the
row block's descriptor block, whatever the rest is (induction along the points: the first point writes it, the middle
points leave the buffer alone); so what the body leaves at the last point is the descriptor block on the left and the
pooled block on the right — no trace of what the buffer first held. -/

variable (V : (c : Dev nD) → (b : Ref sig .tc) → Buf (Elt F) ((c : Thread nD τ).loc b))

/-- The descriptor window's block index does not move within a row block. -/
theorem idx4_const : ∀ t t' : Fin cfg1.N, t.val / 8 = t'.val / 8 → (cfg1.win 4).index t = (cfg1.win 4).index t' :=
  (by decide +kernel : ∀ t t' : Fin grid1.N, t.val / 8 = t'.val / 8 → win1_4.index t = win1_4.index t')

/-- So its block is the same at every point of a row block. -/
theorem iblk4_const (c : Dev nD) (t t' : Fin cfg1.N) (h : t.val / 8 = t'.val / 8) : iblk1 V c 4 t = iblk1 V c 4 t' := by
  have e := (rdat1 V c).fetched_congr 4 (idx4_const t t' h) rfl (fun _ => Classical.arbitrary _)
  unfold RDat.fetched RDat.blockOf at e; rw [A_eq1] at e
  exact e

/-- The window is an output: never fetched. -/
theorem fetch1_8 (t : Fin cfg1.N) : (cfg1.win 8).fetch t = false := (cfg1.win 8).fetch_out rfl t

/-- From a row block's second point on, the buffer's left half is the descriptor block. -/
theorem finds8 (c : Dev nD) : ∀ (t : Fin cfg1.N), t.val % 8 ≠ 0 → ∀ Y : Vec F S512x512 .f32, (rdat1 V c).Finds 8 t Y →
    ∃ Z : Vec F S512x512 .f32, Y = rL.overlay Z (iblk1 V c 4 t) := by
  intro t
  induction hn : t.val using Nat.strong_induction_on generalizing t with
  | _ n ih =>
    subst hn; intro hk Y hY
    have ht : t.val ≠ 0 := fun e => hk (by rw [e])
    have hlt : t.val - 1 < cfg1.N := Nat.lt_of_le_of_lt (Nat.sub_le _ _) t.isLt
    rcases ((rdat1 V c).finds_of_pos (fetch1_8 t) ht Y).mp hY with hfl | ⟨Y', hY', hR⟩
    · have := (flush1_8 ⟨t.val - 1, hlt⟩).mp hfl
      exfalso; dsimp only at this; omega
    · rw [after1_8] at hR
      have hdiv : (⟨t.val - 1, hlt⟩ : Fin cfg1.N).val / 8 = t.val / 8 := by dsimp only; omega
      by_cases h0 : (t.val - 1) % 8 = 0
      · refine ⟨Y', ?_⟩
        rw [hR, outStep, if_pos h0, iblk4_const V c _ t hdiv]
      · have h7 : ¬ (t.val - 1) % 8 = 7 := by omega
        obtain ⟨Z, hZ⟩ := ih (t.val - 1) (by omega) ⟨t.val - 1, hlt⟩ rfl h0 Y' hY'
        refine ⟨Z, ?_⟩
        rw [hR, outStep, if_neg h0, if_neg h7, hZ, iblk4_const V c _ t hdiv]

/-- What the body may leave at a row block's last point: the descriptor block on the left, the pooled block of the
    finished accumulators on the right. -/
theorem leaves8_last (c : Dev nD) (t : Fin cfg1.N) (h7 : t.val % 8 = 7) (X : Vec F S512x512 .f32) (hX : (rdat1 V c).Leaves 8 t X) :
    ∃ Z : Vec F S512x512 .f32, X = rR.overlay (rL.overlay Z (iblk1 V c 4 t))
      (k1_pay3 (iblk1 V c 3 t) (iblk1 V c 5 t) (accAt V c t.val t.isLt).2 (accAt V c t.val t.isLt).1 (iblk1 V c 6 t) (iblk1 V c 7 t)) := by
  obtain ⟨Y, hY, hR⟩ := hX
  rw [after1_8] at hR
  obtain ⟨Z, hZ⟩ := finds8 V c t (by omega) Y hY
  exact ⟨Z, by rw [hR, outStep, if_neg (by omega), if_pos h7, hZ]⟩

/-- The two halves read at an index: columns below 256 from the left block, the others from the right block. -/
theorem two_halves_apply {α : Type} (Z : S512x512.Idx → α) (d p : S512x256.Idx → α) (r q : Fin 512) :
    rR.overlay (rL.overlay Z d) p (ValueIdx.ix2 r q)
      = if h : q.val < 256 then d (ValueIdx.ix2 r ⟨q.val, h⟩) else p (ValueIdx.ix2 r ⟨q.val - 256, by omega⟩) := by
  by_cases h : q.val < 256
  · rw [dif_pos h]
    have hnot : ValueIdx.ix2 r q ∉ rR.set := by
      rw [Rect.mem_set_unit]; intro hall; have := (hall 1).1; change 256 ≤ q.val at this; omega
    rw [Rect.overlay_of_not_mem _ _ _ hnot]
    have hemb : rL.emb (ValueIdx.ix2 r ⟨q.val, h⟩) = ValueIdx.ix2 r q := funext fun a => Fin.ext (by
      match a with
      | ⟨0, _⟩ => show 0 + 1 * r.val = r.val; omega
      | ⟨1, _⟩ => show 0 + 1 * q.val = q.val; omega)
    rw [← hemb, Rect.overlay_emb]
  · rw [dif_neg h]
    have hemb : rR.emb (ValueIdx.ix2 r ⟨q.val - 256, by omega⟩) = ValueIdx.ix2 r q := funext fun a => Fin.ext (by
      match a with
      | ⟨0, _⟩ => show 0 + 1 * r.val = r.val; omega
      | ⟨1, _⟩ => show 256 + 1 * (q.val - 256) = q.val; omega)
    rw [← hemb, Rect.overlay_emb]

end Cert.KernelIdeal.Hand

end
-- ==== Proof.KI.Blocks1.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Frame1
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! # Where the aggregation region's blocks sit in their arrays

Point `t` of the 8 × 8 grid is (I, K) = (t / 8, t % 8). The anchor-side windows (the row block of centres, the block of
`v`, the descriptor block, the output block) are at block row I; the neighbour-side windows (the column block of
centres, the block of `u`) at block row K; the two bias rows and the second weight matrix are whole. A block's entry
`y` is its array's entry at block row × block height + y₀, column y₁. -/

variable (V : (c : Dev nD) → (b : Ref sig .tc) → Buf (Elt F) ((c : Thread nD τ).loc b))

/-- The nine windows' block indices, decided over the 64 points. -/
theorem agIdx : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 8 ∧ win1_8.index t (1 : Fin 2) = 0 :=
  (by decide +kernel : ∀ t : Fin grid1.N, _)

/-- Entry `y` of window 0's block at point `t` is entry `(512·(t.val / 8) + y₀, y₁)` of its array. -/
theorem blk1_0_eq (c : Dev nD) (t : Fin cfg1.N) (y : S512x3.Idx) (i : S4096x3.Idx)
    (h0 : (i 0).val = (t.val / 8) * 512 + (y 0).val) (h1 : (i 1).val = (y 1).val) :
    iblk1 V c 0 t y = V c main_arg0 i := by
  obtain ⟨e00, e01, -⟩ := agIdx t
  have e : ((cfg1.win 0).blk t).view.emb y = i := by
    funext a; apply Fin.ext
    match a with
    | ⟨0, _⟩ => show win1_0.index t (0 : Fin 2) * 512 + 1 * (y 0).val = (i 0).val; omega
    | ⟨1, _⟩ => show win1_0.index t (1 : Fin 2) * 3 + 1 * (y 1).val = (i 1).val; omega
  show V c main_arg0 (((cfg1.win 0).blk t).view.emb y) = V c main_arg0 i
  rw [e]

/-- Entry `y` of window 1's block at point `t` is entry `(512·(t.val % 8) + y₀, y₁)` of its array. -/
theorem blk1_1_eq (c : Dev nD) (t : Fin cfg1.N) (y : S512x3.Idx) (i : S4096x3.Idx)
    (h0 : (i 0).val = (t.val % 8) * 512 + (y 0).val) (h1 : (i 1).val = (y 1).val) :
    iblk1 V c 1 t y = V c main_arg0 i := by
  obtain ⟨-, -, e10, e11, -⟩ := agIdx t
  have e : ((cfg1.win 1).blk t).view.emb y = i := by
    funext a; apply Fin.ext
    match a with
    | ⟨0, _⟩ => show win1_1.index t (0 : Fin 2) * 512 + 1 * (y 0).val = (i 0).val; omega
    | ⟨1, _⟩ => show win1_1.index t (1 : Fin 2) * 3 + 1 * (y 1).val = (i 1).val; omega
  show V c main_arg0 (((cfg1.win 1).blk t).view.emb y) = V c main_arg0 i
  rw [e]

/-- Entry `y` of window 2's block at point `t` is entry `(512·(t.val % 8) + y₀, y₁)` of its array. -/
theorem blk1_2_eq (c : Dev nD) (t : Fin cfg1.N) (y : S512x256.Idx) (i : S4096x256.Idx)
    (h0 : (i 0).val = (t.val % 8) * 512 + (y 0).val) (h1 : (i 1).val = (y 1).val) :
    iblk1 V c 2 t y = V c main_v10_0 i := by
  obtain ⟨-, -, -, -, e20, e21, -⟩ := agIdx t
  have e : ((cfg1.win 2).blk t).view.emb y = i := by
    funext a; apply Fin.ext
    match a with
    | ⟨0, _⟩ => show win1_2.index t (0 : Fin 2) * 512 + 1 * (y 0).val = (i 0).val; omega
    | ⟨1, _⟩ => show win1_2.index t (1 : Fin 2) * 256 + 1 * (y 1).val = (i 1).val; omega
  show V c main_v10_0 (((cfg1.win 2).blk t).view.emb y) = V c main_v10_0 i
  rw [e]

/-- Entry `y` of window 3's block at point `t` is entry `(512·(t.val / 8) + y₀, y₁)` of its array. -/
theorem blk1_3_eq (c : Dev nD) (t : Fin cfg1.N) (y : S512x256.Idx) (i : S4096x256.Idx)
    (h0 : (i 0).val = (t.val / 8) * 512 + (y 0).val) (h1 : (i 1).val = (y 1).val) :
    iblk1 V c 3 t y = V c main_v10_1 i := by
  obtain ⟨-, -, -, -, -, -, e30, e31, -⟩ := agIdx t
  have e : ((cfg1.win 3).blk t).view.emb y = i := by
    funext a; apply Fin.ext
    match a with
    | ⟨0, _⟩ => show win1_3.index t (0 : Fin 2) * 512 + 1 * (y 0).val = (i 0).val; omega
    | ⟨1, _⟩ => show win1_3.index t (1 : Fin 2) * 256 + 1 * (y 1).val = (i 1).val; omega
  show V c main_v10_1 (((cfg1.win 3).blk t).view.emb y) = V c main_v10_1 i
  rw [e]

/-- Entry `y` of window 4's block at point `t` is entry `(512·(t.val / 8) + y₀, y₁)` of its array. -/
theorem blk1_4_eq (c : Dev nD) (t : Fin cfg1.N) (y : S512x256.Idx) (i : S4096x256.Idx)
    (h0 : (i 0).val = (t.val / 8) * 512 + (y 0).val) (h1 : (i 1).val = (y 1).val) :
    iblk1 V c 4 t y = V c main_arg1 i := by
  obtain ⟨-, -, -, -, -, -, -, -, e40, e41, -⟩ := agIdx t
  have e : ((cfg1.win 4).blk t).view.emb y = i := by
    funext a; apply Fin.ext
    match a with
    | ⟨0, _⟩ => show win1_4.index t (0 : Fin 2) * 512 + 1 * (y 0).val = (i 0).val; omega
    | ⟨1, _⟩ => show win1_4.index t (1 : Fin 2) * 256 + 1 * (y 1).val = (i 1).val; omega
  show V c main_arg1 (((cfg1.win 4).blk t).view.emb y) = V c main_arg1 i
  rw [e]

/-- Entry `y` of window 5's block at point `t` is entry `(1·(0) + y₀, y₁)` of its array. -/
theorem blk1_5_eq (c : Dev nD) (t : Fin cfg1.N) (y : S1x256.Idx) (i : S1x256.Idx)
    (h0 : (i 0).val = (0) * 1 + (y 0).val) (h1 : (i 1).val = (y 1).val) :
    iblk1 V c 5 t y = V c main_v11 i := by
  obtain ⟨-, -, -, -, -, -, -, -, -, -, e50, e51, -⟩ := agIdx t
  have e : ((cfg1.win 5).blk t).view.emb y = i := by
    funext a; apply Fin.ext
    match a with
    | ⟨0, _⟩ => show win1_5.index t (0 : Fin 2) * 1 + 1 * (y 0).val = (i 0).val; omega
    | ⟨1, _⟩ => show win1_5.index t (1 : Fin 2) * 256 + 1 * (y 1).val = (i 1).val; omega
  show V c main_v11 (((cfg1.win 5).blk t).view.emb y) = V c main_v11 i
  rw [e]

/-- Entry `y` of window 6's block at point `t` is entry `(256·(0) + y₀, y₁)` of its array. -/
theorem blk1_6_eq (c : Dev nD) (t : Fin cfg1.N) (y : S256x256.Idx) (i : S256x256.Idx)
    (h0 : (i 0).val = (0) * 256 + (y 0).val) (h1 : (i 1).val = (y 1).val) :
    iblk1 V c 6 t y = V c main_v9 i := by
  obtain ⟨-, -, -, -, -, -, -, -, -, -, -, -, e60, e61, -⟩ := agIdx t
  have e : ((cfg1.win 6).blk t).view.emb y = i := by
    funext a; apply Fin.ext
    match a with
    | ⟨0, _⟩ => show win1_6.index t (0 : Fin 2) * 256 + 1 * (y 0).val = (i 0).val; omega
    | ⟨1, _⟩ => show win1_6.index t (1 : Fin 2) * 256 + 1 * (y 1).val = (i 1).val; omega
  show V c main_v9 (((cfg1.win 6).blk t).view.emb y) = V c main_v9 i
  rw [e]

/-- Entry `y` of window 7's block at point `t` is entry `(1·(0) + y₀, y₁)` of its array. -/
theorem blk1_7_eq (c : Dev nD) (t : Fin cfg1.N) (y : S1x256.Idx) (i : S1x256.Idx)
    (h0 : (i 0).val = (0) * 1 + (y 0).val) (h1 : (i 1).val = (y 1).val) :
    iblk1 V c 7 t y = V c main_v12 i := by
  obtain ⟨-, -, -, -, -, -, -, -, -, -, -, -, -, -, e70, e71, -⟩ := agIdx t
  have e : ((cfg1.win 7).blk t).view.emb y = i := by
    funext a; apply Fin.ext
    match a with
    | ⟨0, _⟩ => show win1_7.index t (0 : Fin 2) * 1 + 1 * (y 0).val = (i 0).val; omega
    | ⟨1, _⟩ => show win1_7.index t (1 : Fin 2) * 256 + 1 * (y 1).val = (i 1).val; omega
  show V c main_v12 (((cfg1.win 7).blk t).view.emb y) = V c main_v12 i
  rw [e]

/-- An entry of the output array is in point `t`'s block iff each coordinate is in the block's range. -/
theorem mem_blk8 (t : Fin cfg1.N) (i : S4096x512.Idx) :
    i ∈ ((cfg1.win 8).blk t).view.set ↔ ∀ a : Fin 2, win1_8.index t a * S512x512.size a ≤ (i a).val ∧ (i a).val < win1_8.index t a * S512x512.size a + S512x512.size a := by
  show i ∈ ((View.whole main_v13).slice (win1_8.rect t)).set ↔ _
  rw [View.set_slice_whole, Rect.mem_set_unit]
  exact Iff.rfl

/-- Every entry of the output array is in the block the last point of its row block writes back. -/
theorem cover8 (i : S4096x512.Idx) : ∃ t : Fin cfg1.N, (cfg1.win 8).flush t = true ∧ i ∈ ((cfg1.win 8).blk t).view.set := by
  have hi0 : (i 0).val < 4096 := (i 0).isLt
  have hi1 : (i 1).val < 512 := (i 1).isLt
  have hN : grid1.N = 64 := N_1
  let t : Fin cfg1.N := ⟨(i 0).val / 512 * 8 + 7, by show (i 0).val / 512 * 8 + 7 < grid1.N; omega⟩
  have ht : t.val = (i 0).val / 512 * 8 + 7 := rfl
  obtain ⟨-, -, -, -, -, -, -, -, -, -, -, -, -, -, -, -, e80, e81⟩ := agIdx t
  refine ⟨t, (flush1_8 t).mpr (by omega), ?_⟩
  rw [mem_blk8]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 512 ≤ (i 1).val ∧ (i 1).val < win1_8.index t (1 : Fin 2) * 512 + 512; omega

/-- Entry `y` of the output block at point `t` is entry `(512·(t / 8) + y₀, y₁)` of the output array. -/
theorem emb8_eq (t : Fin cfg1.N) (y : S512x512.Idx) (i : S4096x512.Idx)
    (h0 : (i 0).val = (t.val / 8) * 512 + (y 0).val) (h1 : (i 1).val = (y 1).val) :
    ((cfg1.win 8).blk t).view.emb y = i := by
  obtain ⟨-, -, -, -, -, -, -, -, -, -, -, -, -, -, -, -, e80, e81⟩ := agIdx t
  funext a; apply Fin.ext
  match a with
  | ⟨0, _⟩ => show win1_8.index t (0 : Fin 2) * 512 + 1 * (y 0).val = (i 0).val; omega
  | ⟨1, _⟩ => show win1_8.index t (1 : Fin 2) * 512 + 1 * (y 1).val = (i 1).val; omega

end Cert.KernelIdeal.Hand

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibBitFloat.lean ====
/-
  A single bit as a float, on the extended reals.

  A one-bit word holds 0 or 1. Widened to a 32-bit word by zero-extension it is still 0 or 1, so reading that word
  as a SIGNED integer gives the bit's own value (the sign bit of the wide word is clear); reading the bit directly
  as an UNSIGNED integer gives the same value. Hence the two ways a comparison's result becomes the float 0.0 or
  1.0 — widen then convert signed, or convert unsigned — are one function of the bit. Depends on no program.
-/
import Idealize.ShloMosaic.PureOps.Ideal

noncomputable section

namespace Cert.BitFloat

open Idealize.ShloMosaic

/-- A one-bit word is the zero word or the one word. -/
theorem bit_cases (b : BitVec 1) : b = 0#1 ∨ b = 1#1 := by
  have h : b.toNat < 2 := b.isLt
  rcases Nat.lt_or_ge b.toNat 1 with h0 | h1
  · exact Or.inl (BitVec.eq_of_toNat_eq (by simp; omega))
  · exact Or.inr (BitVec.eq_of_toNat_eq (by simp; omega))

/-- Zero-extended to 32 bits and read signed, a bit is its own unsigned value. -/
theorem toInt_setWidth_bit (b : BitVec 1) : (b.setWidth 32).toInt = (b.toNat : Int) := by
  rcases bit_cases b with rfl | rfl <;> decide

/-- THE TWO ROUTES AGREE: the signed conversion of the 32-bit zero-extension of a bit is the unsigned conversion of
    the bit, as extended reals. -/
theorem sitofp_setWidth_eq_uitofp (b : BitVec 1) :
    FloatOps.sitofp (F := Ideal) .f32 (b.setWidth 32) = FloatOps.uitofp (F := Ideal) .f32 b := by
  show ((((b.setWidth 32).toInt : ℝ)) : EReal) = (((b.toNat : ℝ)) : EReal)
  rw [toInt_setWidth_bit]
  norm_num

end Cert.BitFloat

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.KI.Pay1.lean ====
/-
  The aggregation kernel's arithmetic at one entry, on the extended reals.

  At the grid point (I, K) the kernel holds block I of the centres as rows and block K as columns. For row r and
  column j of the 512 × 512 block it subtracts the two centres coordinate by coordinate, adds the three squares,
  compares the sum with 1/64, and compares the global positions I · 512 + r and K · 512 + j as 32-bit words; both are
  below 4096, so the words differ exactly when the positions do. The one-bit answer, widened and read as a signed
  integer, is the number 0 or 1. The neighbour count grows by the block's row sums; the weighted sum grows by the
  product of the block with the block of u, a sum over the 512 columns; the pooled block is the product of the
  finished row with the second matrix, plus the count times the second bias, times 2⁻¹² = 1/4096. Format changes are
  the identity here, a reshape to the same shape is the identity, and a sum from a zero start is the sum.
-/
import proofs.«105388_j24962349924890_1_alg».proof.Proof.KI.Body1
import proofs.«105388_j24962349924890_1_alg».proof.Proof.Spec
import proofs.«105388_j24962349924890_1_alg».proof.Proof.LibAxisFold
import proofs.«105388_j24962349924890_1_alg».proof.Proof.LibColumn
import proofs.«105388_j24962349924890_1_alg».proof.Proof.LibBitFloat
import proofs.«105388_j24962349924890_1_alg».proof.Proof.LibPlainDot
import Idealize.ShloMosaic.Lib.ValueLayout

noncomputable section

open scoped BigOperators

namespace Cert.KernelIdeal.Pay

open Cert.KernelIdeal Cert.KernelIdeal.Gen Cert.KernelIdeal.Hand Idealize.ShloMosaic Idealize.ShloMosaic.ValueIdx

/-! ## The two constants -/

/-- The radius word denotes 2⁻⁶ = 1/64. -/
theorem r2_word : Ideal.ofBits .f32 0x3C800000#32 = Cert.Spec.r2 := by
  unfold Cert.Spec.r2
  simp [Ideal.ofBits, Ideal.ieee, -EReal.coe_mul]
  norm_num

/-- The scale word denotes 2⁻¹² = 1/4096. -/
theorem inv_n_word : Ideal.ofBits .f32 0x39800000#32 = ((1 / 4096 : ℝ) : EReal) := by
  simp [Ideal.ofBits, Ideal.ieee, -EReal.coe_mul]
  try norm_num

/-! ## Positions as 32-bit words -/

/-- Block number times 512 plus the place inside the block, computed on words, is the word of that number. -/
theorem glob_word (I : ℕ) (r : Fin 512) :
    IntOp.addi (Scalar.muli (BitVec.ofNat 32 I) 512#32) (BitVec.ofNat 32 r.val) = BitVec.ofNat 32 (I * 512 + r.val) := by
  show BitVec.ofNat 32 I * BitVec.ofNat 32 512 + BitVec.ofNat 32 r.val = _
  rw [BitVec.ofNat_add, BitVec.ofNat_mul]

/-- Two numbers below 4096 differ as 32-bit words exactly when they differ. -/
theorem word_ne (A B : ℕ) (hA : A < 4096) (hB : B < 4096) :
    IntOp.cmpi .ne (BitVec.ofNat 32 A) (BitVec.ofNat 32 B) = BitVec.ofBool (decide (A ≠ B)) := by
  unfold IntOp.cmpi
  congr 1
  rw [Bool.eq_iff_iff, bne_iff_ne, decide_eq_true_iff]
  constructor
  · intro h e
    exact h (by rw [e])
  · intro h e
    have h2 := congrArg BitVec.toNat e
    rw [BitVec.toNat_ofNat, BitVec.toNat_ofNat, Nat.mod_eq_of_lt (lt_trans hA (by norm_num)),
      Nat.mod_eq_of_lt (lt_trans hB (by norm_num))] at h2
    exact h h2

/-- "a and b" on one-bit words, read as a natural number. -/
theorem and_bits_nat (a b : Bool) :
    (IntOp.andi (BitVec.ofBool a) (BitVec.ofBool b)).toNat = if a = true ∧ b = true then 1 else 0 := by
  cases a <;> cases b <;> rfl

/-- The mask bit as a number: 1 when the squared distance is within the radius and the positions differ, else 0. -/
theorem mask_word (S : Ideal .f32) (A B : ℕ) (hA : A < 4096) (hB : B < 4096) :
    FloatOps.sitofp (F := Ideal) .f32 ((IntOp.andi (FloatOps.cmpf (F := Ideal) (φ := .f32) .ole S (Ideal.ofBits .f32 0x3C800000#32))
        (IntOp.cmpi .ne (BitVec.ofNat 32 A) (BitVec.ofNat 32 B))).setWidth 32)
      = (open Classical in if (S ≤ Cert.Spec.r2 ∧ A ≠ B) then (1 : EReal) else 0) := by
  rw [Cert.BitFloat.sitofp_setWidth_eq_uitofp, word_ne A B hA hB, r2_word]
  show (((IntOp.andi (BitVec.ofBool (decide (S ≤ Cert.Spec.r2))) (BitVec.ofBool (decide (A ≠ B)))).toNat : ℝ) : EReal) = _
  rw [and_bits_nat]
  by_cases h : S ≤ Cert.Spec.r2 ∧ A ≠ B
  · rw [if_pos h, if_pos ⟨decide_eq_true h.1, decide_eq_true h.2⟩]
    simp
  · rw [if_neg h, if_neg (fun h' => h ⟨of_decide_eq_true h'.1, of_decide_eq_true h'.2⟩)]
    simp

/-! ## One coordinate of the two blocks of centres, spread over the 512 × 512 block -/

/-- Coordinate `o` of the row block's centres, repeated along each row. -/
def rowB (x0 : Vec Ideal S512x3 .f32) (o : ℕ) (hs : S512x3.Slices ![0, o] S512x1) : FVec Ideal S512x512 .f32 :=
  broadcastTo S512x512 (extractStridedSlice S512x1 ![0, o] x0 hs) broadcasts_S512x1_S512x512

/-- Coordinate `o` of the column block's centres (the block transposed), repeated down each column. -/
def colB (x1 : Vec Ideal S512x3 .f32) (o : ℕ) (hs : S3x512.Slices ![o, 0] S1x512) : FVec Ideal S512x512 .f32 :=
  broadcastTo S512x512 (extractStridedSlice S1x512 ![o, 0] (transpose S3x512 [1, 0] x1 transposes_S512x3_p1_0_S3x512) hs)
    broadcasts_S1x512_S512x512

/-- At (r, j) the row side reads centre r. -/
theorem rowB_apply (x0 : Vec Ideal S512x3 .f32) (o : ℕ) (hs : S512x3.Slices ![0, o] S512x1) (a : Fin 3) (ha : a.val = o)
    (r j : Fin 512) : rowB x0 o hs (ix2 r j) = x0 (ix2 r a) :=
  (Cert.Column.broadcastTo_a1_ab_apply _ broadcasts_S512x1_S512x512 r j).trans
    (slice2_axis1_apply o x0 hs r (0 : Fin 1) a (by omega))

/-- At (r, j) the column side reads centre j. -/
theorem colB_apply (x1 : Vec Ideal S512x3 .f32) (o : ℕ) (hs : S3x512.Slices ![o, 0] S1x512) (a : Fin 3) (ha : a.val = o)
    (r j : Fin 512) : colB x1 o hs (ix2 r j) = x1 (ix2 j a) :=
  (broadcastTo_1b_ab_apply _ broadcasts_S1x512_S512x512 r j).trans
    ((slice2_axis0_apply o _ hs (0 : Fin 1) j a (by omega)).trans
      (transpose_ix2_apply x1 transposes_S512x3_p1_0_S3x512 a j))

/-! ## The mask block -/

/-- The mask block's entry, with its operations read at the entry (by unfolding only). -/
theorem pay6_unfold (i : grid1.Coords) (x0 x1 : Vec Ideal S512x3 .f32) (r j : Fin 512) :
    k1_pay6 (F := Ideal) i x0 x1 (ix2 r j)
      = FloatOps.sitofp (F := Ideal) .f32 ((IntOp.andi
          (FloatOps.cmpf (F := Ideal) (φ := .f32) .ole
            ((rowB x0 0 slices_S512x3_o0_0_S512x1 (ix2 r j) - colB x1 0 slices_S3x512_o0_0_S1x512 (ix2 r j))
                * (rowB x0 0 slices_S512x3_o0_0_S512x1 (ix2 r j) - colB x1 0 slices_S3x512_o0_0_S1x512 (ix2 r j))
              + (rowB x0 1 slices_S512x3_o0_1_S512x1 (ix2 r j) - colB x1 1 slices_S3x512_o1_0_S1x512 (ix2 r j))
                * (rowB x0 1 slices_S512x3_o0_1_S512x1 (ix2 r j) - colB x1 1 slices_S3x512_o1_0_S1x512 (ix2 r j))
              + (rowB x0 2 slices_S512x3_o0_2_S512x1 (ix2 r j) - colB x1 2 slices_S3x512_o2_0_S1x512 (ix2 r j))
                * (rowB x0 2 slices_S512x3_o0_2_S512x1 (ix2 r j) - colB x1 2 slices_S3x512_o2_0_S1x512 (ix2 r j)))
            (Ideal.ofBits .f32 0x3C800000#32))
          (IntOp.cmpi .ne
            (IntOp.addi (Scalar.muli (BitVec.ofNat 32 (i 0).val) 512#32) (iota .tc S512x512 32 [0] iota_S512x512_d0_w32 (ix2 r j)))
            (IntOp.addi (Scalar.muli (BitVec.ofNat 32 (i 1).val) 512#32) (iota .tc S512x512 32 [1] iota_S512x512_d1_w32 (ix2 r j))))).setWidth 32) :=
  rfl

/-- The mask block at (r, j): 1 when the centres are within the radius and the global row I · 512 + r differs from
    the global column K · 512 + j, else 0. -/
theorem pay6_apply (i : grid1.Coords) (x0 x1 : Vec Ideal S512x3 .f32) (r j : Fin 512) :
    k1_pay6 (F := Ideal) i x0 x1 (ix2 r j)
      = (open Classical in if ((x0 (ix2 r 0) - x1 (ix2 j 0)) * (x0 (ix2 r 0) - x1 (ix2 j 0)) + (x0 (ix2 r 1) - x1 (ix2 j 1)) * (x0 (ix2 r 1) - x1 (ix2 j 1)) + (x0 (ix2 r 2) - x1 (ix2 j 2)) * (x0 (ix2 r 2) - x1 (ix2 j 2)) ≤ Cert.Spec.r2 ∧ (i 0).val * 512 + r.val ≠ (i 1).val * 512 + j.val) then (1 : EReal) else 0) := by
  have hI : (i 0).val < 8 := (i 0).isLt
  have hK : (i 1).val < 8 := (i 1).isLt
  have hA : (i 0).val * 512 + r.val < 4096 := by have := r.isLt; omega
  have hB : (i 1).val * 512 + j.val < 4096 := by have := j.isLt; omega
  have hi0 : iota .tc S512x512 32 [0] iota_S512x512_d0_w32 (ix2 r j) = BitVec.ofNat 32 r.val :=
    iota_single_apply .tc S512x512 32 0 iota_S512x512_d0_w32 (ix2 r j)
  have hi1 : iota .tc S512x512 32 [1] iota_S512x512_d1_w32 (ix2 r j) = BitVec.ofNat 32 j.val :=
    iota_single_apply .tc S512x512 32 1 iota_S512x512_d1_w32 (ix2 r j)
  rw [pay6_unfold, rowB_apply x0 0 _ 0 rfl, rowB_apply x0 1 _ 1 rfl, rowB_apply x0 2 _ 2 rfl, colB_apply x1 0 _ 0 rfl,
    colB_apply x1 1 _ 1 rfl, colB_apply x1 2 _ 2 rfl, hi0, hi1, glob_word, glob_word]
  exact mask_word _ _ _ hA hB

/-! ## The two accumulators -/

/-- The neighbour count advances by the row sum of the mask block. -/
theorem degNext_apply (i : grid1.Coords) (x0 x1 : Vec Ideal S512x3 .f32) (d : Vec Ideal S512x1 .f32) (r : Fin 512) :
    degNext (F := Ideal) i x0 x1 d (ix2 r 0) = d (ix2 r 0) + ∑ j : Fin 512, k1_pay6 (F := Ideal) i x0 x1 (ix2 r j) := by
  unfold degNext k1_pay1 k1_pay7
  generalize k1_pay6 (F := Ideal) i x0 x1 = P
  show shapeCast S512x1 (addf d (shapeCast S512x1 (multiReduction .add [1] S512 P 0x00000000#32 reduces_S512x512_S512 (.inl rfl) rfl)
      shapeCasts_S512_S512x1)) shapeCasts_S512x1_S512x1 (ix2 r 0) = _
  rw [shapeCast_self]
  show d (ix2 r 0) + shapeCast S512x1 (multiReduction .add [1] S512 P 0x00000000#32 reduces_S512x512_S512 (.inl rfl) rfl)
      shapeCasts_S512_S512x1 (ix2 r 0) = _
  refine congrArg (d (ix2 r 0) + ·) ?_
  exact (Cert.Column.shapeCast_a_a1_apply _ shapeCasts_S512_S512x1 r 0).trans
    (Cert.AxisFold.row_sum P reduces_S512x512_S512 (.inl rfl) rfl r)

/-- The weighted sum advances by the mask block times the block of u. -/
theorem muNext_apply (i : grid1.Coords) (x0 x1 : Vec Ideal S512x3 .f32) (x2 mu : Vec Ideal S512x256 .f32) (r : Fin 512)
    (q : Fin 256) :
    muNext (F := Ideal) i x0 x1 x2 mu (ix2 r q)
      = mu (ix2 r q) + ∑ j : Fin 512, k1_pay6 (F := Ideal) i x0 x1 (ix2 r j) * x2 (ix2 j q) := by
  have hP : Cert.PlainDot.IsPlain dot_S512x512_S512x256_S512x256_1_0_0_1_n_n := ⟨rfl, rfl, rfl, rfl, rfl, rfl⟩
  unfold muNext k1_pay2
  generalize k1_pay6 (F := Ideal) i x0 x1 = P
  show shapeCast S512x256 (addf mu (matmul dot_S512x512_S512x256_S512x256_1_0_0_1_n_n none (truncf .bf16 P bitsLt_bf16_f32)
      (truncf .bf16 (shapeCast S512x256 x2 shapeCasts_S512x256_S512x256) bitsLt_bf16_f32)
      (constant (F := Ideal) S512x256 .f32 0x00000000#32))) shapeCasts_S512x256_S512x256 (ix2 r q) = _
  rw [shapeCast_self, shapeCast_self]
  show mu (ix2 r q) + matmul dot_S512x512_S512x256_S512x256_1_0_0_1_n_n none (truncf .bf16 P bitsLt_bf16_f32)
      (truncf .bf16 x2 bitsLt_bf16_f32) (constant (F := Ideal) S512x256 .f32 0x00000000#32) (ix2 r q) = _
  refine congrArg (mu (ix2 r q) + ·) ?_
  exact Cert.PlainDot.matmul_zero_apply hP none (truncf .bf16 P bitsLt_bf16_f32) (truncf .bf16 x2 bitsLt_bf16_f32) r q

/-- The two zero accumulators. -/
theorem pay4_apply (y : S512x256.Idx) : k1_pay4 (F := Ideal) y = 0 := by
  unfold k1_pay4
  show shapeCast S512x256 (broadcast S512x256 (Ideal.ofBits .f32 0x00000000#32)) shapeCasts_S512x256_S512x256 y = 0
  rw [shapeCast_self]
  exact Ideal.ofBits_zero_f32

theorem pay5_apply (y : S512x1.Idx) : k1_pay5 (F := Ideal) y = 0 := by
  unfold k1_pay5
  show shapeCast S512x1 (broadcast S512x1 (Ideal.ofBits .f32 0x00000000#32)) shapeCasts_S512x1_S512x1 y = 0
  rw [shapeCast_self]
  exact Ideal.ofBits_zero_f32

/-! ## The pooled block -/

/-- The pooled block at (r, q): the finished row (weighted sum plus count times (v + first bias)) against column q
    of the second matrix, plus the count times the second bias, times 1/4096. -/
theorem pay3_apply (x3 : Vec Ideal S512x256 .f32) (x5 : Vec Ideal S1x256 .f32) (dg : Vec Ideal S512x1 .f32)
    (mu : Vec Ideal S512x256 .f32) (x6 : Vec Ideal S256x256 .f32) (x7 : Vec Ideal S1x256 .f32) (r : Fin 512) (q : Fin 256) :
    k1_pay3 (F := Ideal) x3 x5 dg mu x6 x7 (ix2 r q)
      = ((∑ s : Fin 256, (mu (ix2 r s) + dg (ix2 r 0) * (x3 (ix2 r s) + x5 (ix2 0 s))) * x6 (ix2 s q)) + dg (ix2 r 0) * x7 (ix2 0 q)) * ((1 / 4096 : ℝ) : EReal) := by
  have hP : Cert.PlainDot.IsPlain dot_S512x256_S256x256_S512x256_1_0_0_1_n_n := ⟨rfl, rfl, rfl, rfl, rfl, rfl⟩
  unfold k1_pay3
  show (matmul dot_S512x256_S256x256_S512x256_1_0_0_1_n_n none
        (truncf .bf16 (addf mu (mulf (broadcastTo S512x256 dg broadcasts_S512x1_S512x256)
          (addf (shapeCast S512x256 x3 shapeCasts_S512x256_S512x256)
            (broadcastTo S512x256 (shapeCast S1x256 x5 shapeCasts_S1x256_S1x256) broadcasts_S1x256_S512x256)))) bitsLt_bf16_f32)
        (truncf .bf16 (shapeCast S256x256 x6 shapeCasts_S256x256_S256x256) bitsLt_bf16_f32)
        (constant (F := Ideal) S512x256 .f32 0x00000000#32) (ix2 r q)
      + broadcastTo S512x256 dg broadcasts_S512x1_S512x256 (ix2 r q)
        * broadcastTo S512x256 (shapeCast S1x256 x7 shapeCasts_S1x256_S1x256) broadcasts_S1x256_S512x256 (ix2 r q))
      * Ideal.ofBits .f32 0x39800000#32 = _
  rw [shapeCast_self, shapeCast_self, shapeCast_self, shapeCast_self, inv_n_word,
    Cert.Column.broadcastTo_a1_ab_apply dg broadcasts_S512x1_S512x256 r q, broadcastTo_1b_ab_apply x7 broadcasts_S1x256_S512x256 r q]
  refine congrArg (fun t => (t + dg (ix2 r 0) * x7 (ix2 0 q)) * ((1 / 4096 : ℝ) : EReal)) ?_
  refine (Cert.PlainDot.matmul_zero_apply hP none _ _ r q).trans ?_
  refine Finset.sum_congr rfl fun s _ => ?_
  show (mu (ix2 r s) + broadcastTo S512x256 dg broadcasts_S512x1_S512x256 (ix2 r s)
      * (x3 (ix2 r s) + broadcastTo S512x256 x5 broadcasts_S1x256_S512x256 (ix2 r s))) * x6 (ix2 s q) = _
  rw [Cert.Column.broadcastTo_a1_ab_apply dg broadcasts_S512x1_S512x256 r s, broadcastTo_1b_ab_apply x5 broadcasts_S1x256_S512x256 r s]

end Cert.KernelIdeal.Pay

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.KI.BlockFold.lean ====
/-
  Eight blocks of 512 make 4096.

  A sum over the 4096 positions k can be taken block by block: write k = K · 512 + j with K one of eight blocks and
  j one of the 512 places inside it, sum inside each block, and add the eight block sums. An accumulator that
  starts from zero plus the first block's sum and then adds one block's sum per step holds, after the eighth
  block, the sum of all eight. Only commutativity and associativity of the addition are used. Depends on no program.
-/
import proofs.«105388_j24962349924890_1_alg».proof.Proof.LibBlockSum

namespace Cert.BlockFold

/-- The eight block sums of 512 terms add up to the sum over all 4096 positions. -/
theorem sum_blocks {β : Type*} [AddCommMonoid β] (g : Fin 4096 → β) :
    (∑ K : Fin 8, ∑ j : Fin 512, g ⟨K.val * 512 + j.val, by have := K.isLt; have := j.isLt; omega⟩)
      = ∑ k : Fin 4096, g k := by
  let f : ℕ → β := fun n => if h : n < 4096 then g ⟨n, h⟩ else 0
  have hL : ∀ (K : Fin 8) (j : Fin 512),
      g ⟨K.val * 512 + j.val, by have := K.isLt; have := j.isLt; omega⟩ = f (K.val * 512 + j.val) := by
    intro K j
    have h : K.val * 512 + j.val < 4096 := by have := K.isLt; have := j.isLt; omega
    simp only [f, dif_pos h]
  have hR : ∀ k : Fin 4096, g k = f k.val := by
    intro k
    simp only [f, dif_pos k.isLt]
  calc (∑ K : Fin 8, ∑ j : Fin 512, g ⟨K.val * 512 + j.val, by have := K.isLt; have := j.isLt; omega⟩)
      = ∑ K : Fin 8, ∑ j : Fin 512, f (K.val * 512 + j.val) :=
        Finset.sum_congr rfl fun K _ => Finset.sum_congr rfl fun j _ => hL K j
    _ = ∑ s ∈ Finset.range 8, ∑ j : Fin 512, f (s * 512 + j.val) :=
        Fin.sum_univ_eq_sum_range (fun s => ∑ j : Fin 512, f (s * 512 + j.val)) 8
    _ = ∑ n : Fin (8 * 512), f n.val := Cert.BlockSum.sum_blocks 8 512 f
    _ = ∑ k : Fin 4096, g k := Finset.sum_congr rfl fun k _ => (hR k).symm

/-- An accumulator that starts at zero plus the first block's sum and adds one block's sum per step holds, after
    the eighth block, the sum of the eight block sums. -/
theorem fold_blocks {β : Type*} [AddCommMonoid β] (s : Fin 8 → β) (acc : (n : ℕ) → n < 8 → β)
    (h0 : acc 0 (by omega) = 0 + s 0)
    (hs : ∀ (n : ℕ) (h : n + 1 < 8), acc (n + 1) h = acc n (by omega) + s ⟨n + 1, h⟩) :
    acc 7 (by omega) = ∑ K : Fin 8, s K := by
  have e1 := hs 0 (by omega)
  have e2 := hs 1 (by omega)
  have e3 := hs 2 (by omega)
  have e4 := hs 3 (by omega)
  have e5 := hs 4 (by omega)
  have e6 := hs 5 (by omega)
  have e7 := hs 6 (by omega)
  rw [Fin.sum_univ_eight]
  exact e7.trans (by rw [e6, e5, e4, e3, e2, e1, h0, zero_add]; rfl)

end Cert.BlockFold
-- ==== Proof.KI.Acc1.lean ====
/-
  The two accumulators at the last point of a row block, as whole sums.

  The 64 grid points are t = 8 · I + K: row block I, column block K, K running fastest. Over the eight points of row
  block I the neighbour count starts from zero and grows by the row sums of the eight mask blocks, and the weighted
  sum grows by the eight products of a mask block with a block of u. Entry (r, j) of the mask block at (I, K) is the
  neighbour indicator of the centres at the global positions I · 512 + r and K · 512 + j. Eight blocks of 512 make
  4096, so after the eighth point row r of the count is the degree of centre I · 512 + r, and row r of the weighted
  sum is the sum over all 4096 centres of the indicator times the row of u.
-/
import proofs.«105388_j24962349924890_1_alg».proof.Proof.KI.Frame1
import proofs.«105388_j24962349924890_1_alg».proof.Proof.KI.Blocks1
import proofs.«105388_j24962349924890_1_alg».proof.Proof.KI.Pay1
import proofs.«105388_j24962349924890_1_alg».proof.Proof.KI.BlockFold
import proofs.«105388_j24962349924890_1_alg».proof.Proof.Spec

noncomputable section

open scoped BigOperators

namespace Cert.KernelIdeal.Pay

open Cert.KernelIdeal Cert.KernelIdeal.Gen Cert.KernelIdeal.Hand Idealize.ShloMosaic Idealize.ShloMosaic.ValueIdx
open Idealize.ShloMosaic.TcCoe Idealize.SL.Sem

variable (V : (c : Dev nD) → (b : Ref sig .tc) → Buf (Elt Ideal) ((c : Thread nD τ).loc b))

/-- The centres' array and the array of u, as the region finds them. -/
abbrev cenOf (c : Dev nD) : Cert.Spec.Cen := V c main_arg0
abbrev uOf (c : Dev nD) : Cert.Spec.Desc := V c main_v10_0

/-- Point t of the grid is (t / 8, t % 8). -/
theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

/-- One entry of a point's mask block is the neighbour indicator of the two centres' global positions. -/
theorem pay6_M (c : Dev nD) (tK : Fin cfg1.N) (r j : Fin 512) (p k : Fin 4096)
    (hp : p.val = (tK.val / 8) * 512 + r.val) (hk : k.val = (tK.val % 8) * 512 + j.val) :
    k1_pay6 (F := Ideal) (grid1.coords tK) (iblk1 V c 0 tK) (iblk1 V c 1 tK) (ix2 r j) = Cert.Spec.M (cenOf V c) p k := by
  have hc := coords1 tK
  have e0 : ∀ a : Fin 3, iblk1 V c 0 tK (ix2 r a) = cenOf V c (ix2 p a) :=
    fun a => blk1_0_eq V c tK (ix2 r a) (ix2 p a) hp rfl
  have e1 : ∀ a : Fin 3, iblk1 V c 1 tK (ix2 j a) = cenOf V c (ix2 k a) :=
    fun a => blk1_1_eq V c tK (ix2 j a) (ix2 k a) hk rfl
  refine (pay6_apply (grid1.coords tK) (iblk1 V c 0 tK) (iblk1 V c 1 tK) r j).trans ?_
  rw [e0 0, e0 1, e0 2, e1 0, e1 1, e1 2]
  unfold Cert.Spec.M
  refine if_congr (and_congr Iff.rfl ?_) rfl rfl
  rw [hc.1, hc.2, ← hp, ← hk]
  exact Fin.val_ne_iff

/-- The accumulators depend on the position only. -/
theorem accAt_congr (c : Dev nD) {n m : ℕ} (e : n = m) (hn : n < cfg1.N) (hm : m < cfg1.N) :
    accAt V c n hn = accAt V c m hm := by
  subst e; rfl

/-- Position b + n of the grid, for a row block that starts at b. -/
abbrev pt (b : ℕ) (hb : b + 7 < cfg1.N) (n : ℕ) (hn : n < 8) : Fin cfg1.N := ⟨b + n, by omega⟩

/-- What the neighbour count gains at the row block's point number K: row r of that point's mask block, summed. -/
def sDeg (c : Dev nD) (b : ℕ) (hb : b + 7 < cfg1.N) (r : Fin 512) (K : Fin 8) : EReal :=
  ∑ j : Fin 512, k1_pay6 (F := Ideal) (grid1.coords (pt b hb K.val K.isLt)) (iblk1 V c 0 (pt b hb K.val K.isLt))
    (iblk1 V c 1 (pt b hb K.val K.isLt)) (ix2 r j)

/-- Over a row block the neighbour count is the sum of the eight gains. -/
theorem deg_fold (c : Dev nD) (b : ℕ) (hb8 : b % 8 = 0) (hb : b + 7 < cfg1.N) (r : Fin 512) :
    (accAt V c (b + 7) hb).2 (ix2 r 0) = ∑ K : Fin 8, sDeg V c b hb r K := by
  refine Cert.BlockFold.fold_blocks (sDeg V c b hb r) (fun n hn => (accAt V c (b + n) (by omega)).2 (ix2 r 0)) ?_ ?_
  · have hlt : b + 0 < cfg1.N := by omega
    have e := accAt_first V c (pt b hb 0 (by omega)) (by show (b + 0) % 8 = 0; omega)
    have e2 : (accAt V c (b + 0) hlt).2 = degNext (grid1.coords (pt b hb 0 (by omega))) (iblk1 V c 0 (pt b hb 0 (by omega)))
        (iblk1 V c 1 (pt b hb 0 (by omega))) (k1_pay5 (F := Ideal)) := congrArg Prod.snd e
    show (accAt V c (b + 0) hlt).2 (ix2 r 0) = 0 + sDeg V c b hb r 0
    rw [e2]
    refine (degNext_apply (grid1.coords (pt b hb 0 (by omega))) (iblk1 V c 0 (pt b hb 0 (by omega)))
      (iblk1 V c 1 (pt b hb 0 (by omega))) (k1_pay5 (F := Ideal)) r).trans ?_
    rw [pay5_apply]
    rfl
  · intro n h
    have hlt : b + (n + 1) < cfg1.N := by omega
    have hlt' : b + n < cfg1.N := by omega
    have e := accAt_next V c (pt b hb (n + 1) h) (by show ¬ (b + (n + 1)) % 8 = 0; omega)
    have e2 : (accAt V c (b + (n + 1)) hlt).2 = degNext (grid1.coords (pt b hb (n + 1) h)) (iblk1 V c 0 (pt b hb (n + 1) h))
        (iblk1 V c 1 (pt b hb (n + 1) h)) (accAt V c (b + (n + 1) - 1) (by omega)).2 := congrArg Prod.snd e
    show (accAt V c (b + (n + 1)) hlt).2 (ix2 r 0) = (accAt V c (b + n) hlt').2 (ix2 r 0) + sDeg V c b hb r ⟨n + 1, h⟩
    rw [e2]
    refine (degNext_apply (grid1.coords (pt b hb (n + 1) h)) (iblk1 V c 0 (pt b hb (n + 1) h))
      (iblk1 V c 1 (pt b hb (n + 1) h)) (accAt V c (b + (n + 1) - 1) (by omega)).2 r).trans ?_
    rw [accAt_congr V c (show b + (n + 1) - 1 = b + n by omega) (by omega) hlt']
    rfl

/-- After the last point of its row block, row r of the neighbour count is the degree of the centre at the global
    position p = (row block) · 512 + r. -/
theorem deg_last (c : Dev nD) (t : Fin cfg1.N) (h7 : t.val % 8 = 7) (r : Fin 512) (p : Fin 4096)
    (hp : p.val = (t.val / 8) * 512 + r.val) :
    (accAt V c t.val t.isLt).2 (ix2 r 0) = Cert.Spec.deg (cenOf V c) p := by
  have hN : cfg1.N = 64 := N_1
  have htl := t.isLt
  have hb : t.val - 7 + 7 < cfg1.N := by omega
  rw [accAt_congr V c (show t.val = t.val - 7 + 7 by omega) t.isLt hb, deg_fold V c (t.val - 7) (by omega) hb r]
  unfold Cert.Spec.deg
  refine Eq.trans ?_ (Cert.BlockFold.sum_blocks (fun k : Fin 4096 => Cert.Spec.M (cenOf V c) p k))
  refine Finset.sum_congr rfl fun K _ => Finset.sum_congr rfl fun j _ => ?_
  have hK := K.isLt
  have hj := j.isLt
  exact pay6_M V c (pt (t.val - 7) hb K.val K.isLt) r j p ⟨K.val * 512 + j.val, by omega⟩
    (by show p.val = ((t.val - 7 + K.val) / 8) * 512 + r.val; omega)
    (by show K.val * 512 + j.val = ((t.val - 7 + K.val) % 8) * 512 + j.val; omega)

/-! ## The weighted sum -/

/-- The block of u at a point, as a 512 × 256 array of extended reals. -/
def uBlk (c : Dev nD) (t : Fin cfg1.N) : Vec Ideal S512x256 .f32 := iblk1 V c 2 t

/-- What entry (r, q) of the weighted sum gains at the row block's point number K: row r of that point's mask block
    against column q of its block of u. -/
def sMu (c : Dev nD) (b : ℕ) (hb : b + 7 < cfg1.N) (r : Fin 512) (q : Fin 256) (K : Fin 8) : EReal :=
  ∑ j : Fin 512, k1_pay6 (F := Ideal) (grid1.coords (pt b hb K.val K.isLt)) (iblk1 V c 0 (pt b hb K.val K.isLt))
    (iblk1 V c 1 (pt b hb K.val K.isLt)) (ix2 r j) * uBlk V c (pt b hb K.val K.isLt) (ix2 j q)

/-- Over a row block the weighted sum is the sum of the eight gains. -/
theorem mu_fold (c : Dev nD) (b : ℕ) (hb8 : b % 8 = 0) (hb : b + 7 < cfg1.N) (r : Fin 512) (q : Fin 256) :
    (accAt V c (b + 7) hb).1 (ix2 r q) = ∑ K : Fin 8, sMu V c b hb r q K := by
  refine Cert.BlockFold.fold_blocks (sMu V c b hb r q) (fun n hn => (accAt V c (b + n) (by omega)).1 (ix2 r q)) ?_ ?_
  · have hlt : b + 0 < cfg1.N := by omega
    have e := accAt_first V c (pt b hb 0 (by omega)) (by show (b + 0) % 8 = 0; omega)
    have e2 : (accAt V c (b + 0) hlt).1 = muNext (grid1.coords (pt b hb 0 (by omega))) (iblk1 V c 0 (pt b hb 0 (by omega)))
        (iblk1 V c 1 (pt b hb 0 (by omega))) (uBlk V c (pt b hb 0 (by omega))) (k1_pay4 (F := Ideal)) := congrArg Prod.fst e
    show (accAt V c (b + 0) hlt).1 (ix2 r q) = 0 + sMu V c b hb r q 0
    rw [e2]
    refine (muNext_apply (grid1.coords (pt b hb 0 (by omega))) (iblk1 V c 0 (pt b hb 0 (by omega)))
      (iblk1 V c 1 (pt b hb 0 (by omega))) (uBlk V c (pt b hb 0 (by omega))) (k1_pay4 (F := Ideal)) r q).trans ?_
    rw [pay4_apply]
    rfl
  · intro n h
    have hlt : b + (n + 1) < cfg1.N := by omega
    have hlt' : b + n < cfg1.N := by omega
    have e := accAt_next V c (pt b hb (n + 1) h) (by show ¬ (b + (n + 1)) % 8 = 0; omega)
    have e2 : (accAt V c (b + (n + 1)) hlt).1 = muNext (grid1.coords (pt b hb (n + 1) h)) (iblk1 V c 0 (pt b hb (n + 1) h))
        (iblk1 V c 1 (pt b hb (n + 1) h)) (uBlk V c (pt b hb (n + 1) h)) (accAt V c (b + (n + 1) - 1) (by omega)).1 :=
      congrArg Prod.fst e
    show (accAt V c (b + (n + 1)) hlt).1 (ix2 r q) = (accAt V c (b + n) hlt').1 (ix2 r q) + sMu V c b hb r q ⟨n + 1, h⟩
    rw [e2]
    refine (muNext_apply (grid1.coords (pt b hb (n + 1) h)) (iblk1 V c 0 (pt b hb (n + 1) h))
      (iblk1 V c 1 (pt b hb (n + 1) h)) (uBlk V c (pt b hb (n + 1) h)) (accAt V c (b + (n + 1) - 1) (by omega)).1 r q).trans ?_
    rw [accAt_congr V c (show b + (n + 1) - 1 = b + n by omega) (by omega) hlt']
    rfl

/-- After the last point of its row block, entry (r, q) of the weighted sum is the sum over all 4096 centres k of the
    neighbour indicator of (p, k) times entry (k, q) of u, p = (row block) · 512 + r. -/
theorem mu_last (c : Dev nD) (t : Fin cfg1.N) (h7 : t.val % 8 = 7) (r : Fin 512) (q : Fin 256) (p : Fin 4096)
    (hp : p.val = (t.val / 8) * 512 + r.val) :
    (accAt V c t.val t.isLt).1 (ix2 r q) = ∑ k : Fin 4096, Cert.Spec.M (cenOf V c) p k * uOf V c (ix2 k q) := by
  have hN : cfg1.N = 64 := N_1
  have htl := t.isLt
  have hb : t.val - 7 + 7 < cfg1.N := by omega
  rw [accAt_congr V c (show t.val = t.val - 7 + 7 by omega) t.isLt hb, mu_fold V c (t.val - 7) (by omega) hb r q]
  refine Eq.trans ?_ (Cert.BlockFold.sum_blocks (fun k : Fin 4096 => Cert.Spec.M (cenOf V c) p k * uOf V c (ix2 k q)))
  refine Finset.sum_congr rfl fun K _ => Finset.sum_congr rfl fun j _ => ?_
  have hK := K.isLt
  have hj := j.isLt
  have hk : K.val * 512 + j.val = ((t.val - 7 + K.val) % 8) * 512 + j.val := by omega
  exact congrArg₂ (· * ·)
    (pay6_M V c (pt (t.val - 7) hb K.val K.isLt) r j p ⟨K.val * 512 + j.val, by omega⟩
      (by show p.val = ((t.val - 7 + K.val) / 8) * 512 + r.val; omega) hk)
    (blk1_2_eq V c (pt (t.val - 7) hb K.val K.isLt) (ix2 j q) (ix2 ⟨K.val * 512 + j.val, by omega⟩ q) hk rfl)

end Cert.KernelIdeal.Pay

end
-- ==== Proof.KI.KSpec.lean ====
import proofs.«105388_j24962349924890_1_alg».proof.Proof.Gen.KernelIdeal
import proofs.«105388_j24962349924890_1_alg».proof.Proof.Spec
import Idealize.ShloMosaic.Lib.ValueIdx
import Idealize.ShloMosaic.PureOps.Ideal

noncomputable section

open scoped BigOperators

namespace Cert.KernelIdeal.Hand

open Cert.KernelIdeal Idealize.ShloMosaic Idealize.ShloMosaic.TcCoe Idealize.ShloMosaic.ValueIdx Idealize.SL.Sem

/-! # The output array as a function of the arrays the aggregation region is entered with

Row p of the output array is the descriptor row p followed by the pooled row p: the neighbour-weighted sum of `u` rows
plus the neighbour count times (the `v` row plus the first bias), times the second weight matrix, plus the count times
the second bias, all divided by 4096. Stated over the region's seven arrays as it finds them. -/

variable (V : (c : Dev nD) → (b : Ref sig .tc) → Buf (Elt Ideal) ((c : Thread nD τ).loc b))

/-- The region's arrays as it is entered, typed as arrays of extended reals. -/
abbrev cenA (c : Dev nD) : S4096x3.Idx → EReal := V c main_arg0
abbrev descA (c : Dev nD) : S4096x256.Idx → EReal := V c main_arg1
abbrev uuA (c : Dev nD) : S4096x256.Idx → EReal := V c main_v10_0
abbrev vvA (c : Dev nD) : S4096x256.Idx → EReal := V c main_v10_1
abbrev b1A (c : Dev nD) : S1x256.Idx → EReal := V c main_v11
abbrev cmA (c : Dev nD) : S256x256.Idx → EReal := V c main_v9
abbrev b2A (c : Dev nD) : S1x256.Idx → EReal := V c main_v12

/-- The pooled row of anchor p, entry q. -/
def pooledK (c : Dev nD) (p : Fin 4096) (q : Fin 256) : EReal :=
  ((∑ s : Fin 256, ((∑ k : Fin 4096, Cert.Spec.M (cenA V c) p k * uuA V c (ix2 k s))
        + Cert.Spec.deg (cenA V c) p * (vvA V c (ix2 p s) + b1A V c (ix2 0 s))) * cmA V c (ix2 s q))
      + Cert.Spec.deg (cenA V c) p * b2A V c (ix2 0 q)) * ((1 / 4096 : ℝ) : EReal)

/-- The output array: descriptor row, then pooled row. -/
def GK (c : Dev nD) : S4096x512.Idx → EReal := fun i =>
  if h : (i 1).val < 256 then descA V c (ix2 (i 0) ⟨(i 1).val, h⟩)
  else pooledK V c (i 0) ⟨(i 1).val - 256, by have := idx2_lt1 i; omega⟩

end Cert.KernelIdeal.Hand

end
-- ==== Proof.LibRelCover.lean ====
/-
  Relational pipeline proof data whose every write-back is DETERMINED ends at the covering function.

  For proof data that only RELATES what the body is handed in a window's staging buffer to what it leaves there
  (an output block written in parts over several grid points, so that what it holds in between depends on what it held
  before), the array after the region is constrained, not named. When, at every point that writes the block back,
  whatever the body may have left there has ONE moved part — the block of a function `G` of the array's index — and the
  flushed blocks cover the array, the array can only end holding `G`. The proof compares the relational data with exact
  data built from `G` (whose body leaves `G`'s block at every point), write-back by write-back, and then reads the exact
  data's final array by the covering lemma. Any configuration, any window, any element type.
-/
import Idealize.ShloMosaic.Lib.Pipeline.Value
import Idealize.ShloMosaic.Lib.Pipeline.Cells

noncomputable section

namespace Cert.RelCover

open Idealize.ShloMosaic Idealize.ShloMosaic.Pipeline Idealize.SL Idealize.SL.RA Idealize.SL.Sem
open TcCoe

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD}

/-- Exact proof data whose body leaves, in every window's buffer at every point, that point's block of `GG`. -/
def datOf [∀ e, Nonempty (Val e)] (rd : RDat τ Val Ix Name U Lvl cfg c)
    (GG : (w : Fin cfg.W) → Buf Val ((cfg.win w).arr.view.loc (c.tc : Thread nD τ))) : Dat τ Val Ix Name U Lvl cfg c where
  A := rd.A
  after w t := (cfg.win w).fill (cfg.grid.coords t) (fun _ => Classical.arbitrary _) (((cfg.win w).blk t).view.read Val (GG w))
  Φ := rd.Φ
  q := rd.q
  owed := rd.owed

/-- What its write-back at point `t` writes is that block. -/
theorem datOf_flushed [∀ e, Nonempty (Val e)] (rd : RDat τ Val Ix Name U Lvl cfg c)
    (GG : (w : Fin cfg.W) → Buf Val ((cfg.win w).arr.view.loc (c.tc : Thread nD τ))) (w : Fin cfg.W) (t : Fin cfg.N) :
    (datOf rd GG).flushed w t = ((cfg.win w).blk t).view.read Val (GG w) :=
  (cfg.win w).cut_fill _ _ _

/-- Relational data whose flushed blocks agree with exact data's, and that start from the same array, can only reach
    the exact data's array: by induction on the write-backs. -/
theorem ArrAt_eq_arrAt (rd : RDat τ Val Ix Name U Lvl cfg c) (dat : Dat τ Val Ix Name U Lvl cfg c) (w : Fin cfg.W)
    (hA : rd.A w = dat.A w)
    (h : ∀ (t : Fin cfg.N) X, (cfg.win w).flush t = true → rd.Leaves w t X → (cfg.win w).cut (cfg.grid.coords t) X = dat.flushed w t) :
    ∀ (n : Nat) (F : Buf Val ((cfg.win w).arr.view.loc (c.tc : Thread nD τ))), rd.ArrAt w n F → F = dat.arrAt w n
  | 0, _, hF => hF.trans hA
  | n + 1, F, hF => by
    by_cases ht : n < cfg.N
    · have hR := rd.ArrAt_succ w ⟨n, ht⟩
      have hD := dat.arrAt_succ w ⟨n, ht⟩
      dsimp only at hR hD
      rw [hR] at hF; rw [hD]
      by_cases hfl : (cfg.win w).flush ⟨n, ht⟩ = true
      · rw [if_pos hfl] at hF ⊢
        obtain ⟨F₀, X, hF₀, hX, rfl⟩ := hF
        rw [ArrAt_eq_arrAt rd dat w hA h n F₀ hF₀, h ⟨n, ht⟩ X hfl hX]
      · rw [if_neg hfl] at hF ⊢; exact ArrAt_eq_arrAt rd dat w hA h n F hF
    · have hN : cfg.N ≤ n := Nat.not_lt.mp ht
      rw [rd.ArrAt_stable w (n + 1) (by omega), ← rd.ArrAt_stable w n hN] at hF
      rw [dat.arrAt_stable w (n + 1) (by omega), ← dat.arrAt_stable w n hN]
      exact ArrAt_eq_arrAt rd dat w hA h n F hF

/-- THE WHOLE-ARRAY POST for relational data: if at every point that writes window `w`'s block back whatever the body
    may have left has the block of `G` as its moved part, and the flushed blocks cover the array, the array ends holding `G`. -/
theorem ArrAt_eq_of_cover [∀ e, Nonempty (Val e)] (rd : RDat τ Val Ix Name U Lvl cfg c) (w : Fin cfg.W)
    (G : Buf Val ((cfg.win w).arr.view.loc (c.tc : Thread nD τ)))
    (hG : ∀ (t : Fin cfg.N) X, (cfg.win w).flush t = true → rd.Leaves w t X
      → (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G := by
  have hGG : Function.update rd.A w G w = G := Function.update_self ..
  have hfl : ∀ t, (datOf rd (Function.update rd.A w G)).flushed w t = ((cfg.win w).blk t).view.read Val G := fun t => by
    rw [datOf_flushed, hGG]
  rw [ArrAt_eq_arrAt rd (datOf rd (Function.update rd.A w G)) w rfl (fun t X hf hX => (hG t X hf hX).trans (hfl t).symm) cfg.N F hF]
  exact (datOf rd (Function.update rd.A w G)).arrAt_eq_of_cover w G (fun t _ => hfl t) hcover

end Cert.RelCover

end
-- ==== Proof.KI.Value8.lean ====
import proofs.«105388_j24962349924890_1_alg».proof.Proof.Gen.KernelIdeal.Launch
import proofs.«105388_j24962349924890_1_alg».proof.Proof.Gen.KernelIdeal.Skeleton
import proofs.«105388_j24962349924890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«105388_j24962349924890_1_alg».proof.Proof.KI.Frame1
import proofs.«105388_j24962349924890_1_alg».proof.Proof.KI.Out8
import proofs.«105388_j24962349924890_1_alg».proof.Proof.KI.Blocks1
import proofs.«105388_j24962349924890_1_alg».proof.Proof.KI.Pay1
import proofs.«105388_j24962349924890_1_alg».proof.Proof.KI.Acc1
import proofs.«105388_j24962349924890_1_alg».proof.Proof.KI.KSpec
import Idealize.ShloMosaic.Lib.Pipeline.Value
import Idealize.ShloMosaic.Lib.ValueIdx
import proofs.«105388_j24962349924890_1_alg».proof.Proof.LibRelCover
import proofs.«105388_j24962349924890_1_alg».proof.Proof.Spec
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx Cert.KernelIdeal.Pay

/-! # The output array after the aggregation region, as a function of the arrays it is entered with

Row p of the output array is the descriptor row p followed by the pooled row p: the neighbour-weighted sum of `u` rows
plus the neighbour count times (the `v` row plus the first bias), times the second weight matrix, plus the count times
the second bias, all divided by 4096. The last point of each row block writes the block back, determined as above, and
the eight row blocks tile the array; so whatever the relational data allow the array to hold after the region is this
function. On the extended reals throughout. -/

variable (V : (c : Dev nD) → (b : Ref sig .tc) → Buf (Elt Ideal) ((c : Thread nD τ).loc b))

/-- At a point that writes the output block back, whatever the body may have left is that row block of `GK`. -/
theorem flushed8 (c : Dev nD) (t : Fin cfg1.N) (X : Vec Ideal S512x512 .f32) (hfl : (cfg1.win 8).flush t = true)
    (hX : (rdat1 V c).Leaves 8 t X) :
    (cfg1.win 8).cut (grid1.coords t) X = ((cfg1.win 8).blk t).view.read (Elt Ideal) (GK V c) := by
  have h7 : t.val % 8 = 7 := (flush1_8 t).mp hfl
  have hN : t.val < 64 := lt_of_lt_of_eq t.isLt (show cfg1.N = 64 from N_1)
  obtain ⟨Z, rfl⟩ := leaves8_last V c t h7 X hX
  funext j
  obtain ⟨r, qq, rfl⟩ : ∃ (r : Fin 512) (qq : Fin 512), j = ix2 r qq := ⟨j 0, j 1, eq_ix2 j⟩
  let p : Fin 4096 := ⟨(t.val / 8) * 512 + r.val, by have := r.isLt; omega⟩
  have hp : p.val = (t.val / 8) * 512 + r.val := rfl
  show rR.overlay (rL.overlay Z (iblk1 V c 4 t)) _ (ix2 r qq) = GK V c (((cfg1.win 8).blk t).view.emb (ix2 r qq))
  rw [emb8_eq t (ix2 r qq) (ix2 p qq) rfl rfl, two_halves_apply]
  show _ = (if h : qq.val < 256 then descA V c (ix2 p ⟨qq.val, h⟩) else pooledK V c p ⟨qq.val - 256, _⟩)
  by_cases h : qq.val < 256
  · rw [dif_pos h, dif_pos h]
    exact blk1_4_eq V c t _ _ rfl rfl
  · rw [dif_neg h, dif_neg h]
    rw [pay3_apply]
    unfold pooledK
    rw [deg_last V c t h7 r p hp]
    refine congrArg (· * ((1 / 4096 : ℝ) : EReal)) (congrArg₂ (· + ·) (Finset.sum_congr rfl fun s _ => ?_) ?_)
    · rw [mu_last V c t h7 r s p hp]
      refine congrArg₂ (· * ·) (congrArg₂ (· + ·) rfl (congrArg₂ (· * ·) rfl (congrArg₂ (· + ·) ?_ ?_))) ?_
      · exact blk1_3_eq V c t _ _ rfl rfl
      · exact blk1_5_eq V c t _ _ rfl rfl
      · exact blk1_6_eq V c t _ _ (by omega) rfl
    · exact congrArg₂ (· * ·) rfl (blk1_7_eq V c t _ _ rfl rfl)

/-- THE OUTPUT ARRAY AFTER THE REGION: whatever the relational data allow it to hold is `GK`. -/
theorem out_eq (c : Dev nD) (F8 : Buf (Elt Ideal) ((c : Thread nD τ).loc main_v13)) (h : (rdat1 V c).ArrAt 8 cfg1.N F8) :
    F8 = GK V c :=
  Cert.RelCover.ArrAt_eq_of_cover (rdat1 V c) 8 (GK V c) (fun t X hfl hX => flushed8 V c t X hfl hX) cover8 F8 h

end Cert.KernelIdeal.Hand

end
-- ==== Proof.KI.Region0Value.lean ====
import proofs.«105388_j24962349924890_1_alg».proof.Proof.KI.Region0
import proofs.«105388_j24962349924890_1_alg».proof.Proof.LibPlainDot
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # The two output arrays after the first call, as functions of the arrays it is entered with

Point `t` of the call writes rows `1024·t … 1024·t + 1023` of each output array, and the four points' blocks of rows
tile the 4096 rows. What a point writes is the product of its block of descriptor rows with a weight matrix, so
entry `(r, k)` of an output array ends as `Σ_{s < 256} x[r, s] · A[s, k]`: the whole descriptor array times the weight
matrix. All of it on the extended reals, where rounding an operand to a narrower format changes nothing. -/

-- what the core's arrays hold when the call is entered
variable (V : (c : Dev nD) → (b : Ref sig .tc) → Buf (Elt Ideal) ((c : Thread nD τ).loc b))

/-- The offsets `[0, 0]` are zero on both axes. -/
theorem uv_zero_off : (![0, 0] : Fin 2 → Nat) = fun _ => 0 := funext fun a => by fin_cases a <;> rfl

/-- A 4096 × 256 array times a 256 × 256 matrix, entry by entry. -/
abbrev uvProd (a : S4096x256.Idx → Elt Ideal .f32) (b : S256x256.Idx → Elt Ideal .f32) : S4096x256.Idx → Elt Ideal .f32 :=
  fun i => ∑ s : Fin 256, a (ix2 (i 0) s) * b (ix2 s (i 1))

/-- The product at an entry: row `i₀` of the array against column `i₁` of the matrix. -/
theorem uvProd_apply (a : S4096x256.Idx → Elt Ideal .f32) (b : S256x256.Idx → Elt Ideal .f32) (i : S4096x256.Idx) :
    uvProd a b i = ∑ s : Fin 256, a (ix2 (i 0) s) * b (ix2 s (i 1)) := rfl

/-- The product at entry `(r, k)`. -/
theorem uvProd_ix2 (a : S4096x256.Idx → Elt Ideal .f32) (b : S256x256.Idx → Elt Ideal .f32) (r : Fin 4096) (k : Fin 256) :
    uvProd a b (ix2 r k) = ∑ s : Fin 256, a (ix2 r s) * b (ix2 s k) := rfl

/-! ## What the body computes, at an entry -/

/-- The dimension numbers of the body's products are those of a plain matrix product. -/
theorem uvPlain : Cert.PlainDot.IsPlain dot_S1024x256_S256x256_S1024x256_1_0_0_1_n_n := ⟨rfl, rfl, rfl, rfl, rfl, rfl⟩

/-- Entry `(p, k)` of the first product: row `p` of the block of rows against column `k` of the first weight matrix. -/
theorem uvPayU_apply (x0 : Vec Ideal S1024x256 .f32) (x1 : Vec Ideal S256x256 .f32) (p : Fin 1024) (k : Fin 256) :
    k0_pay2 x0 x1 (ix2 p k) = ∑ s : Fin 256, x0 (ix2 p s) * x1 (ix2 s k) := by
  unfold k0_pay2 k0_pay1
  rw [shapeCast_self]
  exact Cert.PlainDot.matmul_zero_apply uvPlain none _ _ p k

/-- Entry `(p, k)` of the second product: row `p` of the block of rows against column `k` of the second weight matrix. -/
theorem uvPayV_apply (x0 : Vec Ideal S1024x256 .f32) (x2 : Vec Ideal S256x256 .f32) (p : Fin 1024) (k : Fin 256) :
    k0_pay3 x0 x2 (ix2 p k) = ∑ s : Fin 256, x0 (ix2 p s) * x2 (ix2 s k) := by
  unfold k0_pay3 k0_pay1
  rw [shapeCast_self]
  exact Cert.PlainDot.matmul_zero_apply uvPlain none _ _ p k

/-! ## Where the blocks sit in their arrays -/

/-- The block indices, decided over the four points: the descriptor window and the two output windows are at block
    row `t`, block column 0; the weight windows are at block (0, 0) throughout. -/
theorem uvIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry `y` of the block of rows at point `t` is entry `(1024·t + y₀, y₁)` of the descriptor array. -/
theorem uvBlk_rows_eq (c : Dev nD) (t : Fin cfg0.N) (y : S1024x256.Idx) (i : S4096x256.Idx)
    (h0 : (i 0).val = t.val * 1024 + (y 0).val) (h1 : (i 1).val = (y 1).val) :
    uvBlk V c 0 t y = V c main_arg1 i := by
  obtain ⟨e00, e01, -⟩ := uvIdx t
  have e : ((cfg0.win 0).blk t).view.emb y = i := by
    funext a; apply Fin.ext
    match a with
    | ⟨0, _⟩ => show win0_0.index t (0 : Fin 2) * 1024 + 1 * (y 0).val = (i 0).val; omega
    | ⟨1, _⟩ => show win0_0.index t (1 : Fin 2) * 256 + 1 * (y 1).val = (i 1).val; omega
  show V c main_arg1 (((cfg0.win 0).blk t).view.emb y) = V c main_arg1 i
  rw [e]

/-- The first weight window's block is the whole first weight matrix, at every point. -/
theorem uvBlk_wA_eq (c : Dev nD) (t : Fin cfg0.N) (y : S256x256.Idx) : uvBlk V c 1 t y = V c main_v3 y := by
  obtain ⟨-, -, e10, e11, -⟩ := uvIdx t
  have e : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 256 + 1 * (y 1).val = (y 1).val; omega
  show V c main_v3 (((cfg0.win 1).blk t).view.emb y) = V c main_v3 y
  rw [e]

/-- The second weight window's block is the whole second weight matrix, at every point. -/
theorem uvBlk_wB_eq (c : Dev nD) (t : Fin cfg0.N) (y : S256x256.Idx) : uvBlk V c 2 t y = V c main_v5 y := by
  obtain ⟨-, -, -, -, e20, e21, -⟩ := uvIdx t
  have e : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 256 + 1 * (y 1).val = (y 1).val; omega
  show V c main_v5 (((cfg0.win 2).blk t).view.emb y) = V c main_v5 y
  rw [e]

/-! ## What a point writes back is its block of rows of the whole product -/

/-- The first output: point `t` writes back block `t` of the descriptor array times the first weight matrix. -/
theorem uvFlushedU (c : Dev nD) (t : Fin cfg0.N) :
    (dat0 V c).flushed 3 t = ((cfg0.win 3).blk t).view.read (Elt Ideal) (uvProd (V c main_arg1) (V c main_v3)) := by
  show (cfg0.win 3).cut (grid0.coords t) ((dat0 V c).after 3 t) = _
  rw [uvAfter_u]
  unfold uvOutU
  rw [View.canon_unit_zero uv_zero_off]
  simp only [View.ld_unit_zero (S := S1024x256) uv_zero_off, View.ld_unit_zero (S := S256x256) uv_zero_off]
  obtain ⟨-, -, -, -, -, -, e30, e31, -⟩ := uvIdx t
  funext j
  obtain ⟨p, k, rfl⟩ : ∃ (p : Fin 1024) (k : Fin 256), j = ix2 p k := ⟨j 0, j 1, eq_ix2 j⟩
  show k0_pay2 (uvBlk V c 0 t) (uvBlk V c 1 t) (ix2 p k)
    = uvProd (V c main_arg1) (V c main_v3) (((cfg0.win 3).blk t).view.emb (ix2 p k))
  refine (uvPayU_apply _ _ p k).trans (Finset.sum_congr rfl fun s _ => ?_)
  rw [uvBlk_wA_eq]
  refine congrArg₂ (· * ·) (uvBlk_rows_eq V c t _ _ ?_ rfl) (congrArg (V c main_v3) ?_)
  · show win0_3.index t (0 : Fin 2) * 1024 + 1 * p.val = t.val * 1024 + p.val; omega
  · funext a; apply Fin.ext
    match a with
    | ⟨0, _⟩ => rfl
    | ⟨1, _⟩ => show k.val = win0_3.index t (1 : Fin 2) * 256 + 1 * k.val; omega

/-- The second output: point `t` writes back block `t` of the descriptor array times the second weight matrix. -/
theorem uvFlushedV (c : Dev nD) (t : Fin cfg0.N) :
    (dat0 V c).flushed 4 t = ((cfg0.win 4).blk t).view.read (Elt Ideal) (uvProd (V c main_arg1) (V c main_v5)) := by
  show (cfg0.win 4).cut (grid0.coords t) ((dat0 V c).after 4 t) = _
  rw [uvAfter_v]
  unfold uvOutV
  rw [View.canon_unit_zero uv_zero_off]
  simp only [View.ld_unit_zero (S := S1024x256) uv_zero_off, View.ld_unit_zero (S := S256x256) uv_zero_off]
  obtain ⟨-, -, -, -, -, -, -, -, e40, e41⟩ := uvIdx t
  funext j
  obtain ⟨p, k, rfl⟩ : ∃ (p : Fin 1024) (k : Fin 256), j = ix2 p k := ⟨j 0, j 1, eq_ix2 j⟩
  show k0_pay3 (uvBlk V c 0 t) (uvBlk V c 2 t) (ix2 p k)
    = uvProd (V c main_arg1) (V c main_v5) (((cfg0.win 4).blk t).view.emb (ix2 p k))
  refine (uvPayV_apply _ _ p k).trans (Finset.sum_congr rfl fun s _ => ?_)
  rw [uvBlk_wB_eq]
  refine congrArg₂ (· * ·) (uvBlk_rows_eq V c t _ _ ?_ rfl) (congrArg (V c main_v5) ?_)
  · show win0_4.index t (0 : Fin 2) * 1024 + 1 * p.val = t.val * 1024 + p.val; omega
  · funext a; apply Fin.ext
    match a with
    | ⟨0, _⟩ => rfl
    | ⟨1, _⟩ => show k.val = win0_4.index t (1 : Fin 2) * 256 + 1 * k.val; omega

/-! ## The four blocks of rows tile the array -/

/-- An entry of the first output array is in point `t`'s block iff each coordinate is in the block's range. -/
theorem uvMemU (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v10_0).slice (win0_3.rect t)).set ↔ _
  rw [View.set_slice_whole, Rect.mem_set_unit]
  exact Iff.rfl

/-- An entry of the second output array likewise. -/
theorem uvMemV (t : Fin cfg0.N) (i : S4096x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v10_1).slice (win0_4.rect t)).set ↔ _
  rw [View.set_slice_whole, Rect.mem_set_unit]
  exact Iff.rfl

/-- The point whose block holds row `r` is `r / 1024`. -/
theorem uvPointOf (i : S4096x256.Idx) : ∃ t : Fin cfg0.N, t.val = (i 0).val / 1024 := by
  have hi0 : (i 0).val < 4096 := (i 0).isLt
  have hN : grid0.N = 4 := N_0
  exact ⟨⟨(i 0).val / 1024, by show (i 0).val / 1024 < grid0.N; omega⟩, rfl⟩

/-- Every entry of the first output array is in the block some point writes back. -/
theorem uvCoverU (i : S4096x256.Idx) : ∃ t : Fin cfg0.N, (cfg0.win 3).flush t = true ∧ i ∈ ((cfg0.win 3).blk t).view.set := by
  have hi1 : (i 1).val < 256 := (i 1).isLt
  obtain ⟨t, ht⟩ := uvPointOf i
  obtain ⟨-, -, -, -, -, -, e30, e31, -⟩ := uvIdx t
  refine ⟨t, flush0_3 t, ?_⟩
  rw [uvMemU]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- Every entry of the second output array is in the block some point writes back. -/
theorem uvCoverV (i : S4096x256.Idx) : ∃ t : Fin cfg0.N, (cfg0.win 4).flush t = true ∧ i ∈ ((cfg0.win 4).blk t).view.set := by
  have hi1 : (i 1).val < 256 := (i 1).isLt
  obtain ⟨t, ht⟩ := uvPointOf i
  obtain ⟨-, -, -, -, -, -, -, -, e40, e41⟩ := uvIdx t
  refine ⟨t, flush0_4 t, ?_⟩
  rw [uvMemV]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-! ## The output arrays after the call -/

/-- The first output array after the call: the descriptor array times the first weight matrix. -/
theorem arrAt0_3 (c : Dev nD) : (dat0 (F := Ideal) V c).arrAt 3 cfg0.N
    = uvProd (V c main_arg1) (V c main_v3) :=
  (dat0 V c).arrAt_eq_of_cover 3 (uvProd (V c main_arg1) (V c main_v3)) (fun t _ => uvFlushedU V c t) uvCoverU

/-- The second output array after the call: the descriptor array times the second weight matrix. -/
theorem arrAt0_4 (c : Dev nD) : (dat0 (F := Ideal) V c).arrAt 4 cfg0.N
    = uvProd (V c main_arg1) (V c main_v5) :=
  (dat0 V c).arrAt_eq_of_cover 4 (uvProd (V c main_arg1) (V c main_v5)) (fun t _ => uvFlushedV V c t) uvCoverV

end Cert.KernelIdeal.Hand

end
-- ==== Proof.KI.HostRead.lean ====
import proofs.«105388_j24962349924890_1_alg».proof.Proof.KI.Run0
import proofs.«105388_j24962349924890_1_alg».proof.Proof.KI.Region0Value
import proofs.«105388_j24962349924890_1_alg».proof.Proof.Spec
import proofs.«105388_j24962349924890_1_alg».proof.Proof.Gen.KernelIdeal.Regions
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! # What the host operations write, entry by entry, and the second call's inputs traced back to the launch

Before the first call the host cuts each 256 × 512 weight matrix into its left and right 256 × 256 halves and forms
transposes: of the first matrix's half-difference and right half, and of the second matrix's half-difference. Between
the calls it reshapes the two bias vectors into 1 × 256 rows. No operation and no call writes an argument. So every
array the second call reads is a function of the launch contents of the six arguments. -/

/-! ## The host's chains as functions of one array, read at an entry -/

/-- The transposed half-difference of a 256 × 512 matrix, as the host computes it: slice both halves, subtract, transpose. -/
def hostDiffT (W : FVec Ideal S256x512 .f32) : FVec Ideal S256x256 .f32 :=
  transpose S256x256 [1, 0]
    (subf (F := Ideal) (extractStridedSlice S256x256 ![0, 0] W slices_S256x512_S256x256_0_0)
      (extractStridedSlice S256x256 ![0, 256] W slices_S256x512_S256x256_0_256))
    transposes_S256x256_S256x256_1_0

/-- The transposed right half of a 256 × 512 matrix, as the host computes it: slice, transpose. -/
def hostRightT (W : FVec Ideal S256x512 .f32) : FVec Ideal S256x256 .f32 :=
  transpose S256x256 [1, 0] (extractStridedSlice S256x256 ![0, 256] W slices_S256x512_S256x256_0_256)
    transposes_S256x256_S256x256_1_0

/-- A vector of 256 entries as a 1 × 256 row. -/
def hostRow (b : FVec Ideal S256 .f32) : FVec Ideal S1x256 .f32 := shapeCast S1x256 b shapeCasts_S256_S1x256

/-- Entry (r, s) of the left half is entry (r, s) of the matrix. -/
theorem left_apply (W : FVec Ideal S256x512 .f32) (r s : Fin 256) :
    extractStridedSlice S256x256 ![0, 0] W slices_S256x512_S256x256_0_0 (ix2 r s) = W (ix2 r (Cert.Spec.lo s)) :=
  extractStridedSlice_apply _ _ _ (ix2 r s) (ix2 r (Cert.Spec.lo s)) fun a => by
    match a with
    | ⟨0, _⟩ => show r.val = 0 + r.val; omega
    | ⟨1, _⟩ => show s.val = 0 + s.val; omega

/-- Entry (r, s) of the right half is entry (r, 256 + s) of the matrix. -/
theorem right_apply (W : FVec Ideal S256x512 .f32) (r s : Fin 256) :
    extractStridedSlice S256x256 ![0, 256] W slices_S256x512_S256x256_0_256 (ix2 r s) = W (ix2 r (Cert.Spec.hi s)) :=
  extractStridedSlice_apply _ _ _ (ix2 r s) (ix2 r (Cert.Spec.hi s)) fun a => by
    match a with
    | ⟨0, _⟩ => show r.val = 0 + r.val; omega
    | ⟨1, _⟩ => show s.val + 256 = 256 + s.val; omega

/-- The transposed half-difference at (s, r): entry (r, s) of the left half minus entry (r, s) of the right half. -/
theorem hostDiffT_apply (W : FVec Ideal S256x512 .f32) (s r : Fin 256) : hostDiffT W (ix2 s r) = Cert.Spec.diffT W s r := by
  unfold hostDiffT
  refine (transpose_apply _ _ _ (ix2 s r) (ix2 r s) fun b => ?_).trans ?_
  · match b with
    | ⟨0, _⟩ => rfl
    | ⟨1, _⟩ => rfl
  rw [subf_apply, left_apply, right_apply]
  rfl

/-- The transposed right half at (s, r): entry (r, s) of the right half. -/
theorem hostRightT_apply (W : FVec Ideal S256x512 .f32) (s r : Fin 256) : hostRightT W (ix2 s r) = Cert.Spec.rightT W s r := by
  unfold hostRightT
  refine (transpose_apply _ _ _ (ix2 s r) (ix2 r s) fun b => ?_).trans ?_
  · match b with
    | ⟨0, _⟩ => rfl
    | ⟨1, _⟩ => rfl
  rw [right_apply]
  rfl

/-- Entry (0, k) of the row is entry k of the vector. -/
theorem hostRow_apply (b : FVec Ideal S256 .f32) (z : Fin 1) (k : Fin 256) : hostRow b (ix2 z k) = b (ix1 k) := by
  unfold hostRow
  refine shapeCast_apply b _ (ix2 z k) (ix1 k) ?_
  rw [Shape.rowMajor_val_one, Shape.rowMajor_val_two]
  show k.val = z.val * 256 + k.val
  have hz : z.val < 1 := z.isLt
  omega

/-! ## What each item of the program leaves alone -/

variable (m : (ℓ : Loc nD τ sig) → Buf (Elt Ideal) ℓ) (ρ : Dev nD → PrngReg) (c : Dev nD)

/-- A buffer the first stretch of host operations does not write holds its launch contents at the first call. -/
theorem host0_keeps (r : Ref sig .tc) (h : r ∉ hostOps0_W) : V1 m ρ c r = m ((c : Thread nD τ).loc r) :=
  StableHlo.after_of_writes_sub hostOps0 _ hostOps0_writes h

/-- A buffer that is no window's array of the first call holds after it what it held before. -/
theorem call0_keeps (r : Ref sig .tc) (h : ∀ w, Pipeline.arrRef spec0 w ≠ r) : V2 m ρ c r = V1 m ρ c r :=
  W2_of_ne m ρ c r h

/-- A buffer the second stretch of host operations does not write holds at the second call what the first call left. -/
theorem host1_keeps (r : Ref sig .tc) (h : r ∉ hostOps1_W) : V3 m ρ c r = V2 m ρ c r :=
  StableHlo.after_of_writes_sub hostOps1 _ hostOps1_writes h

/-! ## The arguments -/

/-- The centres reach the second call as launched. -/
theorem V3_arg0 : V3 m ρ c main_arg0 = m ((c : Thread nD τ).loc main_arg0) :=
  (host1_keeps m ρ c main_arg0 (by decide)).trans <|
    (call0_keeps m ρ c main_arg0 (by decide)).trans <| host0_keeps m ρ c main_arg0 (by decide)

/-- The descriptors are an input of the first call, which writes no input: they are as launched when it starts, -/
theorem V1_arg1 : V1 m ρ c main_arg1 = m ((c : Thread nD τ).loc main_arg1) := host0_keeps m ρ c main_arg1 (by decide)

/-- and reach the second call as launched. -/
theorem V3_arg1 : V3 m ρ c main_arg1 = m ((c : Thread nD τ).loc main_arg1) :=
  (host1_keeps m ρ c main_arg1 (by decide)).trans <|
    (W2_arr m ρ c 0).trans <| (arrAt0_in (V1 m ρ) c 0 rfl cfg0.N).trans <| V1_arg1 m ρ c

/-! ## The three weight matrices and the two bias rows -/

/-- The first call's first weight matrix is the first argument matrix's transposed half-difference. -/
theorem V1_v3 : (V1 m ρ c main_v3 : S256x256.Idx → EReal)
    = fun i => Cert.Spec.diffT (m ((c : Thread nD τ).loc main_arg2)) (i 0) (i 1) := by
  have e : V1 m ρ c main_v3 = hostDiffT (m ((c : Thread nD τ).loc main_arg2)) := by
    show StableHlo.after hostOps0 (W0 m ρ c) (Proc.devRef .tc main_v3) = _
    after_results
    rfl
  rw [e]
  funext i
  obtain ⟨s, r, rfl⟩ : ∃ (s r : Fin 256), i = ix2 s r := ⟨i 0, i 1, eq_ix2 i⟩
  exact hostDiffT_apply _ s r

/-- The first call's second weight matrix is the first argument matrix's transposed right half. -/
theorem V1_v5 : (V1 m ρ c main_v5 : S256x256.Idx → EReal)
    = fun i => Cert.Spec.rightT (m ((c : Thread nD τ).loc main_arg2)) (i 0) (i 1) := by
  have e : V1 m ρ c main_v5 = hostRightT (m ((c : Thread nD τ).loc main_arg2)) := by
    show StableHlo.after hostOps0 (W0 m ρ c) (Proc.devRef .tc main_v5) = _
    after_results
    rfl
  rw [e]
  funext i
  obtain ⟨s, r, rfl⟩ : ∃ (s r : Fin 256), i = ix2 s r := ⟨i 0, i 1, eq_ix2 i⟩
  exact hostRightT_apply _ s r

/-- The second call's weight matrix is the second argument matrix's transposed half-difference. -/
theorem V3_v9 : (V3 m ρ c main_v9 : S256x256.Idx → EReal)
    = fun i => Cert.Spec.diffT (m ((c : Thread nD τ).loc main_arg4)) (i 0) (i 1) := by
  have e : V3 m ρ c main_v9 = hostDiffT (m ((c : Thread nD τ).loc main_arg4)) := by
    refine (host1_keeps m ρ c main_v9 (by decide)).trans <| (call0_keeps m ρ c main_v9 (by decide)).trans ?_
    show StableHlo.after hostOps0 (W0 m ρ c) (Proc.devRef .tc main_v9) = _
    after_results
    rfl
  rw [e]
  funext i
  obtain ⟨s, r, rfl⟩ : ∃ (s r : Fin 256), i = ix2 s r := ⟨i 0, i 1, eq_ix2 i⟩
  exact hostDiffT_apply _ s r

/-- A bias vector reaches the second stretch of host operations as launched. -/
theorem V2_arg3 : V2 m ρ c main_arg3 = m ((c : Thread nD τ).loc main_arg3) :=
  (call0_keeps m ρ c main_arg3 (by decide)).trans <| host0_keeps m ρ c main_arg3 (by decide)
theorem V2_arg5 : V2 m ρ c main_arg5 = m ((c : Thread nD τ).loc main_arg5) :=
  (call0_keeps m ρ c main_arg5 (by decide)).trans <| host0_keeps m ρ c main_arg5 (by decide)

/-- The first bias row is the first bias vector. -/
theorem V3_v11 : (V3 m ρ c main_v11 : S1x256.Idx → EReal) = fun i => m ((c : Thread nD τ).loc main_arg3) (ix1 (i 1)) := by
  have e : V3 m ρ c main_v11 = hostRow (V2 m ρ c main_arg3) := by
    show StableHlo.after hostOps1 (W2 m ρ c) (Proc.devRef .tc main_v11) = _
    after_results
    rfl
  rw [e, V2_arg3]
  funext i
  obtain ⟨z, k, rfl⟩ : ∃ (z : Fin 1) (k : Fin 256), i = ix2 z k := ⟨i 0, i 1, eq_ix2 i⟩
  exact hostRow_apply _ z k

/-- The second bias row is the second bias vector. -/
theorem V3_v12 : (V3 m ρ c main_v12 : S1x256.Idx → EReal) = fun i => m ((c : Thread nD τ).loc main_arg5) (ix1 (i 1)) := by
  have e : V3 m ρ c main_v12 = hostRow (V2 m ρ c main_arg5) := by
    show StableHlo.after hostOps1 (W2 m ρ c) (Proc.devRef .tc main_v12) = _
    after_results
    rfl
  rw [e, V2_arg5]
  funext i
  obtain ⟨z, k, rfl⟩ : ∃ (z : Fin 1) (k : Fin 256), i = ix2 z k := ⟨i 0, i 1, eq_ix2 i⟩
  exact hostRow_apply _ z k

/-! ## The first call's two outputs -/

/-- The first output: the descriptors times the first matrix's transposed half-difference. -/
theorem V3_v10_0 : (V3 m ρ c main_v10_0 : S4096x256.Idx → EReal)
    = fun i => Cert.Spec.u (m ((c : Thread nD τ).loc main_arg1)) (m ((c : Thread nD τ).loc main_arg2)) (i 0) (i 1) := by
  have e : V3 m ρ c main_v10_0 = uvProd (V1 m ρ c main_arg1) (V1 m ρ c main_v3) :=
    (host1_keeps m ρ c main_v10_0 (by decide)).trans <| (W2_arr m ρ c 3).trans (arrAt0_3 (V1 m ρ) c)
  rw [e, V1_arg1, V1_v3]
  rfl

/-- The second output: the descriptors times the first matrix's transposed right half. -/
theorem V3_v10_1 : (V3 m ρ c main_v10_1 : S4096x256.Idx → EReal)
    = fun i => Cert.Spec.v (m ((c : Thread nD τ).loc main_arg1)) (m ((c : Thread nD τ).loc main_arg2)) (i 0) (i 1) := by
  have e : V3 m ρ c main_v10_1 = uvProd (V1 m ρ c main_arg1) (V1 m ρ c main_v5) :=
    (host1_keeps m ρ c main_v10_1 (by decide)).trans <| (W2_arr m ρ c 4).trans (arrAt0_4 (V1 m ρ) c)
  rw [e, V1_arg1, V1_v5]
  rfl

end Cert.KernelIdeal.Hand

end
-- ==== Proof.KI.Bridge.lean ====
import proofs.«105388_j24962349924890_1_alg».proof.Proof.KI.KSpec
import proofs.«105388_j24962349924890_1_alg».proof.Proof.KI.HostRead

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

/-! # The kernel's function of the aggregation region's arrays is the specification's function of the arguments

The region's seven arrays are the centres and the descriptors as launched, `u` and `v` as the first call computed them
(the descriptors times the first weight matrix's transposed half-difference and right half), the two bias vectors as
rows, and the second weight matrix's transposed half-difference. Substituting these into the kernel's output function
gives, term by term, the specification's. -/

variable (m : (ℓ : Loc nD τ sig) → Buf (Elt Ideal) ℓ) (ρ : Dev nD → PrngReg) (c : Dev nD)

theorem cenA_eq : cenA (V3 m ρ) c = (m ((c : Thread nD τ).loc main_arg0)) := V3_arg0 m ρ c
theorem descA_eq : descA (V3 m ρ) c = (m ((c : Thread nD τ).loc main_arg1)) := V3_arg1 m ρ c
theorem uuA_eq : uuA (V3 m ρ) c = fun i => Cert.Spec.u (m ((c : Thread nD τ).loc main_arg1)) (m ((c : Thread nD τ).loc main_arg2)) (i 0) (i 1) := V3_v10_0 m ρ c
theorem vvA_eq : vvA (V3 m ρ) c = fun i => Cert.Spec.v (m ((c : Thread nD τ).loc main_arg1)) (m ((c : Thread nD τ).loc main_arg2)) (i 0) (i 1) := V3_v10_1 m ρ c
theorem b1A_eq : b1A (V3 m ρ) c = fun i => (m ((c : Thread nD τ).loc main_arg3)) (ix1 (i 1)) := V3_v11 m ρ c
theorem cmA_eq : cmA (V3 m ρ) c = fun i => Cert.Spec.diffT (m ((c : Thread nD τ).loc main_arg4)) (i 0) (i 1) := V3_v9 m ρ c
theorem b2A_eq : b2A (V3 m ρ) c = fun i => (m ((c : Thread nD τ).loc main_arg5)) (ix1 (i 1)) := V3_v12 m ρ c

theorem GK_eq_G : GK (V3 m ρ) c
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  unfold GK Cert.Spec.G
  by_cases h : (i 1).val < 256
  · rw [dif_pos h, dif_pos h, descA_eq m ρ c]
  · rw [dif_neg h, dif_neg h]
    unfold pooledK Cert.Spec.pooled Cert.Spec.h Cert.Spec.Mu
    rw [cenA_eq m ρ c, uuA_eq m ρ c, vvA_eq m ρ c, b1A_eq m ρ c, cmA_eq m ρ c, b2A_eq m ρ c]

end Cert.KernelIdeal.Hand

end
-- ==== Proof.lean ====
/-
  The certificate of the graph-convolution neck: a Pallas implementation in two kernel launches against its plain
  jnp reference, equal as extended reals.

  Both programs compute, for 4096 anchors with centres in 3-space and 256-entry descriptors, the output row
  [descriptor row | pooled row], where with M[a,k] = 1 when centre k is within the radius 1/8 of centre a and k ≠ a,
  deg = M's row sums, u = x·(W1a − W1b)ᵀ and v = x·W1bᵀ, the pooled row is
  ((M·u + deg·(v + b1))·(W2a − W2b)ᵀ + deg·b2) / 4096 (Proof/Spec.lean).

  The reference is host operations only; its run and its operations read at an index are generated, and
  Proof/RefMask.lean, RefDense.lean, RefValue.lean show its result is the specification's function.

  The kernel program is two regions among host operations. The first computes u and v block of rows by block of rows
  (Proof/KI/Region0.lean: what a point leaves; Region0Value.lean: the two arrays as whole products). The second runs
  over an 8 × 8 grid of (anchor block, neighbour block): it accumulates M·u and deg in two scratch buffers over the
  eight neighbour blocks and writes the output block in halves, the descriptors at the first and the pooled rows at the
  last neighbour block (Proof/KI/Body1.lean: the body in its three cases; Frame1.lean: the buffers from point to point,
  as a relation since the half not yet written is arbitrary; Out8.lean: at the last point the block is nevertheless
  determined; Pay1.lean, Acc1.lean: the arithmetic at an entry and the accumulators as whole sums; Value8.lean: the
  output array). Two of its windows read the centres' array, whose share is split between them (Shared1.lean).
  Run0.lean and Run1.lean compose the four items of @main; HostRead.lean traces every array the second region reads
  back to the arguments, and Bridge.lean substitutes them. Summing a row's neighbours block by block or all at once,
  and multiplying by 2⁻¹² or dividing by 4096, are the same on the extended reals; nothing here needs the inputs finite.

  The word-level program's frame is the same text read at the bit-exact instance (Proof/K/).
-/
import proofs.«105388_j24962349924890_1_alg».proof.Defs
import proofs.«105388_j24962349924890_1_alg».proof.Proof.Gen.Kernel
import proofs.«105388_j24962349924890_1_alg».proof.Proof.Gen.KernelIdeal
import proofs.«105388_j24962349924890_1_alg».proof.Proof.Gen.ReferenceIdeal
import proofs.«105388_j24962349924890_1_alg».proof.Proof.Gen.Pre_finite_inputs
import proofs.«105388_j24962349924890_1_alg».proof.Proof.Gen.ReferenceIdeal.Run
import proofs.«105388_j24962349924890_1_alg».proof.Proof.Gen.ReferenceIdeal.Read
import proofs.«105388_j24962349924890_1_alg».proof.Proof.RefValue
import proofs.«105388_j24962349924890_1_alg».proof.Proof.K.FrameOf
import proofs.«105388_j24962349924890_1_alg».proof.Proof.KI.FrameOf
import proofs.«105388_j24962349924890_1_alg».proof.Proof.KI.Value8
import proofs.«105388_j24962349924890_1_alg».proof.Proof.KI.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) := fun m ρ _ => Cert.Kernel.Hand.frame_post (F := Bits) m ρ

/-- So does its idealization. -/
theorem frame_ki : Cert.frame_KernelIdeal (hKernelIdeal := Cert.KernelIdeal.Gen.facts) (hPre_finite_inputs := Cert.Pre_finite_inputs.Gen.facts) := fun m ρ _ => Cert.KernelIdeal.Hand.frame_post (F := Ideal) m ρ

/-- The reference's frame is its generated run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both idealized programs end with the specification's function of their (agreeing) arguments in their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_main (F := Ideal) m ρ)
    obtain ⟨F8, hF8, hmem⟩ := h c
    exact ⟨(hmem _ (Cert.KernelIdeal.Hand.mem_uc Cert.KernelIdeal.main_v13 (by decide))).trans ((Cert.KernelIdeal.Hand.W4_out m ρ c F8).trans
        ((Cert.KernelIdeal.Hand.out_eq (Cert.KernelIdeal.Hand.V3 m ρ) c F8 hF8).trans (Cert.KernelIdeal.Hand.GK_eq_G m ρ c))),
      (hmem _ (Cert.KernelIdeal.Hand.mem_uc Cert.KernelIdeal.main_arg0 (by decide))).trans ((Cert.KernelIdeal.Hand.W4_of_ne m ρ c F8 Cert.KernelIdeal.main_arg0 (by decide)).trans (Cert.KernelIdeal.Hand.W3_arg0 m ρ c)),
      (hmem _ (Cert.KernelIdeal.Hand.mem_uc Cert.KernelIdeal.main_arg1 (by decide))).trans ((Cert.KernelIdeal.Hand.W4_of_ne m ρ c F8 Cert.KernelIdeal.main_arg1 (by decide)).trans (Cert.KernelIdeal.Hand.W3_arg1 m ρ c)),
      (hmem _ (Cert.KernelIdeal.Hand.mem_uc Cert.KernelIdeal.main_arg2 (by decide))).trans ((Cert.KernelIdeal.Hand.W4_of_ne m ρ c F8 Cert.KernelIdeal.main_arg2 (by decide)).trans (Cert.KernelIdeal.Hand.W3_arg2 m ρ c)),
      (hmem _ (Cert.KernelIdeal.Hand.mem_uc Cert.KernelIdeal.main_arg3 (by decide))).trans ((Cert.KernelIdeal.Hand.W4_of_ne m ρ c F8 Cert.KernelIdeal.main_arg3 (by decide)).trans (Cert.KernelIdeal.Hand.W3_arg3 m ρ c)),
      (hmem _ (Cert.KernelIdeal.Hand.mem_uc Cert.KernelIdeal.main_arg4 (by decide))).trans ((Cert.KernelIdeal.Hand.W4_of_ne m ρ c F8 Cert.KernelIdeal.main_arg4 (by decide)).trans (Cert.KernelIdeal.Hand.W3_arg4 m ρ c)),
      (hmem _ (Cert.KernelIdeal.Hand.mem_uc Cert.KernelIdeal.main_arg5 (by decide))).trans ((Cert.KernelIdeal.Hand.W4_of_ne m ρ c F8 Cert.KernelIdeal.main_arg5 (by decide)).trans (Cert.KernelIdeal.Hand.W3_arg5 m ρ c))⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v45_eq, Cert.RefValue.ref_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
